-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S16x64x1024 : Shape := ⟨3, ![16, 64, 1024]⟩
abbrev S1x1024 : Shape := ⟨2, ![1, 1024]⟩
abbrev S1x1x2048x64 : Shape := ⟨4, ![1, 1, 2048, 64]⟩
abbrev S1x64x1024 : Shape := ⟨3, ![1, 64, 1024]⟩
abbrev S1x2048x1024 : Shape := ⟨3, ![1, 2048, 1024]⟩
abbrev S2048x1024 : Shape := ⟨2, ![2048, 1024]⟩
abbrev S1x1x256x64 : Shape := ⟨4, ![1, 1, 256, 64]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S64x1024 : Shape := ⟨2, ![64, 1024]⟩
abbrev S256x1024 : Shape := ⟨2, ![256, 1024]⟩

abbrev nBuf : Space → Nat
  | .hbm => 26
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S8192x1024, .bf16⟩
  | .hbm, ⟨7, _⟩ => ⟨S1024x3072, .f32⟩
  | .hbm, ⟨8, _⟩ => ⟨S1024x3072, .bf16⟩
  | .hbm, ⟨9, _⟩ => ⟨S1x3072, .f32⟩
  | .hbm, ⟨10, _⟩ => ⟨S8192x3072, .bf16⟩
  | .hbm, ⟨11, _⟩ => ⟨S4x2048x3072, .bf16⟩
  | .hbm, ⟨12, _⟩ => ⟨S4x2048x1024, .bf16⟩
  | .hbm, ⟨13, _⟩ => ⟨S4x2048x1024, .bf16⟩
  | .hbm, ⟨14, _⟩ => ⟨S4x2048x1024, .bf16⟩
  | .hbm, ⟨15, _⟩ => ⟨S4x2048x16x64, .bf16⟩
  | .hbm, ⟨16, _⟩ => ⟨S4x16x2048x64, .bf16⟩
  | .hbm, ⟨17, _⟩ => ⟨S4x2048x16x64, .bf16⟩
  | .hbm, ⟨18, _⟩ => ⟨S4x16x2048x64, .bf16⟩
  | .hbm, ⟨19, _⟩ => ⟨S4x2048x16x64, .bf16⟩
  | .hbm, ⟨20, _⟩ => ⟨S4x16x2048x64, .bf16⟩
  | .hbm, ⟨21, _⟩ => ⟨S1024x1024, .f32⟩
  | .hbm, ⟨22, _⟩ => ⟨S16x64x1024, .f32⟩
  | .hbm, ⟨23, _⟩ => ⟨S16x64x1024, .bf16⟩
  | .hbm, ⟨24, _⟩ => ⟨S1x1024, .f32⟩
  | .hbm, ⟨25, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1x2048x64, .bf16⟩
  | .local _ .vmem, ⟨7, _⟩ => ⟨S1x1x2048x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x64x1024, .bf16⟩
  | .local _ .vmem, ⟨13, _⟩ => ⟨S1x64x1024, .bf16⟩
  | .local _ .vmem, ⟨14, _⟩ => ⟨S1x1024, .f32⟩
  | .local _ .vmem, ⟨15, _⟩ => ⟨S1x2048x1024, .f32⟩
  | .local _ .vmem, ⟨16, _⟩ => ⟨S1x2048x1024, .f32⟩
  | .local _ .vmem, ⟨17, _⟩ => ⟨S2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

@[reducible] def k1_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k1_mult1 (k1_t1 : Fin k1_t1_loop.trips) : BitVec 32 :=
  let c0_i32_5 : BitVec 32 := 0#32
  let c0_i32_1 : BitVec 32 := 0#32
  let c1_i32 : BitVec 32 := 1#32
  let arg9 : BitVec 32 := Scf.iv c0_i32_1 c1_i32 k1_t1
  let c1_i32_4 : BitVec 32 := 1#32
  let v7 : BitVec 32 := Scalar.muli arg9 c1_i32_4
  let v8 : BitVec 32 := Scalar.addi c0_i32_5 v7
  let c256_i32 : BitVec 32 := 256#32
  let v9 : BitVec 32 := Scalar.muli v8 c256_i32
  v9
def k1_off1 (k1_t1 : Fin k1_t1_loop.trips) : Fin 4 → Nat :=
  let c0 : Index := 0#32
  let c0_6 : Index := 0#32
  let c0_i32_5 : BitVec 32 := 0#32
  let c0_i32_1 : BitVec 32 := 0#32
  let c1_i32 : BitVec 32 := 1#32
  let arg9 : BitVec 32 := Scf.iv c0_i32_1 c1_i32 k1_t1
  let c1_i32_4 : BitVec 32 := 1#32
  let v7 : BitVec 32 := Scalar.muli arg9 c1_i32_4
  let v8 : BitVec 32 := Scalar.addi c0_i32_5 v7
  let c256_i32 : BitVec 32 := 256#32
  let v9 : BitVec 32 := Scalar.muli v8 c256_i32
  let v10 : BitVec 32 := v9
  let v11 : Index := Scalar.indexCast v10
  let c0_7 : Index := 0#32
  ![0, 0, v11.toNat, 0]
def k1_off2 (k1_t1 : Fin k1_t1_loop.trips) : Fin 2 → Nat :=
  let c0_i32_5 : BitVec 32 := 0#32
  let c0_i32_1 : BitVec 32 := 0#32
  let c1_i32 : BitVec 32 := 1#32
  let arg9 : BitVec 32 := Scf.iv c0_i32_1 c1_i32 k1_t1
  let c1_i32_4 : BitVec 32 := 1#32
  let v7 : BitVec 32 := Scalar.muli arg9 c1_i32_4
  let v8 : BitVec 32 := Scalar.addi c0_i32_5 v7
  let c256_i32 : BitVec 32 := 256#32
  let v9 : BitVec 32 := Scalar.muli v8 c256_i32
  let v10 : BitVec 32 := v9
  let v36 : Index := Scalar.indexCast v10
  let c0_24 : Index := 0#32
  ![v36.toNat, 0]
def k1_cond2 (i : grid1.Coords) : BitVec 1 :=
  let arg1 : BitVec 32 := BitVec.ofNat 32 (i 1).val
  let c15_i32 : BitVec 32 := 15#32
  let v4 : BitVec 1 := Scalar.cmpi .eq arg1 c15_i32
  let v5 : BitVec 32 := Scalar.extui v4
  let c0_i32_3 : BitVec 32 := 0#32
  let v6 : BitVec 1 := Scalar.cmpi .ne v5 c0_i32_3
  v6

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x64x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S4x2048x1024_S8192x1024 : S4x2048x1024.ShapeCasts S8192x1024
  bitsLt_bf16_f32 : FTy.bits .bf16 < FTy.bits .f32
  transposes_S3072x1024_S1024x3072_1_0 : S3072x1024.Transposes [1, 0] S1024x3072
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  transposes_S1024x1024_S1024x1024_1_0 : S1024x1024.Transposes [1, 0] S1024x1024
  shapeCasts_S1024x1024_S16x64x1024 : S1024x1024.ShapeCasts S16x64x1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S256x2048_S256 : S256x2048.Reduces [1] S256
  shapeCasts_S256_S256x1 : S256.ShapeCasts S256x1
  broadcasts_S256x1_S256x2048 : S256x1.Broadcasts S256x2048
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x64_S64x1024_S256x1024_1_0_0_1_n_n_wf : DotDims.WF S256x64 S64x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  k1_t1_ok : k1_t1_loop.OK
  k1_mult1_dvd : ∀ k1_t1 : Fin k1_t1_loop.trips, 256 ∣ (k1_mult1 k1_t1).toNat
  k1_off1_inb : ∀ k1_t1 : Fin k1_t1_loop.trips, ∀ a, (k1_off1 k1_t1) a + S1x1x256x64.size a ≤ S1x1x2048x64.size a
  k1_off2_inb : ∀ k1_t1 : Fin k1_t1_loop.trips, ∀ a, (k1_off2 k1_t1) a + S256x1024.size a ≤ S2048x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048x64.size a ≤ S4x16x2048x64.size a
  hwx1_0 : ∀ i : grid1.Coords, EltTy.bits .bf16 = 32 ∨ (Rect.block (s := S4x16x2048x64) S1x1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S4x16x2048x64.size a
  hwx1_1 : ∀ i : grid1.Coords, EltTy.bits .bf16 = 32 ∨ (Rect.block (s := S4x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S4x16x2048x64.size a
  hwx1_2 : ∀ i : grid1.Coords, EltTy.bits .bf16 = 32 ∨ (Rect.block (s := S4x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x1024.size a ≤ S16x64x1024.size a
  hwx1_3 : ∀ i : grid1.Coords, EltTy.bits .bf16 = 32 ∨ (Rect.block (s := S16x64x1024) S1x64x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x1024.size a ≤ S4x2048x1024.size a
  hwx1_5 : ∀ i : grid1.Coords, EltTy.bits .f32 = 32 ∨ (Rect.block (s := S4x2048x1024) S1x2048x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S1x1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x16x64, .f32⟩
  | .hbm, ⟨13, _⟩ => ⟨S4x16x2048x64, .f32⟩
  | .hbm, ⟨14, _⟩ => ⟨S4x2048x16x64, .f32⟩
  | .hbm, ⟨15, _⟩ => ⟨S4x16x2048x64, .f32⟩
  | .hbm, ⟨16, _⟩ => ⟨S4x2048x16x64, .f32⟩
  | .hbm, ⟨17, _⟩ => ⟨S4x16x2048x64, .f32⟩
  | .hbm, ⟨18, _⟩ => ⟨S4x16x2048x2048, .f32⟩
  | .hbm, ⟨19, _⟩ => ⟨S_, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S_, .f32⟩
  | .hbm, ⟨26, _⟩ => ⟨S4x16x2048, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S4x16x2048x1, .f32⟩
  | .hbm, ⟨35, _⟩ => ⟨S4x16x2048x2048, .f32⟩
  | .hbm, ⟨36, _⟩ => ⟨S4x16x2048x2048, .f32⟩
  | .hbm, ⟨37, _⟩ => ⟨S4x16x2048x64, .f32⟩
  | .hbm, ⟨38, _⟩ => ⟨S4x2048x16x64, .f32⟩
  | .hbm, ⟨39, _⟩ => ⟨S4x2048x1024, .f32⟩
  | .hbm, ⟨40, _⟩ => ⟨S4x2048x1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.B.Region0.lean ====
/- Region 0 of the program: the input projection x ↦ x · Wᵀ + b, computed 512 rows at a time.
   Everything here is stated at an arbitrary float instance and at arbitrary contents of the
   TensorCore's buffers when the region is entered.

   At grid point t the body sees four buffers: the t-th 512-row block of the activations, the whole
   weight matrix, the whole bias row, and the output buffer. It reads the first three whole, forms
   the product plus the bias broadcast down the rows, rounds, and overwrites the output buffer whole.
   The weight and the bias are brought in once, at the first point; at later points their buffers
   still hold the same block because their block index never moves. -/
import proofs.«120176_j20856361190136_2_alg».proof.Proof.Gen.Kernel.Launch
import proofs.«120176_j20856361190136_2_alg».proof.Proof.Gen.Kernel.Skeleton
import proofs.«120176_j20856361190136_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks the four windows cut out of their arrays -/

/-- The block of window `w` at grid point `t`, read out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- None of the four windows is ever cut short: each block lies inside its array, at every point. -/
theorem uncut (w : Fin cfg0.W) (i : cfg0.grid.Coords) (a) : (cfg0.win w).clip i a = none := by
  fin_cases w <;> rfl

/-- AN INPUT WINDOW'S BUFFER HOLDS THE WINDOW'S BLOCK AT EVERY POINT, whether the block was brought in at that point
    or earlier. For any proof data over the entry contents (`hA`) whose body leaves input `w`'s block in place
    (`hafter`). Stated on the part of the buffer the transfers move, which for these uncut windows is all of it.

    A buffer that is not refilled at a point still holds what the point before left in it, and that is this point's
    block when four things hold of the window: it is an input (`hin`), so only a fetch or the body writes its buffer;
    it is live at every point, this region having no idle point; the extent of its block does not depend on the
    point, nothing ever being cut (`uncut`); and the body leaves the block in place (`hafter`, the block being read
    off the entry contents by `hA`). A window that is not refilled has not moved, so the block left in place is this
    point's; and a fetch puts the block itself in the buffer, on the part it fills. -/
theorem input_found_at_block {c : Dev nD} (dat : Dat τ (Elt F) Unit ℕ (UR sig nD τ) ℕ cfg0 c) (w : Fin cfg0.W)
    (hin : (cfg0.win w).isOut = false) (hA : dat.A w = V c (Pipeline.arrRef spec0 w))
    (hafter : ∀ t, (cfg0.win w).cut (cfg0.grid.coords t) (dat.after w t) = blk0 V c w t) (t : Fin cfg0.N) (d) :
    (cfg0.win w).cut (cfg0.grid.coords t) (dat.before w t d) = blk0 V c w t := by
  have hblock : ∀ t, dat.blockOf w t = blk0 V c w t := fun t => by unfold Dat.blockOf blk0; rw [hA]
  have hidle : ∀ i, cfg0.idle w i = false := fun _ => rfl
  have hsamecut : ∀ t t' : Fin cfg0.N, (cfg0.win w).index t = (cfg0.win w).index t' →
      (cfg0.win w).clip (cfg0.grid.coords t) = (cfg0.win w).clip (cfg0.grid.coords t') :=
    fun t t' _ => funext fun a => (uncut w _ a).trans (uncut w _ a).symm
  have hkeep : ∀ t, (cfg0.win w).cut (cfg0.grid.coords t) (dat.after w t) = dat.blockOf w t :=
    fun t => (hafter t).trans (hblock t).symm
  rw [dat.before_in_eq_fetched w hin hidle hsamecut hkeep t d]
  unfold Dat.fetched
  rw [Window.cut_fill, hblock]

/-! ## The rectangles the body reads and writes: each buffer whole -/

abbrev rectX : Rect S512x1024 := Rect.unit (s := S512x1024) ![0, 0] S512x1024.size inb_S512x1024_S512x1024_0_0
abbrev rectW : Rect S1024x3072 := Rect.unit (s := S1024x3072) ![0, 0] S1024x3072.size inb_S1024x3072_S1024x3072_0_0
abbrev rectB : Rect S1x3072 := Rect.unit (s := S1x3072) ![0, 0] S1x3072.size inb_S1x3072_S1x3072_0_0
abbrev rectO : Rect S512x3072 := Rect.unit (s := S512x3072) ![0, 0] S512x3072.size inb_S512x3072_S512x3072_0_0

/-! ## The output tile -/

/-- What the body leaves in the output buffer, from a block of activations `x`, the weight `w` and the bias row
    `b`: its one store, of the rounded product-plus-bias of the three loads, over the whole buffer. -/
def tile0 (x : Vec F S512x1024 .bf16) (w : Vec F S1024x3072 .bf16) (b : Vec F S1x3072 .f32) : Vec F S512x3072 .bf16 :=
  View.canon [⟨rectO, k0_pay1 (View.ld x rectX) (View.ld w rectW) (View.ld b rectB)⟩]

/-- The one store is through the whole output buffer, so every index of the buffer is under it. -/
theorem tile0_cover (p : Vec F S512x3072 .bf16) (y : S512x3072.Idx) :
    ∃ pc ∈ ([⟨rectO, p⟩] : List (View.Piece (Elt F) S512x3072 .bf16)), y ∈ pc.1.set :=
  ⟨⟨rectO, p⟩, List.mem_singleton_self _,
    View.mem_set_unit_zero (funext fun a => by fin_cases a <;> rfl) inb_S512x3072_S512x3072_0_0 y⟩

/-! ## The body's triple -/

set_option maxHeartbeats 1000000 in
/-- The body on four whole buffers, the three inputs at known contents and the output at anything, runs to a
    state where the inputs are as they were and the output holds `tile0` of them: its three loads read the
    inputs, its load of the output buffer is not used, and its one store overwrites the output buffer whole. -/
theorem matmul_bias_triple (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x : Vec F S512x1024 .bf16) (w : Vec F S1024x3072 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (tile0 x w b)) -∗ K ⟨⟩))
      ⊢ wp frame (wpE (defs₀ (F := F)) Variants.none c none) E (cc0__matmul_bias_kernel i arg1 harg1 arg2 harg2 arg3 harg3 arg4 harg4) K := by
  -- the program by its skeleton; each buffer owned as its raw contents with what the memref reads of them
  sl_unfold [cc0__matmul_bias_kernel]
  unfold owns
  iintro ⟨⟨%f1, %hf1, H1⟩, ⟨%f2, %hf2, H2⟩, ⟨%f3, %hf3, H3⟩, ⟨%d4, %f4, %hf4, H4⟩, Hk⟩
  subst hf1 hf2 hf3
  -- the four loads and the store, then the return
  sl_exec
  sl_step
  -- the inputs' buffers were never written; the output's holds the old contents with the one store written over them
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  -- the output's contents are the ones `H4` holds: hand that over first, which names them
  iexists _; isplitr
  swap
  · iexact H4
  · ipureintro
    -- the store covers the buffer, so what the memref reads afterwards is the stored value, whatever was there
    exact View.read_writes_eq_canon _ _ _ (tile0_cover _)

/-! ## The region's proof data -/

/-- The arrays are the entry contents; after the body at point `t` the three input buffers hold their blocks
    and the output buffer holds the tile of those blocks; the scoped rest and the generator register are
    untouched, nothing is owed, every share is full. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => tile0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = tile0 (blk0 V c 0 t) (blk0 V c 1 t) (blk0 V c 2 t) := by dsimp only [dat0]

/-- The three inputs are found at their blocks (for an uncut window the part the transfers move is the whole buffer). -/
theorem before0_0 (c : Dev nD) (t : Fin cfg0.N) (d) : (dat0 V c).before 0 t d = blk0 V c 0 t :=
  input_found_at_block V (dat0 V c) 0 rfl (A_eq0 V c 0) (fun t => after0_0 V c t) t d
theorem before0_1 (c : Dev nD) (t : Fin cfg0.N) (d) : (dat0 V c).before 1 t d = blk0 V c 1 t :=
  input_found_at_block V (dat0 V c) 1 rfl (A_eq0 V c 1) (fun t => after0_1 V c t) t d
theorem before0_2 (c : Dev nD) (t : Fin cfg0.N) (d) : (dat0 V c).before 2 t d = blk0 V c 2 t :=
  input_found_at_block V (dat0 V c) 2 rfl (A_eq0 V c 2) (fun t => after0_2 V c t) t d

/-! ## The body obligation at a generic point -/

/-- What the body is handed at point `t`: the invariant, what the core owes, and each window's current buffer at what
    it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The invariant does not depend on the point, -/
theorem inv_next (c : Dev nD) (t : Fin cfg0.N) : (dat0 V c).Φ t.succ = (dat0 V c).Φ t.castSucc := rfl
/-- and neither does what the core owes: nothing, throughout. -/
theorem owes_next (c : Dev nD) (t : Fin cfg0.N) : (dat0 V c).owesAt () t.succ = (dat0 V c).owesAt () t.castSucc := rfl

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  -- each input's buffer holds its block, whatever it held before the last fetch; what the body leaves is named
  simp only [before0_0, before0_1, before0_2]
  rw [inv_next, owes_next, after0_0, after0_1, after0_2, after0_3]
  iintro ⟨HΦ, Ho, ⟨%d0, H0⟩, ⟨%d1, H1⟩, ⟨%d2, H2⟩, ⟨%d3, H3⟩⟩
  -- the body is the kernel function on the four current buffers: its triple at the three blocks
  iapply (matmul_bias_triple c Set.univ (grid0.coords t) _ _ _ _ _ _ _ _ (blk0 V c 0 t) (blk0 V c 1 t) (blk0 V c 2 t) _)
  isplitl [H0]
  · iexact H0
  isplitl [H1]
  · iexact H1
  isplitl [H2]
  · iexact H2
  isplitl [H3]
  · iexists _; iexact H3
  -- afterwards: the invariant and what the core owes are the same at the next point, the buffers as the triple leaves them
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- At every point the body runs from what it is handed to what it hands back: the statement above, the four windows
    taken one by one. -/
theorem body_obligation0 (c : Dev nD) : BodyObligation (dat0 (F := F) V c) (defs₀ (F := F)) Variants.none () Set.univ := fun t => by
  rw [bigSep_W0, bigSep_W0]
  exact sound_body0 V c t

end Cert.Kernel.Reg0

end
-- ==== Proof.B.Region1Base.lean ====
import proofs.«120176_j20856361190136_2_alg».proof.Proof.Gen.Kernel.Launch
import proofs.«120176_j20856361190136_2_alg».proof.Proof.Gen.Kernel.Skeleton
import proofs.«120176_j20856361190136_2_alg».proof.Proof.Gen.Kernel.Loops
import proofs.«120176_j20856361190136_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition (the head coordinate is 0), from the grid coordinates. -/
abbrev cond1_0 (i : grid1.Coords) : Prop := (Scalar.cmpi .ne (Scalar.extui (Scalar.cmpi .eq (BitVec.ofNat 32 (i 1).val) 0#32)) 0#32) = 1#1
/-- It holds exactly at the points whose position is 0 modulo 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition (the head coordinate is 15). -/
abbrev cond1_1 (i : grid1.Coords) : Prop := k1_cond2 i = 1#1
/-- It holds exactly at the points whose position is 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second condition fails the output window is idle and not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the output window is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1x1x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048x1024 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1 : Memref sig .tc .vmem S2048x1024 .f32 := Memref.whole cc1_scratch0
/-- The scratch as a view: its contents are stated through it. -/
abbrev VS1 : View sig .tc .vmem S2048x1024 .f32 := (scM1).view
/-- One staging buffer of the output window, through which its contents are stated. -/
abbrev VO1 : View sig .tc .vmem S1x2048x1024 .f32 := (Memref.whole cc1_stg5_0 : Memref sig .tc .vmem S1x2048x1024 .f32).view

/-- The region's invariant as the launch hands it over, the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body's resources, in raw form -/

/-- What the body holds of its seven memrefs: the five inputs at the raw contents reading `x0 … x4`, the
    output's buffer at raw contents `g7` and the scratch at raw contents `g8`. -/
abbrev Res1 (c : Dev nD) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole)
    (x0 : Vec F S1x1x2048x64 .bf16) (x1 : Vec F S1x1x2048x64 .bf16) (x2 : Vec F S1x1x2048x64 .bf16) (x3 : Vec F S1x64x1024 .bf16) (x4 : Vec F S1x1024 .f32) (g7 : BufTy.Contents (Elt F) arg7.view.ty) (g8 : BufTy.Contents (Elt F) arg8.view.ty) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} g7) ∗ (arg8.view.loc (c : Thread nD τ) ↦[arg8.view.set]{fullShare} g8))

end Cert.Kernel.Reg1

end
-- ==== Proof.B.Region1RunF.lean ====
import proofs.«120176_j20856361190136_2_alg».proof.Proof.B.Region1Base

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A FIRST point (head 0): the scratch is reset, then the eight query tiles accumulate into it; the output's
    buffer is not touched. The witness `LS` lists the pieces written into the scratch;
    they stand over junk, the reset covering whatever `g8` the scratch held. -/
noncomputable def runFirst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond1_0 i) (hc1 : ¬cond1_1 i)
    (x0 : Vec F S1x1x2048x64 .bf16) (x1 : Vec F S1x1x2048x64 .bf16) (x2 : Vec F S1x1x2048x64 .bf16) (x3 : Vec F S1x64x1024 .bf16) (x4 : Vec F S1x1024 .f32) :
    { LS : List (View.Piece (Elt F) S2048x1024 .f32) //
      ∀ (g7 : BufTy.Contents (Elt F) arg7.view.ty) (g8 : BufTy.Contents (Elt F) arg8.view.ty) (E : Set ℕ),
        Res1 (F := F) c arg2 harg2 arg3 harg3 arg4 harg4 arg5 harg5 arg6 harg6 arg7 harg7 arg8 harg8 x0 x1 x2 x3 x4 g7 g8
          ⊢ wp frame (wpE (defs₀ (F := F)) Variants.none c none) E (cc1__fused_attn_outproj_kernel i arg2 harg2 arg3 harg3 arg4 harg4 arg5 harg5 arg6 harg6 arg7 harg7 arg8 harg8)
              (fun _ => Res1 (F := F) c arg2 harg2 arg3 harg3 arg4 harg4 arg5 harg5 arg6 harg6 arg7 harg7 arg8 harg8 x0 x1 x2 x3 x4 g7 (arg8.view.writes (Elt F) arg8.view.junk LS)) } := by
  refine ⟨?_, fun g7 g8 E => ?triple⟩
  case triple =>
    simp only [cc1__fused_attn_outproj_kernel_eq_skeleton]; unfold cc1__fused_attn_outproj_kernel_skel
    iintro ⟨H0, H1, H2, H3, H4, H7, H8⟩
    sl_exec (disch := first | exact hc0 | exact hc1)
    sl_step
    sl_close

end Cert.Kernel.Reg1

end
-- ==== Proof.B.Region1RunM.lean ====
import proofs.«120176_j20856361190136_2_alg».proof.Proof.B.Region1Base

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE point (head strictly between 0 and 15): the eight query tiles accumulate into the scratch, which
    reads `xs` on entry; the output's buffer is not touched. The witness `LS` lists the pieces
    written into the scratch, over its entry contents. -/
noncomputable def runMiddle (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : ¬cond1_1 i)
    (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    { LS : List (View.Piece (Elt F) S2048x1024 .f32) //
      ∀ (g7 : BufTy.Contents (Elt F) arg7.view.ty) (E : Set ℕ),
        Res1 (F := F) c arg2 harg2 arg3 harg3 arg4 harg4 arg5 harg5 arg6 harg6 arg7 harg7 arg8 harg8 x0 x1 x2 x3 x4 g7 (harg8.unread xs)
          ⊢ wp frame (wpE (defs₀ (F := F)) Variants.none c none) E (cc1__fused_attn_outproj_kernel i arg2 harg2 arg3 harg3 arg4 harg4 arg5 harg5 arg6 harg6 arg7 harg7 arg8 harg8)
              (fun _ => Res1 (F := F) c arg2 harg2 arg3 harg3 arg4 harg4 arg5 harg5 arg6 harg6 arg7 harg7 arg8 harg8 x0 x1 x2 x3 x4 g7 (arg8.view.writes (Elt F) (harg8.unread xs) LS)) } := by
  refine ⟨?_, fun g7 E => ?triple⟩
  case triple =>
    simp only [cc1__fused_attn_outproj_kernel_eq_skeleton]; unfold cc1__fused_attn_outproj_kernel_skel
    iintro ⟨H0, H1, H2, H3, H4, H7, H8⟩
    sl_exec (disch := first | exact hc0 | exact hc1)
    sl_step
    sl_close

end Cert.Kernel.Reg1

end
-- ==== Proof.B.Region1RunL.lean ====
import proofs.«120176_j20856361190136_2_alg».proof.Proof.B.Region1Base

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A LAST point (head 15): the eight query tiles accumulate into the scratch, which reads `xs` on entry; then
    the scratch plus the bias row is stored over the whole output buffer. The witnesses list the pieces
    written into the output's buffer (`L5`) and into the scratch (`LS`). -/
noncomputable def runLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i)
    (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    Σ' (L5 : List (View.Piece (Elt F) S1x2048x1024 .f32)), { LS : List (View.Piece (Elt F) S2048x1024 .f32) //
      ∀ (g7 : BufTy.Contents (Elt F) arg7.view.ty) (E : Set ℕ),
        Res1 (F := F) c arg2 harg2 arg3 harg3 arg4 harg4 arg5 harg5 arg6 harg6 arg7 harg7 arg8 harg8 x0 x1 x2 x3 x4 g7 (harg8.unread xs)
          ⊢ wp frame (wpE (defs₀ (F := F)) Variants.none c none) E (cc1__fused_attn_outproj_kernel i arg2 harg2 arg3 harg3 arg4 harg4 arg5 harg5 arg6 harg6 arg7 harg7 arg8 harg8)
              (fun _ => Res1 (F := F) c arg2 harg2 arg3 harg3 arg4 harg4 arg5 harg5 arg6 harg6 arg7 harg7 arg8 harg8 x0 x1 x2 x3 x4 (arg7.view.writes (Elt F) g7 L5) (arg8.view.writes (Elt F) (harg8.unread xs) LS)) } := by
  refine ⟨?_, ?_, fun g7 E => ?triple⟩
  case triple =>
    simp only [cc1__fused_attn_outproj_kernel_eq_skeleton]; unfold cc1__fused_attn_outproj_kernel_skel
    iintro ⟨H0, H1, H2, H3, H4, H7, H8⟩
    sl_exec (disch := first | exact hc0 | exact hc1)
    sl_step
    sl_close

end Cert.Kernel.Reg1

end
-- ==== Proof.B.Region1Cases.lean ====
import proofs.«120176_j20856361190136_2_alg».proof.Proof.B.Region1RunF
import proofs.«120176_j20856361190136_2_alg».proof.Proof.B.Region1RunM
import proofs.«120176_j20856361190136_2_alg».proof.Proof.B.Region1RunL

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Owned contents and raw contents of a whole memref -/

/-- A whole memref owned at contents `X` holds the raw contents that read `X`. -/
theorem owns_raw (c : Dev nD) {sh : Shape} {e : EltTy} (m : Memref sig .tc .vmem sh e) (h : m.IsWhole) (X : sh.Idx → Elt F e) :
    (owns (c : Thread nD τ) m fullShare X : sProp 𝕄) ⊢ (m.view.loc (c : Thread nD τ) ↦[m.view.set]{fullShare} h.unread X) := by
  unfold owns
  iintro ⟨%f, %hf, H⟩
  obtain rfl := h.eq_unread hf
  iexact H

/-- Conversely the raw contents that read `X` are the memref owned at `X`. -/
theorem raw_owns (c : Dev nD) {sh : Shape} {e : EltTy} (m : Memref sig .tc .vmem sh e) (h : m.IsWhole) (X : sh.Idx → Elt F e) :
    (m.view.loc (c : Thread nD τ) ↦[m.view.set]{fullShare} h.unread X) ⊢ (owns (c : Thread nD τ) m fullShare X : sProp 𝕄) := by
  unfold owns
  iintro H
  iexists (h.unread X)
  isplitr
  · ipureintro; exact h.read_unread X
  · iexact H

/-- Pieces that cover a shape, written over any raw contents `g`, are the memref owned at what they read back
    over junk. -/
theorem writes_owns (c : Dev nD) {sh : Shape} {e : EltTy} (m : Memref sig .tc .vmem sh e) (g : BufTy.Contents (Elt F) m.view.ty)
    (L : List (View.Piece (Elt F) sh e)) (hL : ∀ y : sh.Idx, ∃ p ∈ L, y ∈ p.1.set) :
    (m.view.loc (c : Thread nD τ) ↦[m.view.set]{fullShare} m.view.writes (Elt F) g L)
      ⊢ (owns (c : Thread nD τ) m fullShare (m.view.read (Elt F) (m.view.writes (Elt F) m.view.junk L)) : sProp 𝕄) := by
  unfold owns
  iintro H
  iexists (m.view.writes (Elt F) g L)
  isplitr
  · ipureintro; exact View.read_writes_of_cover m.view g m.view m.view.junk L hL
  · iexact H

/-! ## The three cases, read back -/

/-- FIRST: among the scratch's pieces, eight slabs of 256 rows tile it. -/
theorem tilesFirst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) :
    View.Piece.tiledL (runFirst c i arg2 harg2 arg3 harg3 arg4 harg4 arg5 harg5 arg6 harg6 arg7 harg7 arg8 harg8 hc0 hc1 x0 x1 x2 x3 x4).1 S256x1024.size = true := by sl_kernel_rfl

/-- What a FIRST point leaves in the scratch. -/
def scrFirst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) : Vec F S2048x1024 .f32 :=
  arg8.view.read (Elt F) (arg8.view.writes (Elt F) arg8.view.junk (runFirst c i arg2 harg2 arg3 harg3 arg4 harg4 arg5 harg5 arg6 harg6 arg7 harg7 arg8 harg8 hc0 hc1 x0 x1 x2 x3 x4).1)

/-- FIRST, over owned contents: the scratch enters at anything and leaves at `scrFirst`; everything else as it was. -/
theorem specFirst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32)
    (y5 : Vec F S1x2048x1024 .f32) (d : Vec F S2048x1024 .f32) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare d) : sProp 𝕄)
      ⊢ wp frame (wpE (defs₀ (F := F)) Variants.none c none) E (cc1__fused_attn_outproj_kernel i arg2 harg2 arg3 harg3 arg4 harg4 arg5 harg5 arg6 harg6 arg7 harg7 arg8 harg8)
          (fun _ => (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (scrFirst c i arg2 harg2 arg3 harg3 arg4 harg4 arg5 harg5 arg6 harg6 arg7 harg7 arg8 harg8 hc0 hc1 x0 x1 x2 x3 x4)) : sProp 𝕄)) :=
  (BIClass.sep_mono (owns_raw c arg2 harg2 x0) (BIClass.sep_mono (owns_raw c arg3 harg3 x1) (BIClass.sep_mono (owns_raw c arg4 harg4 x2) (BIClass.sep_mono (owns_raw c arg5 harg5 x3) (BIClass.sep_mono (owns_raw c arg6 harg6 x4) (BIClass.sep_mono (owns_raw c arg7 harg7 y5) (owns_raw c arg8 harg8 d))))))).trans
    (((runFirst c i arg2 harg2 arg3 harg3 arg4 harg4 arg5 harg5 arg6 harg6 arg7 harg7 arg8 harg8 hc0 hc1 x0 x1 x2 x3 x4).2 _ _ E).trans
      (wp_mono _ _ _ fun _ => BIClass.sep_mono (raw_owns c arg2 harg2 x0) (BIClass.sep_mono (raw_owns c arg3 harg3 x1) (BIClass.sep_mono (raw_owns c arg4 harg4 x2) (BIClass.sep_mono (raw_owns c arg5 harg5 x3) (BIClass.sep_mono (raw_owns c arg6 harg6 x4) (BIClass.sep_mono (raw_owns c arg7 harg7 y5)
        (writes_owns c arg8 _ _ (View.cover_of_tiledL _ _ (tilesFirst c i arg2 harg2 arg3 harg3 arg4 harg4 arg5 harg5 arg6 harg6 arg7 harg7 arg8 harg8 hc0 hc1 x0 x1 x2 x3 x4))))))))))

/-- MIDDLE: the scratch's pieces are eight slabs of 256 rows tiling it. -/
theorem tilesMiddle (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    View.Piece.tiledL (runMiddle c i arg2 harg2 arg3 harg3 arg4 harg4 arg5 harg5 arg6 harg6 arg7 harg7 arg8 harg8 hc0 hc1 x0 x1 x2 x3 x4 xs).1 S256x1024.size = true := by sl_kernel_rfl

/-- What a MIDDLE point leaves in the scratch, from the contents `xs` it found there. -/
def scrMiddle (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) : Vec F S2048x1024 .f32 :=
  arg8.view.read (Elt F) (arg8.view.writes (Elt F) arg8.view.junk (runMiddle c i arg2 harg2 arg3 harg3 arg4 harg4 arg5 harg5 arg6 harg6 arg7 harg7 arg8 harg8 hc0 hc1 x0 x1 x2 x3 x4 xs).1)

/-- MIDDLE, over owned contents: the scratch enters at `xs` and leaves at `scrMiddle`; everything else as it was. -/
theorem specMiddle (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32)
    (y5 : Vec F S1x2048x1024 .f32) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs) : sProp 𝕄)
      ⊢ wp frame (wpE (defs₀ (F := F)) Variants.none c none) E (cc1__fused_attn_outproj_kernel i arg2 harg2 arg3 harg3 arg4 harg4 arg5 harg5 arg6 harg6 arg7 harg7 arg8 harg8)
          (fun _ => (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (scrMiddle c i arg2 harg2 arg3 harg3 arg4 harg4 arg5 harg5 arg6 harg6 arg7 harg7 arg8 harg8 hc0 hc1 x0 x1 x2 x3 x4 xs)) : sProp 𝕄)) :=
  (BIClass.sep_mono (owns_raw c arg2 harg2 x0) (BIClass.sep_mono (owns_raw c arg3 harg3 x1) (BIClass.sep_mono (owns_raw c arg4 harg4 x2) (BIClass.sep_mono (owns_raw c arg5 harg5 x3) (BIClass.sep_mono (owns_raw c arg6 harg6 x4) (BIClass.sep_mono (owns_raw c arg7 harg7 y5) (owns_raw c arg8 harg8 xs))))))).trans
    (((runMiddle c i arg2 harg2 arg3 harg3 arg4 harg4 arg5 harg5 arg6 harg6 arg7 harg7 arg8 harg8 hc0 hc1 x0 x1 x2 x3 x4 xs).2 _ E).trans
      (wp_mono _ _ _ fun _ => BIClass.sep_mono (raw_owns c arg2 harg2 x0) (BIClass.sep_mono (raw_owns c arg3 harg3 x1) (BIClass.sep_mono (raw_owns c arg4 harg4 x2) (BIClass.sep_mono (raw_owns c arg5 harg5 x3) (BIClass.sep_mono (raw_owns c arg6 harg6 x4) (BIClass.sep_mono (raw_owns c arg7 harg7 y5)
        (writes_owns c arg8 _ _ (View.cover_of_tiledL _ _ (tilesMiddle c i arg2 harg2 arg3 harg3 arg4 harg4 arg5 harg5 arg6 harg6 arg7 harg7 arg8 harg8 hc0 hc1 x0 x1 x2 x3 x4 xs))))))))))

/-- LAST: the scratch's pieces are eight slabs of 256 rows tiling it. -/
theorem tilesLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    View.Piece.tiledL (runLast c i arg2 harg2 arg3 harg3 arg4 harg4 arg5 harg5 arg6 harg6 arg7 harg7 arg8 harg8 hc0 hc1 x0 x1 x2 x3 x4 xs).2.1 S256x1024.size = true := by sl_kernel_rfl

/-- LAST: the output buffer's one piece is the whole block. -/
theorem tilesOut (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    View.Piece.tiledL (runLast c i arg2 harg2 arg3 harg3 arg4 harg4 arg5 harg5 arg6 harg6 arg7 harg7 arg8 harg8 hc0 hc1 x0 x1 x2 x3 x4 xs).1 S1x2048x1024.size = true := by sl_kernel_rfl

/-- What a LAST point leaves in the scratch, from the contents `xs` it found there. -/
def scrLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) : Vec F S2048x1024 .f32 :=
  arg8.view.read (Elt F) (arg8.view.writes (Elt F) arg8.view.junk (runLast c i arg2 harg2 arg3 harg3 arg4 harg4 arg5 harg5 arg6 harg6 arg7 harg7 arg8 harg8 hc0 hc1 x0 x1 x2 x3 x4 xs).2.1)

/-- What a LAST point leaves in the output's buffer. -/
def outLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) : Vec F S1x2048x1024 .f32 :=
  arg7.view.read (Elt F) (arg7.view.writes (Elt F) arg7.view.junk (runLast c i arg2 harg2 arg3 harg3 arg4 harg4 arg5 harg5 arg6 harg6 arg7 harg7 arg8 harg8 hc0 hc1 x0 x1 x2 x3 x4 xs).1)

/-- LAST, over owned contents: the scratch enters at `xs` and leaves at `scrLast`, the output's buffer enters at
    anything and leaves at `outLast`; the inputs as they were. -/
theorem specLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32)
    (y5 : Vec F S1x2048x1024 .f32) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs) : sProp 𝕄)
      ⊢ wp frame (wpE (defs₀ (F := F)) Variants.none c none) E (cc1__fused_attn_outproj_kernel i arg2 harg2 arg3 harg3 arg4 harg4 arg5 harg5 arg6 harg6 arg7 harg7 arg8 harg8)
          (fun _ => (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outLast c i arg2 harg2 arg3 harg3 arg4 harg4 arg5 harg5 arg6 harg6 arg7 harg7 arg8 harg8 hc0 hc1 x0 x1 x2 x3 x4 xs) ∗ owns (c : Thread nD τ) arg8 fullShare (scrLast c i arg2 harg2 arg3 harg3 arg4 harg4 arg5 harg5 arg6 harg6 arg7 harg7 arg8 harg8 hc0 hc1 x0 x1 x2 x3 x4 xs)) : sProp 𝕄)) :=
  (BIClass.sep_mono (owns_raw c arg2 harg2 x0) (BIClass.sep_mono (owns_raw c arg3 harg3 x1) (BIClass.sep_mono (owns_raw c arg4 harg4 x2) (BIClass.sep_mono (owns_raw c arg5 harg5 x3) (BIClass.sep_mono (owns_raw c arg6 harg6 x4) (BIClass.sep_mono (owns_raw c arg7 harg7 y5) (owns_raw c arg8 harg8 xs))))))).trans
    (((runLast c i arg2 harg2 arg3 harg3 arg4 harg4 arg5 harg5 arg6 harg6 arg7 harg7 arg8 harg8 hc0 hc1 x0 x1 x2 x3 x4 xs).2.2 _ E).trans
      (wp_mono _ _ _ fun _ => BIClass.sep_mono (raw_owns c arg2 harg2 x0) (BIClass.sep_mono (raw_owns c arg3 harg3 x1) (BIClass.sep_mono (raw_owns c arg4 harg4 x2) (BIClass.sep_mono (raw_owns c arg5 harg5 x3) (BIClass.sep_mono (raw_owns c arg6 harg6 x4) (BIClass.sep_mono
        (writes_owns c arg7 _ _ (View.cover_of_tiledL _ _ (tilesOut c i arg2 harg2 arg3 harg3 arg4 harg4 arg5 harg5 arg6 harg6 arg7 harg7 arg8 harg8 hc0 hc1 x0 x1 x2 x3 x4 xs)))
        (writes_owns c arg8 _ _ (View.cover_of_tiledL _ _ (tilesLast c i arg2 harg2 arg3 harg3 arg4 harg4 arg5 harg5 arg6 harg6 arg7 harg7 arg8 harg8 hc0 hc1 x0 x1 x2 x3 x4 xs))))))))))

end Cert.Kernel.Reg1

end
-- ==== Proof.B.Region1.lean ====
import proofs.«120176_j20856361190136_2_alg».proof.Proof.B.Region1Cases

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of each core's buffers: a parameter
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Point by point -/

/-- Contents of the output's buffer that nothing consults: at the points where the window is idle nothing is
    stored into it, and it is neither written back there nor read at the next point. -/
def outIdle : Vec F S1x2048x1024 .f32 := VO1.read (Elt F) VO1.junk

/-- Contents of the scratch before the first point: nothing consults them, the first point resets it. -/
def scrIdle : Vec F S2048x1024 .f32 := VS1.read (Elt F) VS1.junk

/-- ONE POINT. What the output window's current buffer and the scratch hold after the body at point `t`, given
    what the scratch held before it: by the head coordinate, which is `t` modulo 16. -/
def stepAt (c : Dev nD) (t : Fin cfg1.N) (prev : Vec F S2048x1024 .f32) : Vec F S1x2048x1024 .f32 × Vec F S2048x1024 .f32 :=
  if h0 : t.val % 16 = 0 then
    (outIdle, scrFirst c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => by have h15 := (hcond1_1 t).mp h; omega) (blk1 V c 0 t) (blk1 V c 1 t) (blk1 V c 2 t) (blk1 V c 3 t) (blk1 V c 4 t))
  else if h1 : t.val % 16 = 15 then
    (outLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blk1 V c 0 t) (blk1 V c 1 t) (blk1 V c 2 t) (blk1 V c 3 t) (blk1 V c 4 t) prev, scrLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blk1 V c 0 t) (blk1 V c 1 t) (blk1 V c 2 t) (blk1 V c 3 t) (blk1 V c 4 t) prev)
  else
    (outIdle, scrMiddle c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (blk1 V c 0 t) (blk1 V c 1 t) (blk1 V c 2 t) (blk1 V c 3 t) (blk1 V c 4 t) prev)

/-- THE ACCUMULATION. What the scratch holds before position `n`: what the point before left there. -/
def scrBefore (c : Dev nD) : (n : ℕ) → n ≤ cfg1.N → Vec F S2048x1024 .f32
  | 0, _ => scrIdle
  | n + 1, h => (stepAt V c ⟨n, h⟩ (scrBefore c n (Nat.le_of_lt h))).2

/-- What the output window's current buffer and the scratch hold after the body at position `n`. -/
def heldAt (c : Dev nD) (n : ℕ) (hn : n < cfg1.N) : Vec F S1x2048x1024 .f32 × Vec F S2048x1024 .f32 :=
  stepAt V c ⟨n, hn⟩ (scrBefore V c n (Nat.le_of_lt hn))

/-- The scratch before position `n + 1` is what point `n` left. -/
theorem scrBefore_succ (c : Dev nD) (n : ℕ) (hn : n < cfg1.N) : scrBefore V c (n + 1) hn = (heldAt V c n hn).2 := rfl

/-- The scratch before a position that is not the first is what the point before left. -/
theorem scrBefore_pos (c : Dev nD) (n : ℕ) (h : n ≤ cfg1.N) (hz : n ≠ 0) :
    scrBefore V c n h = (heldAt V c (n - 1) (by omega)).2 := by
  cases n with
  | zero => exact absurd rfl hz
  | succ n => rfl

/-- `heldAt` at a FIRST point. -/
theorem heldAt_first (c : Dev nD) (t : Fin cfg1.N) (h0 : t.val % 16 = 0) :
    heldAt V c t.val t.isLt = (outIdle, scrFirst c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => by have h15 := (hcond1_1 t).mp h; omega) (blk1 V c 0 t) (blk1 V c 1 t) (blk1 V c 2 t) (blk1 V c 3 t) (blk1 V c 4 t)) :=
  dif_pos h0

/-- `heldAt` at a MIDDLE point, over what the scratch held before it. -/
theorem heldAt_middle (c : Dev nD) (t : Fin cfg1.N) (h0 : ¬t.val % 16 = 0) (h1 : ¬t.val % 16 = 15) :
    heldAt V c t.val t.isLt = (outIdle, scrMiddle c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (blk1 V c 0 t) (blk1 V c 1 t) (blk1 V c 2 t) (blk1 V c 3 t) (blk1 V c 4 t) (scrBefore V c t.val (Nat.le_of_lt t.isLt))) :=
  (dif_neg h0).trans (dif_neg h1)

/-- `heldAt` at a LAST point, over what the scratch held before it. -/
theorem heldAt_last (c : Dev nD) (t : Fin cfg1.N) (h0 : ¬t.val % 16 = 0) (h1 : t.val % 16 = 15) :
    heldAt V c t.val t.isLt = (outLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blk1 V c 0 t) (blk1 V c 1 t) (blk1 V c 2 t) (blk1 V c 3 t) (blk1 V c 4 t) (scrBefore V c t.val (Nat.le_of_lt t.isLt)), scrLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blk1 V c 0 t) (blk1 V c 1 t) (blk1 V c 2 t) (blk1 V c 3 t) (blk1 V c 4 t) (scrBefore V c t.val (Nat.le_of_lt t.isLt))) :=
  (dif_neg h0).trans (dif_pos h1)

/-! ## The invariant and the proof data -/

/-- What the region holds beside the windows and the scratch: the other scoped buffers, each at anything, and
    the generator register at some state. The body touches none of it. -/
abbrev Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ r, prngReg c r))

/-- What the launch hands the region, with the scratch singled out. -/
theorem PhiA_split (c : Dev nD) :
    (Pipeline.ΦA spec1 c : sProp 𝕄) ⊢ iprop((∃ d, owns (c : Thread nD τ) scM1 fullShare d) ∗ Rest1 (F := F) c) := by
  rw [PhiA1_eq]
  iintro ⟨⟨A0, A1, A2, A3, A4, A5, HS⟩, Hg⟩
  isplitl [HS]
  · iexact HS
  isplitl [A0]; · iexact A0
  isplitl [A1]; · iexact A1
  isplitl [A2]; · iexact A2
  isplitl [A3]; · iexact A3
  isplitl [A4]; · iexact A4
  isplitl [A5]; · iexact A5
  iexact Hg

/-- And back. -/
theorem PhiA_join (c : Dev nD) :
    iprop((∃ d, owns (c : Thread nD τ) scM1 fullShare d) ∗ Rest1 (F := F) c) ⊢ (Pipeline.ΦA spec1 c : sProp 𝕄) := by
  rw [PhiA1_eq]
  iintro ⟨HS, A0, A1, A2, A3, A4, A5, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexact HS
  · iexact Hg

/-- The region's invariant before position `n`: the scratch at contents that, past the first point, are what the
    point before left (`scrBefore`); and the rest. -/
def Phi1 (c : Dev nD) (n : ℕ) (h : n ≤ cfg1.N) : sProp 𝕄 :=
  iprop((∃ d, ⌜n ≠ 0 → d = scrBefore V c n h⌝ ∗ owns (c : Thread nD τ) scM1 fullShare d) ∗ Rest1 (F := F) c)

/-- The proof data of this region on core `c`: the arrays as the region finds them; after the body at point `t`
    each input's buffer at its block, the output's at `heldAt`'s first component; the invariant `Phi1`; nothing
    owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => (heldAt V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = (heldAt V c t.val t.isLt).1 := by dsimp only [dat1]

/-- Input window 0's current buffer holds its block at every point, fetched there or not: the body leaves the
    block in place, and a point that does not fetch has the block index of the point before. -/
theorem before1_0 (c : Dev nD) (t : Fin cfg1.N) (d) : (dat1 V c).before 0 t d = blk1 V c 0 t := by
  have hkeep : ∀ t, (cfg1.win 0).cut (cfg1.grid.coords t) ((dat1 V c).after 0 t) = (dat1 V c).blockOf 0 t := by
    intro t
    rw [after1_0]
    unfold Dat.blockOf blk1
    rw [A_eq1]
  rw [(dat1 V c).before_in_eq_fetched 0 rfl (fun _ => rfl) (fun _ _ _ => rfl) hkeep t d]
  unfold Dat.fetched Dat.blockOf blk1
  rw [A_eq1]
  rfl

/-- Input window 1's current buffer holds its block at every point, fetched there or not: the body leaves the
    block in place, and a point that does not fetch has the block index of the point before. -/
theorem before1_1 (c : Dev nD) (t : Fin cfg1.N) (d) : (dat1 V c).before 1 t d = blk1 V c 1 t := by
  have hkeep : ∀ t, (cfg1.win 1).cut (cfg1.grid.coords t) ((dat1 V c).after 1 t) = (dat1 V c).blockOf 1 t := by
    intro t
    rw [after1_1]
    unfold Dat.blockOf blk1
    rw [A_eq1]
  rw [(dat1 V c).before_in_eq_fetched 1 rfl (fun _ => rfl) (fun _ _ _ => rfl) hkeep t d]
  unfold Dat.fetched Dat.blockOf blk1
  rw [A_eq1]
  rfl

/-- Input window 2's current buffer holds its block at every point, fetched there or not: the body leaves the
    block in place, and a point that does not fetch has the block index of the point before. -/
theorem before1_2 (c : Dev nD) (t : Fin cfg1.N) (d) : (dat1 V c).before 2 t d = blk1 V c 2 t := by
  have hkeep : ∀ t, (cfg1.win 2).cut (cfg1.grid.coords t) ((dat1 V c).after 2 t) = (dat1 V c).blockOf 2 t := by
    intro t
    rw [after1_2]
    unfold Dat.blockOf blk1
    rw [A_eq1]
  rw [(dat1 V c).before_in_eq_fetched 2 rfl (fun _ => rfl) (fun _ _ _ => rfl) hkeep t d]
  unfold Dat.fetched Dat.blockOf blk1
  rw [A_eq1]
  rfl

/-- Input window 3's current buffer holds its block at every point, fetched there or not: the body leaves the
    block in place, and a point that does not fetch has the block index of the point before. -/
theorem before1_3 (c : Dev nD) (t : Fin cfg1.N) (d) : (dat1 V c).before 3 t d = blk1 V c 3 t := by
  have hkeep : ∀ t, (cfg1.win 3).cut (cfg1.grid.coords t) ((dat1 V c).after 3 t) = (dat1 V c).blockOf 3 t := by
    intro t
    rw [after1_3]
    unfold Dat.blockOf blk1
    rw [A_eq1]
  rw [(dat1 V c).before_in_eq_fetched 3 rfl (fun _ => rfl) (fun _ _ _ => rfl) hkeep t d]
  unfold Dat.fetched Dat.blockOf blk1
  rw [A_eq1]
  rfl

/-- Input window 4's current buffer holds its block at every point, fetched there or not: the body leaves the
    block in place, and a point that does not fetch has the block index of the point before. -/
theorem before1_4 (c : Dev nD) (t : Fin cfg1.N) (d) : (dat1 V c).before 4 t d = blk1 V c 4 t := by
  have hkeep : ∀ t, (cfg1.win 4).cut (cfg1.grid.coords t) ((dat1 V c).after 4 t) = (dat1 V c).blockOf 4 t := by
    intro t
    rw [after1_4]
    unfold Dat.blockOf blk1
    rw [A_eq1]
  rw [(dat1 V c).before_in_eq_fetched 4 rfl (fun _ => rfl) (fun _ _ _ => rfl) hkeep t d]
  unfold Dat.fetched Dat.blockOf blk1
  rw [A_eq1]
  rfl

/-- The invariant after point `n` from the scratch owned at what that point left. -/
theorem Phi1_intro (c : Dev nD) (n : ℕ) (hn : n < cfg1.N) (x : Vec F S2048x1024 .f32) (hx : scrBefore V c (n + 1) hn = x) :
    iprop(owns (c : Thread nD τ) scM1 fullShare x ∗ Rest1 (F := F) c) ⊢ Phi1 V c (n + 1) hn := by
  unfold Phi1
  iintro ⟨HS, HR⟩
  isplitl [HS]
  · iexists x
    isplitr
    · ipureintro; intro _; exact hx.symm
    · iexact HS
  · iexact HR

/-- What the launch hands the region is the invariant before the first point. -/
theorem hin1 (c : Dev nD) : Pipeline.ΦA spec1 c ⊢ (dat1 V c).Φ 0 := by
  refine (PhiA_split c).trans ?_
  show _ ⊢ Phi1 V c 0 (Nat.zero_le _)
  unfold Phi1
  iintro ⟨⟨%d, HS⟩, HR⟩
  isplitl [HS]
  · iexists d
    isplitr
    · ipureintro; intro h; exact absurd rfl h
    · iexact HS
  · iexact HR

/-- The invariant after the last point gives back what the launch handed over: the scratch's contents are
    forgotten. -/
theorem hout1 (c : Dev nD) : (dat1 V c).Φ (Fin.last cfg1.N) ⊢ Pipeline.ΦA spec1 c := by
  refine BIBase.Entails.trans ?_ (PhiA_join c)
  show Phi1 V c (Fin.last cfg1.N).val _ ⊢ _
  unfold Phi1
  iintro ⟨⟨%d, -, HS⟩, HR⟩
  isplitl [HS]
  · iexists d; iexact HS
  · iexact HR

/-! ## The body obligation -/

/-- What the body is handed at point `t`: the invariant, the core's dues, each window's current buffer at what
    it then holds. -/
def Pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it must return. -/
def Post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- At a point live for window `w` the body must leave its buffer at `after w t`. -/
theorem leaves_live (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

set_option maxHeartbeats 4000000 in
/-- The body at any point. The inputs' buffers hold their blocks; the head coordinate selects the case; the
    invariant hands over the scratch — at anything at a point that resets it, otherwise at what the point before
    left — and takes it back at what this point leaves; the output's buffer goes back untouched where the window
    is idle, and at the stored block where it is live. -/
theorem body1 (c : Dev nD) (t : Fin cfg1.N) :
    Pre1 V c t ⊢ wp frame (wpE (defs₀ (F := F)) Variants.none c none) Set.univ (bodyAt1 t) (fun _ => Post1 V c t) := by
  unfold Pre1 Post1 bodyAt1
  rw [leaves_live V c 0 t (liveAt1_0 t), leaves_live V c 1 t (liveAt1_1 t), leaves_live V c 2 t (liveAt1_2 t),
    leaves_live V c 3 t (liveAt1_3 t), leaves_live V c 4 t (liveAt1_4 t)]
  simp only [before1_0 V c, before1_1 V c, before1_2 V c, before1_3 V c, before1_4 V c,
    after1_0 V c, after1_1 V c, after1_2 V c, after1_3 V c, after1_4 V c]
  rw [show (dat1 V c).owesAt () t.succ = (dat1 V c).owesAt () t.castSucc from rfl,
    show (dat1 V c).Φ t.castSucc = Phi1 V c t.val (Nat.le_of_lt t.isLt) from rfl,
    show (dat1 V c).Φ t.succ = Phi1 V c (t.val + 1) t.isLt from rfl]
  rw [show Phi1 V c t.val (Nat.le_of_lt t.isLt) = iprop((∃ d, ⌜t.val ≠ 0 → d = scrBefore V c t.val (Nat.le_of_lt t.isLt)⌝ ∗ owns (c : Thread nD τ) scM1 fullShare d) ∗ Rest1 (F := F) c) from rfl]
  by_cases h0 : t.val % 16 = 0
  · -- the head is 0: the scratch is reset
    have hc0 : cond1_0 (grid1.coords t) := (hcond1_0 t).mpr h0
    have hc1 : ¬cond1_1 (grid1.coords t) := fun h => by have h15 := (hcond1_1 t).mp h; omega
    have hH := heldAt_first V c t h0
    rw [Dat.leavesExact_idle (dat1 V c) 5 t (idleAt1_5 t hc1) (noFlush1_5 t hc1)]
    iintro ⟨⟨⟨%d, -, HS⟩, HR⟩, Ho, ⟨%d0, H0⟩, ⟨%d1, H1⟩, ⟨%d2, H2⟩, ⟨%d3, H3⟩, ⟨%d4, H4⟩, ⟨%d5, H5⟩⟩
    iapply (wp_wand_r Idealize.ShloMosaic.frame (wpE (defs₀ (F := F)) Variants.none (c : Thread nD τ) none) Set.univ)
    isplitl [H0 H1 H2 H3 H4 H5 HS]
    · iapply (specFirst c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (blk1 V c 0 t) (blk1 V c 1 t) (blk1 V c 2 t) (blk1 V c 3 t) (blk1 V c 4 t) _ d Set.univ)
      isplitl [H0]; · iexact H0
      isplitl [H1]; · iexact H1
      isplitl [H2]; · iexact H2
      isplitl [H3]; · iexact H3
      isplitl [H4]; · iexact H4
      isplitl [H5]; · iexact H5
      iexact HS
    · iintro %_ ⟨H0, H1, H2, H3, H4, H5, HS⟩
      isplitl [HS HR]
      · iapply (Phi1_intro V c t.val t.isLt _ ((scrBefore_succ V c t.val t.isLt).trans (congrArg Prod.snd hH)))
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      iexists d5; iexact H5
  · have hc0 : ¬cond1_0 (grid1.coords t) := fun h => h0 ((hcond1_0 t).mp h)
    have hz : t.val ≠ 0 := fun e => h0 (by rw [e])
    by_cases h1 : t.val % 16 = 15
    · -- the head is 15: the output's block is stored
      have hc1 : cond1_1 (grid1.coords t) := (hcond1_1 t).mpr h1
      have hH := heldAt_last V c t h0 h1
      rw [leaves_live V c 5 t (liveAt1_5 t hc1), after1_5, hH]
      iintro ⟨⟨⟨%d, %hd, HS⟩, HR⟩, Ho, ⟨%d0, H0⟩, ⟨%d1, H1⟩, ⟨%d2, H2⟩, ⟨%d3, H3⟩, ⟨%d4, H4⟩, ⟨%d5, H5⟩⟩
      obtain rfl := hd hz
      iapply (wp_wand_r Idealize.ShloMosaic.frame (wpE (defs₀ (F := F)) Variants.none (c : Thread nD τ) none) Set.univ)
      isplitl [H0 H1 H2 H3 H4 H5 HS]
      · iapply (specLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (blk1 V c 0 t) (blk1 V c 1 t) (blk1 V c 2 t) (blk1 V c 3 t) (blk1 V c 4 t) (scrBefore V c t.val (Nat.le_of_lt t.isLt)) _ Set.univ)
        isplitl [H0]; · iexact H0
        isplitl [H1]; · iexact H1
        isplitl [H2]; · iexact H2
        isplitl [H3]; · iexact H3
        isplitl [H4]; · iexact H4
        isplitl [H5]; · iexact H5
        iexact HS
      · iintro %_ ⟨H0, H1, H2, H3, H4, H5, HS⟩
        isplitl [HS HR]
        · iapply (Phi1_intro V c t.val t.isLt _ ((scrBefore_succ V c t.val t.isLt).trans (congrArg Prod.snd hH)))
          isplitl [HS]; · iexact HS
          iexact HR
        isplitl [Ho]; · iexact Ho
        isplitl [H0]; · iexact H0
        isplitl [H1]; · iexact H1
        isplitl [H2]; · iexact H2
        isplitl [H3]; · iexact H3
        isplitl [H4]; · iexact H4
        iexact H5
    · -- the head is strictly between: the scratch accumulates, the output's buffer is left alone
      have hc1 : ¬cond1_1 (grid1.coords t) := fun h => h1 ((hcond1_1 t).mp h)
      have hH := heldAt_middle V c t h0 h1
      rw [Dat.leavesExact_idle (dat1 V c) 5 t (idleAt1_5 t hc1) (noFlush1_5 t hc1)]
      iintro ⟨⟨⟨%d, %hd, HS⟩, HR⟩, Ho, ⟨%d0, H0⟩, ⟨%d1, H1⟩, ⟨%d2, H2⟩, ⟨%d3, H3⟩, ⟨%d4, H4⟩, ⟨%d5, H5⟩⟩
      obtain rfl := hd hz
      iapply (wp_wand_r Idealize.ShloMosaic.frame (wpE (defs₀ (F := F)) Variants.none (c : Thread nD τ) none) Set.univ)
      isplitl [H0 H1 H2 H3 H4 H5 HS]
      · iapply (specMiddle c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (blk1 V c 0 t) (blk1 V c 1 t) (blk1 V c 2 t) (blk1 V c 3 t) (blk1 V c 4 t) (scrBefore V c t.val (Nat.le_of_lt t.isLt)) _ Set.univ)
        isplitl [H0]; · iexact H0
        isplitl [H1]; · iexact H1
        isplitl [H2]; · iexact H2
        isplitl [H3]; · iexact H3
        isplitl [H4]; · iexact H4
        isplitl [H5]; · iexact H5
        iexact HS
      · iintro %_ ⟨H0, H1, H2, H3, H4, H5, HS⟩
        isplitl [HS HR]
        · iapply (Phi1_intro V c t.val t.isLt _ ((scrBefore_succ V c t.val t.isLt).trans (congrArg Prod.snd hH)))
          isplitl [HS]; · iexact HS
          iexact HR
        isplitl [Ho]; · iexact Ho
        isplitl [H0]; · iexact H0
        isplitl [H1]; · iexact H1
        isplitl [H2]; · iexact H2
        isplitl [H3]; · iexact H3
        isplitl [H4]; · iexact H4
        iexists d5; iexact H5

/-- The body obligation, at every point. -/
theorem body_obligation1 (c : Dev nD) : Pipeline.BodyObligation (dat1 (F := F) V c) (defs₀ (F := F)) Variants.none () Set.univ := fun t => by
  rw [bigSep_W1, bigSep_W1]
  exact body1 V c t

end Cert.Kernel.Reg1

end
-- ==== Proof.B.Run.lean ====
/-
  The whole program as one run, at any float instance.

  @main is four items in order: a stretch of host operations that lays the in-projection's operands out, the in-projection
  region, a stretch of host operations that cuts its result into the heads' queries, keys and values and lays the
  out-projection's operands out, and the attention region. Between two items a core's unscoped buffers hold known contents:
  the launch memory, then the host stretch's fold over it, then the same with the region's arrays at what its write-backs
  leave, and so on. Each region is entered from the contents before it and left at the contents after it; its arrays are
  split out of the unscoped buffers on the way in and put back on the way out, the generator register rides through the
  region's invariant, and nothing is owed at any point.

  The run's post reads EVERY unscoped buffer at the last contents. Two consequences are drawn from it: the argument arrays
  end as launched (no host operation writes one and no region has one among its arrays), and the result array ends at what
  the attention region's write-backs leave.
-/
import proofs.«120176_j20856361190136_2_alg».proof.Proof.Gen.Kernel.Launch
import proofs.«120176_j20856361190136_2_alg».proof.Proof.Gen.Kernel.Skeleton
import proofs.«120176_j20856361190136_2_alg».proof.Proof.Gen.Kernel.Points
import proofs.«120176_j20856361190136_2_alg».proof.Proof.Gen.Kernel.Regions
import proofs.«120176_j20856361190136_2_alg».proof.Proof.B.Region0
import proofs.«120176_j20856361190136_2_alg».proof.Proof.B.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Region 0's proof data hold every array at the full share, owe nothing, and keep the class's invariant at every point. -/
theorem share0 (V : (c : Dev nD) → (b : Ref sig .tc) → Buf (Elt F) ((c : Thread nD τ).loc b)) (c : Dev nD) (w : Fin cfg0.W) :
    (Reg0.dat0 V c).share w = fullShare := (Reg0.dat0 V c).share_full (fun _ => rfl) w
theorem owed0 (V : (c : Dev nD) → (b : Ref sig .tc) → Buf (Elt F) ((c : Thread nD τ).loc b)) (c : Dev nD) (t : Fin (cfg0.N + 1)) :
    (Reg0.dat0 V c).owed t = 0 := rfl
theorem Phi0 (V : (c : Dev nD) → (b : Ref sig .tc) → Buf (Elt F) ((c : Thread nD τ).loc b)) (c : Dev nD) (t : Fin (cfg0.N + 1)) :
    (Reg0.dat0 V c).Φ t = Pipeline.ΦA spec0 c := rfl

/-- The same of region 1's proof data; its invariant is its own (it tracks the accumulator). -/
theorem share1 (V : (c : Dev nD) → (b : Ref sig .tc) → Buf (Elt F) ((c : Thread nD τ).loc b)) (c : Dev nD) (w : Fin cfg1.W) :
    (Reg1.dat1 V c).share w = fullShare := (Reg1.dat1 V c).share_full (fun _ => rfl) w
theorem owed1 (V : (c : Dev nD) → (b : Ref sig .tc) → Buf (Elt F) ((c : Thread nD τ).loc b)) (c : Dev nD) (t : Fin (cfg1.N + 1)) :
    (Reg1.dat1 V c).owed t = 0 := rfl
theorem recorded1 (V : (c : Dev nD) → (b : Ref sig .tc) → Buf (Elt F) ((c : Thread nD τ).loc b)) (c : Dev nD) (t : Fin (cfg1.N + 1))
    (x : SemLoc sig × Unit) : x ∈ (Reg1.dat1 V c).recorded t := Set.mem_univ x

variable (m : (ℓ : Loc nD τ sig) → Buf (Elt F) ℓ)

/-! ## What a core's unscoped buffers hold between two items -/

/-- As launched. -/
abbrev held0 : Dev nD → Valuation τ sig (Elt F) := fun c b => m (c, b)
/-- After the first host stretch: the in-projection's operands laid out. -/
abbrev held1 : Dev nD → Valuation τ sig (Elt F) := fun c => StableHlo.after hostOps0 (held0 m c)
/-- The same, read at the TensorCore's references: what the in-projection region is entered from. -/
abbrev entry0 : (c : Dev nD) → (b : Ref sig .tc) → Buf (Elt F) ((c : Thread nD τ).loc b) := fun c b => held1 m c b
/-- After the in-projection region: its arrays at what the write-backs leave, every other buffer as entered. -/
def held2 (c : Dev nD) : Valuation τ sig (Elt F) :=
  Pipeline.withArrays spec0 c (held1 m c) fun w => (Reg0.dat0 (entry0 m) c).arrAt w cfg0.N
abbrev exit0 : (c : Dev nD) → (b : Ref sig .tc) → Buf (Elt F) ((c : Thread nD τ).loc b) := fun c b => held2 m c b
/-- After the second host stretch: heads cut out, the out-projection's operands laid out. -/
abbrev held3 : Dev nD → Valuation τ sig (Elt F) := fun c => StableHlo.after hostOps1 (held2 m c)
abbrev entry1 : (c : Dev nD) → (b : Ref sig .tc) → Buf (Elt F) ((c : Thread nD τ).loc b) := fun c b => held3 m c b
/-- After the attention region. -/
def held4 (c : Dev nD) : Valuation τ sig (Elt F) :=
  Pipeline.withArrays spec1 c (held3 m c) fun w => (Reg1.dat1 (entry1 m) c).arrAt w cfg1.N
abbrev exit1 : (c : Dev nD) → (b : Ref sig .tc) → Buf (Elt F) ((c : Thread nD τ).loc b) := fun c b => held4 m c b

theorem held2_array (c : Dev nD) (w : Fin cfg0.W) :
    held2 m c (Proc.devRef .tc (Pipeline.arrRef spec0 w)) = (Reg0.dat0 (entry0 m) c).arrAt w cfg0.N := by
  unfold held2; exact Pipeline.withArrays_arr spec0 launch0.win.arr_inj c _ _ w
theorem held2_other (c : Dev nD) (b : Ref sig .tc) (hb : ∀ w, Pipeline.arrRef spec0 w ≠ b) :
    held2 m c (Proc.devRef .tc b) = held1 m c (Proc.devRef .tc b) := by
  unfold held2; exact Pipeline.withArrays_of_ne spec0 c _ _ b hb
theorem held4_array (c : Dev nD) (w : Fin cfg1.W) :
    held4 m c (Proc.devRef .tc (Pipeline.arrRef spec1 w)) = (Reg1.dat1 (entry1 m) c).arrAt w cfg1.N := by
  unfold held4; exact Pipeline.withArrays_arr spec1 launch1.win.arr_inj c _ _ w
theorem held4_other (c : Dev nD) (b : Ref sig .tc) (hb : ∀ w, Pipeline.arrRef spec1 w ≠ b) :
    held4 m c (Proc.devRef .tc b) = held3 m c (Proc.devRef .tc b) := by
  unfold held4; exact Pipeline.withArrays_of_ne spec1 c _ _ b hb

/-- An argument array is no region's array and no host operation's result: it is read through all four items back to
    the launch memory. -/
theorem held4_arg (c : Dev nD) (r : Ref sig .tc) (h0 : ∀ w, Pipeline.arrRef spec0 w ≠ r) (h1 : ∀ w, Pipeline.arrRef spec1 w ≠ r)
    (hw0 : r ∉ hostOps0_W) (hw1 : r ∉ hostOps1_W) : held4 m c (Proc.devRef .tc r) = m ((c : Thread nD τ).loc r) :=
  (held4_other m c r h1).trans <| (StableHlo.after_of_writes_sub hostOps1 _ hostOps1_writes hw1).trans <|
    (held2_other m c r h0).trans <| (StableHlo.after_of_writes_sub hostOps0 _ hostOps0_writes hw0).trans rfl

/-! ## The proof data family, and what rides beside the buffers -/

/-- No pipeline has a prefetched table. -/
abbrev adm : (p : Fin 2) → (pcfgs (F := F) p).Adm := fun p => (cfgs p).toPCfg_adm

/-- Every pipeline's proof data, each at its own region's entry contents. -/
def pdats : (p : Fin 2) → (c : Dev nD) → Dat τ (Elt F) Unit ℕ (UR sig nD τ) ℕ (Pipeline.pin (pcfgs (F := F)) adm p) c
  | ⟨0, _⟩ => fun c => Reg0.dat0 (entry0 m) c
  | ⟨1, _⟩ => fun c => Reg1.dat1 (entry1 m) c

abbrev noVariants : Variants := Variants.none
/-- No core owes another anything: no level is assigned. -/
abbrev noLevels : GSem nD τ sig → Finset Unit := fun _ => ∅
abbrev levelOf : GSem nD τ sig → Unit → ℕ := fun _ _ => 0

/-- Beside the buffers, through every item: the core's generator register at some state, and the core owing nothing. -/
abbrev beside (c : Dev nD) : sProp 𝕄 :=
  iprop((∃ r, prngReg c r) ∗ ∃ W, owes (c : Thread nD τ) (0 : CellTallies nD τ sig Unit) W)

/-- The thread state between two items: every unscoped buffer at the contents `H c`, and `beside`. -/
abbrev stateAt (H : Dev nD → Valuation τ sig (Elt F)) (c : Dev nD) : sProp 𝕄 :=
  iprop(StableHlo.held (c : Thread nD τ) (Pipeline.ucRefs τ sig) (H c) ∗ beside c)

/-- A stretch of host operations as a segment, from the contents `H`. -/
abbrev hostItem (ops : List (HloOp τ sig (Elt F))) (hsub : ops.Forall fun op => op.bufs ⊆ StableHlo.tcRefs τ sig)
    (hfresh : ops.Forall fun op => op.fresh = ∅) (H : Dev nD → Valuation τ sig (Elt F)) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) H beside

/-! ## The two regions as segments -/

theorem exit0_array (c : Dev nD) (w : Fin cfg0.W) : (Reg0.dat0 (entry0 m) c).arrAt w cfg0.N = exit0 m c (Pipeline.arrRef spec0 w) :=
  (held2_array m c w).symm
theorem exit0_other (c : Dev nD) : ∀ b, b ∉ Finset.univ.image (Pipeline.arrRef spec0) → exit0 m c b = entry0 m c b :=
  fun b hb => held2_other m c b fun w e => hb (Finset.mem_image.mpr ⟨w, Finset.mem_univ _, e⟩)
theorem exit1_array (c : Dev nD) (w : Fin cfg1.W) : (Reg1.dat1 (entry1 m) c).arrAt w cfg1.N = exit1 m c (Pipeline.arrRef spec1 w) :=
  (held4_array m c w).symm
theorem exit1_other (c : Dev nD) : ∀ b, b ∉ Finset.univ.image (Pipeline.arrRef spec1) → exit1 m c b = entry1 m c b :=
  fun b hb => held4_other m c b fun w e => hb (Finset.mem_image.mpr ⟨w, Finset.mem_univ _, e⟩)

set_option backward.isDefEq.respectTransparency.types false in
/-- The in-projection region: entered from `held1`, left at `held2`. -/
def inProj : Pipeline.RegionSeg (pcfgs (F := F)) adm (pdats m) () defs₀ noVariants noLevels levelOf 0 where
  win := launch0.win.to₀
  block_pos := launch0.block_pos
  stage_whole := launch0.stage_whole
  K := PEmpty
  osem k := k.elim
  ho := Pipeline.OwnSemFacts.none _
  hbody c := (Reg0.body_obligation0 (entry0 m) c).loose
  hwaits := Pipeline.hwaits_of_owed_zero _ _ _ _ noLevels levelOf 0 fun c t => owed0 (entry0 m) c t
  pre c := stateAt (held1 m) c
  post c := stateAt (held2 m) c
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      (fun w => share0 (entry0 m) c w) (entry0 m c) (fun w => Reg0.A_eq0 (entry0 m) c w)
    rw [Pipeline.unscopedBufs_held] at hsplit
    unfold stateAt beside
    iintro ⟨⟨Hbufs, Hgen, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]; iempintro
    isplitl [Howes]
    · unfold Pipeline.Dat.owesAt Pipeline.owesWithin
      icases Howes with ⟨%W, Howes⟩
      iexists W
      isplitr
      · ipureintro
        -- the pairs recorded before the first point are unconstrained
        exact fun x _ => Or.inl (Set.mem_univ x)
      iexact Howes
    isplitl [Hgen]; · iexact Hgen
    iexact Hrest
  hin c := by
    rw [show (pdats m 0 c).Φ 0 = Pipeline.ΦA spec0 c from Phi0 (entry0 m) c 0]
    unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from Phi0 (entry0 m) c _]
    unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) (fun w => share0 (entry0 m) c w)
      (entry0 m c) (exit0 m c) ((pdats m 0 c).arrAt · cfg0.N) (exit0_array m c) (exit0_other m c)
    rw [Pipeline.unscopedBufs_held] at hjoin
    unfold stateAt beside
    iintro ⟨Harr, Howes, Hgen, Hrest⟩
    imodintro
    isplitl [Harr Hrest]
    · iapply hjoin
      isplitl [Harr]; · iexact Harr
      iexact Hrest
    isplitl [Hgen]; · iexact Hgen
    unfold Pipeline.Dat.owesAt Pipeline.owesWithin
    rw [show (pdats m 0 c).owed (Fin.last _) = 0 from owed0 (entry0 m) c _]
    icases Howes with ⟨%W, -, Howes⟩
    iexists W; iexact Howes

set_option backward.isDefEq.respectTransparency.types false in
/-- The attention region: entered from `held3`, left at `held4`. Its invariant tracks the scratch accumulator from
    point to point; the launch hands it the class's invariant and takes the class's invariant back. -/
def attention : Pipeline.RegionSeg (pcfgs (F := F)) adm (pdats m) () defs₀ noVariants noLevels levelOf 1 where
  win := launch1.win.to₀
  block_pos := launch1.block_pos
  stage_whole := launch1.stage_whole
  K := PEmpty
  osem k := k.elim
  ho := Pipeline.OwnSemFacts.none _
  hbody c := (Reg1.body_obligation1 (entry1 m) c).loose
  hwaits := Pipeline.hwaits_of_owed_zero _ _ _ _ noLevels levelOf 1 fun c t => owed1 (entry1 m) c t
  pre c := stateAt (held3 m) c
  post c := stateAt (held4 m) c
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      (fun w => share1 (entry1 m) c w) (entry1 m c) (fun w => Reg1.A_eq1 (entry1 m) c w)
    rw [Pipeline.unscopedBufs_held] at hsplit
    unfold stateAt beside
    iintro ⟨⟨Hbufs, Hgen, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]; iempintro
    isplitl [Howes]
    · unfold Pipeline.Dat.owesAt Pipeline.owesWithin
      rw [show (pdats m 1 c).owed 0 = 0 from owed1 (entry1 m) c 0]
      icases Howes with ⟨%W, Howes⟩
      iexists W
      isplitr
      · ipureintro
        exact fun x _ => Or.inl (recorded1 (entry1 m) c 0 x)
      iexact Howes
    isplitl [Hgen]; · iexact Hgen
    iexact Hrest
  hin c := by
    refine BIBase.Entails.trans ?_ (Reg1.hin1 (entry1 m) c)
    unfold Pipeline.ΦA
    iintro ⟨Hgen, -, Hscoped⟩
    isplitl [Hscoped]; · iexact Hscoped
    iexact Hgen
  hout c := by
    rw [Pipeline.ownSems0_none]
    refine BIBase.Entails.trans (Reg1.hout1 (entry1 m) c) ?_
    unfold Pipeline.ΦA
    iintro ⟨Hscoped, Hgen⟩
    isplitl [Hgen]; · iexact Hgen
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) (fun w => share1 (entry1 m) c w)
      (entry1 m c) (exit1 m c) ((pdats m 1 c).arrAt · cfg1.N) (exit1_array m c) (exit1_other m c)
    rw [Pipeline.unscopedBufs_held] at hjoin
    unfold stateAt beside
    iintro ⟨Harr, Howes, Hgen, Hrest⟩
    imodintro
    isplitl [Harr Hrest]
    · iapply hjoin
      isplitl [Harr]; · iexact Harr
      iexact Hrest
    isplitl [Hgen]; · iexact Hgen
    unfold Pipeline.Dat.owesAt Pipeline.owesWithin
    rw [show (pdats m 1 c).owed (Fin.last _) = 0 from owed1 (entry1 m) c _]
    icases Howes with ⟨%W, -, Howes⟩
    iexists W; iexact Howes

/-! ## @main as its four items, and the launch -/

abbrev items : List (Pipeline.Seg (pcfgs (F := F)) adm (pdats m) () defs₀ noVariants noLevels levelOf) :=
  [ .host (hostItem hostOps0 hostOps0_sub hostOps0_fresh (held0 m)),
    .region (inProj m),
    .host (hostItem hostOps1 hostOps1_sub hostOps1_fresh (held2 m)),
    .region (attention m) ]

/-- @main is the run of the four items. -/
theorem main_is_items (c : Dev nD) : main (F := F) c = Pipeline.Seg.run (items m) := (main_chain c).trans (by chain_rfl)

/-- What a final memory says on core `c`: every unscoped buffer holds the last contents. -/
abbrev endsAt (c : Dev nD) (s : MemSt nD τ sig (Elt F)) : Prop :=
  ∀ b ∈ Pipeline.ucRefs τ sig, s.mem (((c : Thread nD τ)).1, b) = held4 m c b

set_option backward.isDefEq.respectTransparency.types false in
/-- THE RUN. From any memory with zero counters, every weakly fair execution of @main on the TensorCores terminates,
    nothing faulting, and in every final state each core's unscoped buffers hold `held4`. -/
theorem run_all (ρ : Dev nD → PrngReg) :
    θ_run defs (onTc (τ := τ) (main (F := F))) ⟨m, fun _ => 0, ρ⟩ (fun r => ∀ c : Dev nD, endsAt m c r.2) :=
  Pipeline.θ_run_regions_kit (pcfgs (F := F)) adm (pdats m) () cellOf_inj emb₁ defs₀ noVariants noLevels levelOf m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the pipelines' cells and tokens; no other ghost resource is asked for
      iintro Hu; imodintro
      isplitl [Hu]
      · -- owning the launch's ghost state is owning its embedding, by definition
        iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := stateAt (held0 m))
    (Tₙ := fun c => iprop(StableHlo.held (c : Thread nD τ) (Pipeline.ucRefs τ sig) (held4 m c) ∗ ∃ r, prngReg c r))
    (hch := ⟨fun _ => .rfl, fun _ => .rfl, fun _ => .rfl, fun _ => .rfl, fun c => by
      -- the last state, regrouped: buffers and generator register together, the core owing nothing apart
      show stateAt (held4 m) c ⊢ iprop((StableHlo.held (c : Thread nD τ) (Pipeline.ucRefs τ sig) (held4 m c) ∗ ∃ r, prngReg c r)
        ∗ ∃ W, owes (c : Thread nD τ) (0 : CellTallies nD τ sig Unit) W)
      unfold stateAt beside
      iintro ⟨Hh, Hg, Ho⟩
      isplitl [Hh Hg]
      · isplitl [Hh]; · iexact Hh
        iexact Hg
      iexact Ho⟩)
    (hinit := by
      -- each core by itself: the launch memory is the first contents, the register is at its launch state, nothing is owed
      refine Pipeline.initEach noLevels levelOf fun c => ?_
      rw [show unscopedBufs c (fun b => m ((c : Thread nD τ).loc b)) = StableHlo.held (c : Thread nD τ) (Pipeline.ucRefs τ sig) (held0 m c)
        from Pipeline.unscopedBufs_held c (held0 m c)]
      unfold stateAt beside
      iintro ⟨⟨Hh, -, Ho, -, Hg, -⟩, -⟩
      imodintro
      isplitl [Hh]; · iexact Hh
      isplitl [Hg]; · iexists _; iexact Hg
      iexists ∅; iexact Ho)
    (QY := endsAt m)
    (hfin := fun c s' => by
      -- buffers held at known contents, beside a final state, say that the state's memory holds those contents
      unfold StableHlo.held
      iintro ⟨⟨Hh, -⟩, HSI⟩
      imodintro
      iapply (pointsTo_read_all (Pipeline.ucRefs τ sig) (fun b => (((c : Thread nD τ)).1, b)) (held4 m c) s')
      isplitl [Hh]; · iexact Hh
      iexact HSI)
    (hQ := fun s h c => h c)

/-! ## The two consequences -/

/-- An unscoped TensorCore reference is among those the final state is read at. -/
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: every execution terminates without a fault and the five argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (unscoped_mem main_arg0 (by decide))).trans (held4_arg m c main_arg0 (by decide) (by decide) (by decide) (by decide)),
     (h c _ (unscoped_mem main_arg1 (by decide))).trans (held4_arg m c main_arg1 (by decide) (by decide) (by decide) (by decide)),
     (h c _ (unscoped_mem main_arg2 (by decide))).trans (held4_arg m c main_arg2 (by decide) (by decide) (by decide) (by decide)),
     (h c _ (unscoped_mem main_arg3 (by decide))).trans (held4_arg m c main_arg3 (by decide) (by decide) (by decide) (by decide)),
     (h c _ (unscoped_mem main_arg4 (by decide))).trans (held4_arg m c main_arg4 (by decide) (by decide) (by decide) (by decide))⟩)
    (run_all m ρ)

/-- THE RESULT, at any float instance: the result array ends at what the attention region's write-backs leave in it, and
    the argument arrays end as launched. -/
theorem result (ρ : Dev nD → PrngReg) :
    θ_run defs (onTc (τ := τ) (main (F := F))) ⟨m, fun _ => 0, ρ⟩ (fun r => ∀ c : Dev nD,
      r.2.mem ((c.tc : Thread nD τ).loc main_v20) = (Reg1.dat1 (entry1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (unscoped_mem main_v20 (by decide))).trans (held4_array m c 5),
     (h c _ (unscoped_mem main_arg0 (by decide))).trans (held4_arg m c main_arg0 (by decide) (by decide) (by decide) (by decide)),
     (h c _ (unscoped_mem main_arg1 (by decide))).trans (held4_arg m c main_arg1 (by decide) (by decide) (by decide) (by decide)),
     (h c _ (unscoped_mem main_arg2 (by decide))).trans (held4_arg m c main_arg2 (by decide) (by decide) (by decide) (by decide)),
     (h c _ (unscoped_mem main_arg3 (by decide))).trans (held4_arg m c main_arg3 (by decide) (by decide) (by decide) (by decide)),
     (h c _ (unscoped_mem main_arg4 (by decide))).trans (held4_arg m c main_arg4 (by decide) (by decide) (by decide) (by decide))⟩)
    (run_all m ρ)

end Cert.Kernel.Whole

end
-- ==== Proof.I.Region0.lean ====
/- Region 0 of the program: the input projection x ↦ x · Wᵀ + b, computed 512 rows at a time.
   Everything here is stated at an arbitrary float instance and at arbitrary contents of the
   TensorCore's buffers when the region is entered.

   At grid point t the body sees four buffers: the t-th 512-row block of the activations, the whole
   weight matrix, the whole bias row, and the output buffer. It reads the first three whole, forms
   the product plus the bias broadcast down the rows, rounds, and overwrites the output buffer whole.
   The weight and the bias are brought in once, at the first point; at later points their buffers
   still hold the same block because their block index never moves. -/
import proofs.«120176_j20856361190136_2_alg».proof.Proof.Gen.KernelIdeal.Launch
import proofs.«120176_j20856361190136_2_alg».proof.Proof.Gen.KernelIdeal.Skeleton
import proofs.«120176_j20856361190136_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks the four windows cut out of their arrays -/

/-- The block of window `w` at grid point `t`, read out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- None of the four windows is ever cut short: each block lies inside its array, at every point. -/
theorem uncut (w : Fin cfg0.W) (i : cfg0.grid.Coords) (a) : (cfg0.win w).clip i a = none := by
  fin_cases w <;> rfl

/-- AN INPUT WINDOW'S BUFFER HOLDS THE WINDOW'S BLOCK AT EVERY POINT, whether the block was brought in at that point
    or earlier. For any proof data over the entry contents (`hA`) whose body leaves input `w`'s block in place
    (`hafter`). Stated on the part of the buffer the transfers move, which for these uncut windows is all of it.

    A buffer that is not refilled at a point still holds what the point before left in it, and that is this point's
    block when four things hold of the window: it is an input (`hin`), so only a fetch or the body writes its buffer;
    it is live at every point, this region having no idle point; the extent of its block does not depend on the
    point, nothing ever being cut (`uncut`); and the body leaves the block in place (`hafter`, the block being read
    off the entry contents by `hA`). A window that is not refilled has not moved, so the block left in place is this
    point's; and a fetch puts the block itself in the buffer, on the part it fills. -/
theorem input_found_at_block {c : Dev nD} (dat : Dat τ (Elt F) Unit ℕ (UR sig nD τ) ℕ cfg0 c) (w : Fin cfg0.W)
    (hin : (cfg0.win w).isOut = false) (hA : dat.A w = V c (Pipeline.arrRef spec0 w))
    (hafter : ∀ t, (cfg0.win w).cut (cfg0.grid.coords t) (dat.after w t) = blk0 V c w t) (t : Fin cfg0.N) (d) :
    (cfg0.win w).cut (cfg0.grid.coords t) (dat.before w t d) = blk0 V c w t := by
  have hblock : ∀ t, dat.blockOf w t = blk0 V c w t := fun t => by unfold Dat.blockOf blk0; rw [hA]
  have hidle : ∀ i, cfg0.idle w i = false := fun _ => rfl
  have hsamecut : ∀ t t' : Fin cfg0.N, (cfg0.win w).index t = (cfg0.win w).index t' →
      (cfg0.win w).clip (cfg0.grid.coords t) = (cfg0.win w).clip (cfg0.grid.coords t') :=
    fun t t' _ => funext fun a => (uncut w _ a).trans (uncut w _ a).symm
  have hkeep : ∀ t, (cfg0.win w).cut (cfg0.grid.coords t) (dat.after w t) = dat.blockOf w t :=
    fun t => (hafter t).trans (hblock t).symm
  rw [dat.before_in_eq_fetched w hin hidle hsamecut hkeep t d]
  unfold Dat.fetched
  rw [Window.cut_fill, hblock]

/-! ## The rectangles the body reads and writes: each buffer whole -/

abbrev rectX : Rect S512x1024 := Rect.unit (s := S512x1024) ![0, 0] S512x1024.size inb_S512x1024_S512x1024_0_0
abbrev rectW : Rect S1024x3072 := Rect.unit (s := S1024x3072) ![0, 0] S1024x3072.size inb_S1024x3072_S1024x3072_0_0
abbrev rectB : Rect S1x3072 := Rect.unit (s := S1x3072) ![0, 0] S1x3072.size inb_S1x3072_S1x3072_0_0
abbrev rectO : Rect S512x3072 := Rect.unit (s := S512x3072) ![0, 0] S512x3072.size inb_S512x3072_S512x3072_0_0

/-! ## The output tile -/

/-- What the body leaves in the output buffer, from a block of activations `x`, the weight `w` and the bias row
    `b`: its one store, of the rounded product-plus-bias of the three loads, over the whole buffer. -/
def tile0 (x : Vec F S512x1024 .bf16) (w : Vec F S1024x3072 .bf16) (b : Vec F S1x3072 .f32) : Vec F S512x3072 .bf16 :=
  View.canon [⟨rectO, k0_pay1 (View.ld x rectX) (View.ld w rectW) (View.ld b rectB)⟩]

/-- The one store is through the whole output buffer, so every index of the buffer is under it. -/
theorem tile0_cover (p : Vec F S512x3072 .bf16) (y : S512x3072.Idx) :
    ∃ pc ∈ ([⟨rectO, p⟩] : List (View.Piece (Elt F) S512x3072 .bf16)), y ∈ pc.1.set :=
  ⟨⟨rectO, p⟩, List.mem_singleton_self _,
    View.mem_set_unit_zero (funext fun a => by fin_cases a <;> rfl) inb_S512x3072_S512x3072_0_0 y⟩

/-! ## The body's triple -/

set_option maxHeartbeats 1000000 in
/-- The body on four whole buffers, the three inputs at known contents and the output at anything, runs to a
    state where the inputs are as they were and the output holds `tile0` of them: its three loads read the
    inputs, its load of the output buffer is not used, and its one store overwrites the output buffer whole. -/
theorem matmul_bias_triple (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x : Vec F S512x1024 .bf16) (w : Vec F S1024x3072 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (tile0 x w b)) -∗ K ⟨⟩))
      ⊢ wp frame (wpE (defs₀ (F := F)) Variants.none c none) E (cc0__matmul_bias_kernel i arg1 harg1 arg2 harg2 arg3 harg3 arg4 harg4) K := by
  -- the program by its skeleton; each buffer owned as its raw contents with what the memref reads of them
  sl_unfold [cc0__matmul_bias_kernel]
  unfold owns
  iintro ⟨⟨%f1, %hf1, H1⟩, ⟨%f2, %hf2, H2⟩, ⟨%f3, %hf3, H3⟩, ⟨%d4, %f4, %hf4, H4⟩, Hk⟩
  subst hf1 hf2 hf3
  -- the four loads and the store, then the return
  sl_exec
  sl_step
  -- the inputs' buffers were never written; the output's holds the old contents with the one store written over them
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  -- the output's contents are the ones `H4` holds: hand that over first, which names them
  iexists _; isplitr
  swap
  · iexact H4
  · ipureintro
    -- the store covers the buffer, so what the memref reads afterwards is the stored value, whatever was there
    exact View.read_writes_eq_canon _ _ _ (tile0_cover _)

/-! ## The region's proof data -/

/-- The arrays are the entry contents; after the body at point `t` the three input buffers hold their blocks
    and the output buffer holds the tile of those blocks; the scoped rest and the generator register are
    untouched, nothing is owed, every share is full. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => tile0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = tile0 (blk0 V c 0 t) (blk0 V c 1 t) (blk0 V c 2 t) := by dsimp only [dat0]

/-- The three inputs are found at their blocks (for an uncut window the part the transfers move is the whole buffer). -/
theorem before0_0 (c : Dev nD) (t : Fin cfg0.N) (d) : (dat0 V c).before 0 t d = blk0 V c 0 t :=
  input_found_at_block V (dat0 V c) 0 rfl (A_eq0 V c 0) (fun t => after0_0 V c t) t d
theorem before0_1 (c : Dev nD) (t : Fin cfg0.N) (d) : (dat0 V c).before 1 t d = blk0 V c 1 t :=
  input_found_at_block V (dat0 V c) 1 rfl (A_eq0 V c 1) (fun t => after0_1 V c t) t d
theorem before0_2 (c : Dev nD) (t : Fin cfg0.N) (d) : (dat0 V c).before 2 t d = blk0 V c 2 t :=
  input_found_at_block V (dat0 V c) 2 rfl (A_eq0 V c 2) (fun t => after0_2 V c t) t d

/-! ## The body obligation at a generic point -/

/-- What the body is handed at point `t`: the invariant, what the core owes, and each window's current buffer at what
    it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back: the same at the next point, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The invariant does not depend on the point, -/
theorem inv_next (c : Dev nD) (t : Fin cfg0.N) : (dat0 V c).Φ t.succ = (dat0 V c).Φ t.castSucc := rfl
/-- and neither does what the core owes: nothing, throughout. -/
theorem owes_next (c : Dev nD) (t : Fin cfg0.N) : (dat0 V c).owesAt () t.succ = (dat0 V c).owesAt () t.castSucc := rfl

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  -- each input's buffer holds its block, whatever it held before the last fetch; what the body leaves is named
  simp only [before0_0, before0_1, before0_2]
  rw [inv_next, owes_next, after0_0, after0_1, after0_2, after0_3]
  iintro ⟨HΦ, Ho, ⟨%d0, H0⟩, ⟨%d1, H1⟩, ⟨%d2, H2⟩, ⟨%d3, H3⟩⟩
  -- the body is the kernel function on the four current buffers: its triple at the three blocks
  iapply (matmul_bias_triple c Set.univ (grid0.coords t) _ _ _ _ _ _ _ _ (blk0 V c 0 t) (blk0 V c 1 t) (blk0 V c 2 t) _)
  isplitl [H0]
  · iexact H0
  isplitl [H1]
  · iexact H1
  isplitl [H2]
  · iexact H2
  isplitl [H3]
  · iexists _; iexact H3
  -- afterwards: the invariant and what the core owes are the same at the next point, the buffers as the triple leaves them
  iintro ⟨H0, H1, H2, H3⟩
  isplitl [HΦ]
  · iexact HΦ
  isplitl [Ho]
  · iexact Ho
  isplitl [H0]
  · iexact H0
  isplitl [H1]
  · iexact H1
  isplitl [H2]
  · iexact H2
  iexact H3

/-- At every point the body runs from what it is handed to what it hands back: the statement above, the four windows
    taken one by one. -/
theorem body_obligation0 (c : Dev nD) : BodyObligation (dat0 (F := F) V c) (defs₀ (F := F)) Variants.none () Set.univ := fun t => by
  rw [bigSep_W0, bigSep_W0]
  exact sound_body0 V c t

end Cert.KernelIdeal.Reg0

end
-- ==== Proof.I.Region1Base.lean ====
import proofs.«120176_j20856361190136_2_alg».proof.Proof.Gen.KernelIdeal.Launch
import proofs.«120176_j20856361190136_2_alg».proof.Proof.Gen.KernelIdeal.Skeleton
import proofs.«120176_j20856361190136_2_alg».proof.Proof.Gen.KernelIdeal.Loops
import proofs.«120176_j20856361190136_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional's condition (the head coordinate is 0), from the grid coordinates. -/
abbrev cond1_0 (i : grid1.Coords) : Prop := (Scalar.cmpi .ne (Scalar.extui (Scalar.cmpi .eq (BitVec.ofNat 32 (i 1).val) 0#32)) 0#32) = 1#1
/-- It holds exactly at the points whose position is 0 modulo 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition (the head coordinate is 15). -/
abbrev cond1_1 (i : grid1.Coords) : Prop := k1_cond2 i = 1#1
/-- It holds exactly at the points whose position is 15 modulo 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second condition fails the output window is idle and not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the output window is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S1x1x2048x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048x1024 .f32 := win1_5.stage (cfg1.slots t 5)
abbrev hs1_5 (t : Fin cfg1.N) : (ms1_5 t).IsWhole := hstage1_5 ((cfg1.slots t 5).cast nbuf1_5)
/-- The scratch accumulator: a whole scoped buffer of the kernel's own. -/
abbrev scM1 : Memref sig .tc .vmem S2048x1024 .f32 := Memref.whole cc1_scratch0
/-- The scratch as a view: its contents are stated through it. -/
abbrev VS1 : View sig .tc .vmem S2048x1024 .f32 := (scM1).view
/-- One staging buffer of the output window, through which its contents are stated. -/
abbrev VO1 : View sig .tc .vmem S1x2048x1024 .f32 := (Memref.whole cc1_stg5_0 : Memref sig .tc .vmem S1x2048x1024 .f32).view

/-- The region's invariant as the launch hands it over, the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body's resources, in raw form -/

/-- What the body holds of its seven memrefs: the five inputs at the raw contents reading `x0 … x4`, the
    output's buffer at raw contents `g7` and the scratch at raw contents `g8`. -/
abbrev Res1 (c : Dev nD) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole)
    (x0 : Vec F S1x1x2048x64 .bf16) (x1 : Vec F S1x1x2048x64 .bf16) (x2 : Vec F S1x1x2048x64 .bf16) (x3 : Vec F S1x64x1024 .bf16) (x4 : Vec F S1x1024 .f32) (g7 : BufTy.Contents (Elt F) arg7.view.ty) (g8 : BufTy.Contents (Elt F) arg8.view.ty) : sProp 𝕄 :=
  iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} g7) ∗ (arg8.view.loc (c : Thread nD τ) ↦[arg8.view.set]{fullShare} g8))

end Cert.KernelIdeal.Reg1

end
-- ==== Proof.I.Region1RunF.lean ====
import proofs.«120176_j20856361190136_2_alg».proof.Proof.I.Region1Base

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A FIRST point (head 0): the scratch is reset, then the eight query tiles accumulate into it; the output's
    buffer is not touched. The witness `LS` lists the pieces written into the scratch;
    they stand over junk, the reset covering whatever `g8` the scratch held. -/
noncomputable def runFirst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond1_0 i) (hc1 : ¬cond1_1 i)
    (x0 : Vec F S1x1x2048x64 .bf16) (x1 : Vec F S1x1x2048x64 .bf16) (x2 : Vec F S1x1x2048x64 .bf16) (x3 : Vec F S1x64x1024 .bf16) (x4 : Vec F S1x1024 .f32) :
    { LS : List (View.Piece (Elt F) S2048x1024 .f32) //
      ∀ (g7 : BufTy.Contents (Elt F) arg7.view.ty) (g8 : BufTy.Contents (Elt F) arg8.view.ty) (E : Set ℕ),
        Res1 (F := F) c arg2 harg2 arg3 harg3 arg4 harg4 arg5 harg5 arg6 harg6 arg7 harg7 arg8 harg8 x0 x1 x2 x3 x4 g7 g8
          ⊢ wp frame (wpE (defs₀ (F := F)) Variants.none c none) E (cc1__fused_attn_outproj_kernel i arg2 harg2 arg3 harg3 arg4 harg4 arg5 harg5 arg6 harg6 arg7 harg7 arg8 harg8)
              (fun _ => Res1 (F := F) c arg2 harg2 arg3 harg3 arg4 harg4 arg5 harg5 arg6 harg6 arg7 harg7 arg8 harg8 x0 x1 x2 x3 x4 g7 (arg8.view.writes (Elt F) arg8.view.junk LS)) } := by
  refine ⟨?_, fun g7 g8 E => ?triple⟩
  case triple =>
    simp only [cc1__fused_attn_outproj_kernel_eq_skeleton]; unfold cc1__fused_attn_outproj_kernel_skel
    iintro ⟨H0, H1, H2, H3, H4, H7, H8⟩
    sl_exec (disch := first | exact hc0 | exact hc1)
    sl_step
    sl_close

end Cert.KernelIdeal.Reg1

end
-- ==== Proof.I.Region1RunM.lean ====
import proofs.«120176_j20856361190136_2_alg».proof.Proof.I.Region1Base

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE point (head strictly between 0 and 15): the eight query tiles accumulate into the scratch, which
    reads `xs` on entry; the output's buffer is not touched. The witness `LS` lists the pieces
    written into the scratch, over its entry contents. -/
noncomputable def runMiddle (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : ¬cond1_1 i)
    (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    { LS : List (View.Piece (Elt F) S2048x1024 .f32) //
      ∀ (g7 : BufTy.Contents (Elt F) arg7.view.ty) (E : Set ℕ),
        Res1 (F := F) c arg2 harg2 arg3 harg3 arg4 harg4 arg5 harg5 arg6 harg6 arg7 harg7 arg8 harg8 x0 x1 x2 x3 x4 g7 (harg8.unread xs)
          ⊢ wp frame (wpE (defs₀ (F := F)) Variants.none c none) E (cc1__fused_attn_outproj_kernel i arg2 harg2 arg3 harg3 arg4 harg4 arg5 harg5 arg6 harg6 arg7 harg7 arg8 harg8)
              (fun _ => Res1 (F := F) c arg2 harg2 arg3 harg3 arg4 harg4 arg5 harg5 arg6 harg6 arg7 harg7 arg8 harg8 x0 x1 x2 x3 x4 g7 (arg8.view.writes (Elt F) (harg8.unread xs) LS)) } := by
  refine ⟨?_, fun g7 E => ?triple⟩
  case triple =>
    simp only [cc1__fused_attn_outproj_kernel_eq_skeleton]; unfold cc1__fused_attn_outproj_kernel_skel
    iintro ⟨H0, H1, H2, H3, H4, H7, H8⟩
    sl_exec (disch := first | exact hc0 | exact hc1)
    sl_step
    sl_close

end Cert.KernelIdeal.Reg1

end
-- ==== Proof.I.Region1RunL.lean ====
import proofs.«120176_j20856361190136_2_alg».proof.Proof.I.Region1Base

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A LAST point (head 15): the eight query tiles accumulate into the scratch, which reads `xs` on entry; then
    the scratch plus the bias row is stored over the whole output buffer. The witnesses list the pieces
    written into the output's buffer (`L5`) and into the scratch (`LS`). -/
noncomputable def runLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i)
    (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    Σ' (L5 : List (View.Piece (Elt F) S1x2048x1024 .f32)), { LS : List (View.Piece (Elt F) S2048x1024 .f32) //
      ∀ (g7 : BufTy.Contents (Elt F) arg7.view.ty) (E : Set ℕ),
        Res1 (F := F) c arg2 harg2 arg3 harg3 arg4 harg4 arg5 harg5 arg6 harg6 arg7 harg7 arg8 harg8 x0 x1 x2 x3 x4 g7 (harg8.unread xs)
          ⊢ wp frame (wpE (defs₀ (F := F)) Variants.none c none) E (cc1__fused_attn_outproj_kernel i arg2 harg2 arg3 harg3 arg4 harg4 arg5 harg5 arg6 harg6 arg7 harg7 arg8 harg8)
              (fun _ => Res1 (F := F) c arg2 harg2 arg3 harg3 arg4 harg4 arg5 harg5 arg6 harg6 arg7 harg7 arg8 harg8 x0 x1 x2 x3 x4 (arg7.view.writes (Elt F) g7 L5) (arg8.view.writes (Elt F) (harg8.unread xs) LS)) } := by
  refine ⟨?_, ?_, fun g7 E => ?triple⟩
  case triple =>
    simp only [cc1__fused_attn_outproj_kernel_eq_skeleton]; unfold cc1__fused_attn_outproj_kernel_skel
    iintro ⟨H0, H1, H2, H3, H4, H7, H8⟩
    sl_exec (disch := first | exact hc0 | exact hc1)
    sl_step
    sl_close

end Cert.KernelIdeal.Reg1

end
-- ==== Proof.I.Region1Cases.lean ====
import proofs.«120176_j20856361190136_2_alg».proof.Proof.I.Region1RunF
import proofs.«120176_j20856361190136_2_alg».proof.Proof.I.Region1RunM
import proofs.«120176_j20856361190136_2_alg».proof.Proof.I.Region1RunL

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Owned contents and raw contents of a whole memref -/

/-- A whole memref owned at contents `X` holds the raw contents that read `X`. -/
theorem owns_raw (c : Dev nD) {sh : Shape} {e : EltTy} (m : Memref sig .tc .vmem sh e) (h : m.IsWhole) (X : sh.Idx → Elt F e) :
    (owns (c : Thread nD τ) m fullShare X : sProp 𝕄) ⊢ (m.view.loc (c : Thread nD τ) ↦[m.view.set]{fullShare} h.unread X) := by
  unfold owns
  iintro ⟨%f, %hf, H⟩
  obtain rfl := h.eq_unread hf
  iexact H

/-- Conversely the raw contents that read `X` are the memref owned at `X`. -/
theorem raw_owns (c : Dev nD) {sh : Shape} {e : EltTy} (m : Memref sig .tc .vmem sh e) (h : m.IsWhole) (X : sh.Idx → Elt F e) :
    (m.view.loc (c : Thread nD τ) ↦[m.view.set]{fullShare} h.unread X) ⊢ (owns (c : Thread nD τ) m fullShare X : sProp 𝕄) := by
  unfold owns
  iintro H
  iexists (h.unread X)
  isplitr
  · ipureintro; exact h.read_unread X
  · iexact H

/-- Pieces that cover a shape, written over any raw contents `g`, are the memref owned at what they read back
    over junk. -/
theorem writes_owns (c : Dev nD) {sh : Shape} {e : EltTy} (m : Memref sig .tc .vmem sh e) (g : BufTy.Contents (Elt F) m.view.ty)
    (L : List (View.Piece (Elt F) sh e)) (hL : ∀ y : sh.Idx, ∃ p ∈ L, y ∈ p.1.set) :
    (m.view.loc (c : Thread nD τ) ↦[m.view.set]{fullShare} m.view.writes (Elt F) g L)
      ⊢ (owns (c : Thread nD τ) m fullShare (m.view.read (Elt F) (m.view.writes (Elt F) m.view.junk L)) : sProp 𝕄) := by
  unfold owns
  iintro H
  iexists (m.view.writes (Elt F) g L)
  isplitr
  · ipureintro; exact View.read_writes_of_cover m.view g m.view m.view.junk L hL
  · iexact H

/-! ## The three cases, read back -/

/-- FIRST: among the scratch's pieces, eight slabs of 256 rows tile it. -/
theorem tilesFirst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) :
    View.Piece.tiledL (runFirst c i arg2 harg2 arg3 harg3 arg4 harg4 arg5 harg5 arg6 harg6 arg7 harg7 arg8 harg8 hc0 hc1 x0 x1 x2 x3 x4).1 S256x1024.size = true := by sl_kernel_rfl

/-- What a FIRST point leaves in the scratch. -/
def scrFirst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) : Vec F S2048x1024 .f32 :=
  arg8.view.read (Elt F) (arg8.view.writes (Elt F) arg8.view.junk (runFirst c i arg2 harg2 arg3 harg3 arg4 harg4 arg5 harg5 arg6 harg6 arg7 harg7 arg8 harg8 hc0 hc1 x0 x1 x2 x3 x4).1)

/-- FIRST, over owned contents: the scratch enters at anything and leaves at `scrFirst`; everything else as it was. -/
theorem specFirst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32)
    (y5 : Vec F S1x2048x1024 .f32) (d : Vec F S2048x1024 .f32) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare d) : sProp 𝕄)
      ⊢ wp frame (wpE (defs₀ (F := F)) Variants.none c none) E (cc1__fused_attn_outproj_kernel i arg2 harg2 arg3 harg3 arg4 harg4 arg5 harg5 arg6 harg6 arg7 harg7 arg8 harg8)
          (fun _ => (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (scrFirst c i arg2 harg2 arg3 harg3 arg4 harg4 arg5 harg5 arg6 harg6 arg7 harg7 arg8 harg8 hc0 hc1 x0 x1 x2 x3 x4)) : sProp 𝕄)) :=
  (BIClass.sep_mono (owns_raw c arg2 harg2 x0) (BIClass.sep_mono (owns_raw c arg3 harg3 x1) (BIClass.sep_mono (owns_raw c arg4 harg4 x2) (BIClass.sep_mono (owns_raw c arg5 harg5 x3) (BIClass.sep_mono (owns_raw c arg6 harg6 x4) (BIClass.sep_mono (owns_raw c arg7 harg7 y5) (owns_raw c arg8 harg8 d))))))).trans
    (((runFirst c i arg2 harg2 arg3 harg3 arg4 harg4 arg5 harg5 arg6 harg6 arg7 harg7 arg8 harg8 hc0 hc1 x0 x1 x2 x3 x4).2 _ _ E).trans
      (wp_mono _ _ _ fun _ => BIClass.sep_mono (raw_owns c arg2 harg2 x0) (BIClass.sep_mono (raw_owns c arg3 harg3 x1) (BIClass.sep_mono (raw_owns c arg4 harg4 x2) (BIClass.sep_mono (raw_owns c arg5 harg5 x3) (BIClass.sep_mono (raw_owns c arg6 harg6 x4) (BIClass.sep_mono (raw_owns c arg7 harg7 y5)
        (writes_owns c arg8 _ _ (View.cover_of_tiledL _ _ (tilesFirst c i arg2 harg2 arg3 harg3 arg4 harg4 arg5 harg5 arg6 harg6 arg7 harg7 arg8 harg8 hc0 hc1 x0 x1 x2 x3 x4))))))))))

/-- MIDDLE: the scratch's pieces are eight slabs of 256 rows tiling it. -/
theorem tilesMiddle (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    View.Piece.tiledL (runMiddle c i arg2 harg2 arg3 harg3 arg4 harg4 arg5 harg5 arg6 harg6 arg7 harg7 arg8 harg8 hc0 hc1 x0 x1 x2 x3 x4 xs).1 S256x1024.size = true := by sl_kernel_rfl

/-- What a MIDDLE point leaves in the scratch, from the contents `xs` it found there. -/
def scrMiddle (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) : Vec F S2048x1024 .f32 :=
  arg8.view.read (Elt F) (arg8.view.writes (Elt F) arg8.view.junk (runMiddle c i arg2 harg2 arg3 harg3 arg4 harg4 arg5 harg5 arg6 harg6 arg7 harg7 arg8 harg8 hc0 hc1 x0 x1 x2 x3 x4 xs).1)

/-- MIDDLE, over owned contents: the scratch enters at `xs` and leaves at `scrMiddle`; everything else as it was. -/
theorem specMiddle (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32)
    (y5 : Vec F S1x2048x1024 .f32) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs) : sProp 𝕄)
      ⊢ wp frame (wpE (defs₀ (F := F)) Variants.none c none) E (cc1__fused_attn_outproj_kernel i arg2 harg2 arg3 harg3 arg4 harg4 arg5 harg5 arg6 harg6 arg7 harg7 arg8 harg8)
          (fun _ => (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (scrMiddle c i arg2 harg2 arg3 harg3 arg4 harg4 arg5 harg5 arg6 harg6 arg7 harg7 arg8 harg8 hc0 hc1 x0 x1 x2 x3 x4 xs)) : sProp 𝕄)) :=
  (BIClass.sep_mono (owns_raw c arg2 harg2 x0) (BIClass.sep_mono (owns_raw c arg3 harg3 x1) (BIClass.sep_mono (owns_raw c arg4 harg4 x2) (BIClass.sep_mono (owns_raw c arg5 harg5 x3) (BIClass.sep_mono (owns_raw c arg6 harg6 x4) (BIClass.sep_mono (owns_raw c arg7 harg7 y5) (owns_raw c arg8 harg8 xs))))))).trans
    (((runMiddle c i arg2 harg2 arg3 harg3 arg4 harg4 arg5 harg5 arg6 harg6 arg7 harg7 arg8 harg8 hc0 hc1 x0 x1 x2 x3 x4 xs).2 _ E).trans
      (wp_mono _ _ _ fun _ => BIClass.sep_mono (raw_owns c arg2 harg2 x0) (BIClass.sep_mono (raw_owns c arg3 harg3 x1) (BIClass.sep_mono (raw_owns c arg4 harg4 x2) (BIClass.sep_mono (raw_owns c arg5 harg5 x3) (BIClass.sep_mono (raw_owns c arg6 harg6 x4) (BIClass.sep_mono (raw_owns c arg7 harg7 y5)
        (writes_owns c arg8 _ _ (View.cover_of_tiledL _ _ (tilesMiddle c i arg2 harg2 arg3 harg3 arg4 harg4 arg5 harg5 arg6 harg6 arg7 harg7 arg8 harg8 hc0 hc1 x0 x1 x2 x3 x4 xs))))))))))

/-- LAST: the scratch's pieces are eight slabs of 256 rows tiling it. -/
theorem tilesLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    View.Piece.tiledL (runLast c i arg2 harg2 arg3 harg3 arg4 harg4 arg5 harg5 arg6 harg6 arg7 harg7 arg8 harg8 hc0 hc1 x0 x1 x2 x3 x4 xs).2.1 S256x1024.size = true := by sl_kernel_rfl

/-- LAST: the output buffer's one piece is the whole block. -/
theorem tilesOut (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    View.Piece.tiledL (runLast c i arg2 harg2 arg3 harg3 arg4 harg4 arg5 harg5 arg6 harg6 arg7 harg7 arg8 harg8 hc0 hc1 x0 x1 x2 x3 x4 xs).1 S1x2048x1024.size = true := by sl_kernel_rfl

/-- What a LAST point leaves in the scratch, from the contents `xs` it found there. -/
def scrLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) : Vec F S2048x1024 .f32 :=
  arg8.view.read (Elt F) (arg8.view.writes (Elt F) arg8.view.junk (runLast c i arg2 harg2 arg3 harg3 arg4 harg4 arg5 harg5 arg6 harg6 arg7 harg7 arg8 harg8 hc0 hc1 x0 x1 x2 x3 x4 xs).2.1)

/-- What a LAST point leaves in the output's buffer. -/
def outLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) : Vec F S1x2048x1024 .f32 :=
  arg7.view.read (Elt F) (arg7.view.writes (Elt F) arg7.view.junk (runLast c i arg2 harg2 arg3 harg3 arg4 harg4 arg5 harg5 arg6 harg6 arg7 harg7 arg8 harg8 hc0 hc1 x0 x1 x2 x3 x4 xs).1)

/-- LAST, over owned contents: the scratch enters at `xs` and leaves at `scrLast`, the output's buffer enters at
    anything and leaves at `outLast`; the inputs as they were. -/
theorem specLast (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32)
    (y5 : Vec F S1x2048x1024 .f32) (E : Set ℕ) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs) : sProp 𝕄)
      ⊢ wp frame (wpE (defs₀ (F := F)) Variants.none c none) E (cc1__fused_attn_outproj_kernel i arg2 harg2 arg3 harg3 arg4 harg4 arg5 harg5 arg6 harg6 arg7 harg7 arg8 harg8)
          (fun _ => (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outLast c i arg2 harg2 arg3 harg3 arg4 harg4 arg5 harg5 arg6 harg6 arg7 harg7 arg8 harg8 hc0 hc1 x0 x1 x2 x3 x4 xs) ∗ owns (c : Thread nD τ) arg8 fullShare (scrLast c i arg2 harg2 arg3 harg3 arg4 harg4 arg5 harg5 arg6 harg6 arg7 harg7 arg8 harg8 hc0 hc1 x0 x1 x2 x3 x4 xs)) : sProp 𝕄)) :=
  (BIClass.sep_mono (owns_raw c arg2 harg2 x0) (BIClass.sep_mono (owns_raw c arg3 harg3 x1) (BIClass.sep_mono (owns_raw c arg4 harg4 x2) (BIClass.sep_mono (owns_raw c arg5 harg5 x3) (BIClass.sep_mono (owns_raw c arg6 harg6 x4) (BIClass.sep_mono (owns_raw c arg7 harg7 y5) (owns_raw c arg8 harg8 xs))))))).trans
    (((runLast c i arg2 harg2 arg3 harg3 arg4 harg4 arg5 harg5 arg6 harg6 arg7 harg7 arg8 harg8 hc0 hc1 x0 x1 x2 x3 x4 xs).2.2 _ E).trans
      (wp_mono _ _ _ fun _ => BIClass.sep_mono (raw_owns c arg2 harg2 x0) (BIClass.sep_mono (raw_owns c arg3 harg3 x1) (BIClass.sep_mono (raw_owns c arg4 harg4 x2) (BIClass.sep_mono (raw_owns c arg5 harg5 x3) (BIClass.sep_mono (raw_owns c arg6 harg6 x4) (BIClass.sep_mono
        (writes_owns c arg7 _ _ (View.cover_of_tiledL _ _ (tilesOut c i arg2 harg2 arg3 harg3 arg4 harg4 arg5 harg5 arg6 harg6 arg7 harg7 arg8 harg8 hc0 hc1 x0 x1 x2 x3 x4 xs)))
        (writes_owns c arg8 _ _ (View.cover_of_tiledL _ _ (tilesLast c i arg2 harg2 arg3 harg3 arg4 harg4 arg5 harg5 arg6 harg6 arg7 harg7 arg8 harg8 hc0 hc1 x0 x1 x2 x3 x4 xs))))))))))

end Cert.KernelIdeal.Reg1

end
-- ==== Proof.I.Region1.lean ====
import proofs.«120176_j20856361190136_2_alg».proof.Proof.I.Region1Cases

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of each core's buffers: a parameter
variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Point by point -/

/-- Contents of the output's buffer that nothing consults: at the points where the window is idle nothing is
    stored into it, and it is neither written back there nor read at the next point. -/
def outIdle : Vec F S1x2048x1024 .f32 := VO1.read (Elt F) VO1.junk

/-- Contents of the scratch before the first point: nothing consults them, the first point resets it. -/
def scrIdle : Vec F S2048x1024 .f32 := VS1.read (Elt F) VS1.junk

/-- ONE POINT. What the output window's current buffer and the scratch hold after the body at point `t`, given
    what the scratch held before it: by the head coordinate, which is `t` modulo 16. -/
def stepAt (c : Dev nD) (t : Fin cfg1.N) (prev : Vec F S2048x1024 .f32) : Vec F S1x2048x1024 .f32 × Vec F S2048x1024 .f32 :=
  if h0 : t.val % 16 = 0 then
    (outIdle, scrFirst c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => by have h15 := (hcond1_1 t).mp h; omega) (blk1 V c 0 t) (blk1 V c 1 t) (blk1 V c 2 t) (blk1 V c 3 t) (blk1 V c 4 t))
  else if h1 : t.val % 16 = 15 then
    (outLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blk1 V c 0 t) (blk1 V c 1 t) (blk1 V c 2 t) (blk1 V c 3 t) (blk1 V c 4 t) prev, scrLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blk1 V c 0 t) (blk1 V c 1 t) (blk1 V c 2 t) (blk1 V c 3 t) (blk1 V c 4 t) prev)
  else
    (outIdle, scrMiddle c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (blk1 V c 0 t) (blk1 V c 1 t) (blk1 V c 2 t) (blk1 V c 3 t) (blk1 V c 4 t) prev)

/-- THE ACCUMULATION. What the scratch holds before position `n`: what the point before left there. -/
def scrBefore (c : Dev nD) : (n : ℕ) → n ≤ cfg1.N → Vec F S2048x1024 .f32
  | 0, _ => scrIdle
  | n + 1, h => (stepAt V c ⟨n, h⟩ (scrBefore c n (Nat.le_of_lt h))).2

/-- What the output window's current buffer and the scratch hold after the body at position `n`. -/
def heldAt (c : Dev nD) (n : ℕ) (hn : n < cfg1.N) : Vec F S1x2048x1024 .f32 × Vec F S2048x1024 .f32 :=
  stepAt V c ⟨n, hn⟩ (scrBefore V c n (Nat.le_of_lt hn))

/-- The scratch before position `n + 1` is what point `n` left. -/
theorem scrBefore_succ (c : Dev nD) (n : ℕ) (hn : n < cfg1.N) : scrBefore V c (n + 1) hn = (heldAt V c n hn).2 := rfl

/-- The scratch before a position that is not the first is what the point before left. -/
theorem scrBefore_pos (c : Dev nD) (n : ℕ) (h : n ≤ cfg1.N) (hz : n ≠ 0) :
    scrBefore V c n h = (heldAt V c (n - 1) (by omega)).2 := by
  cases n with
  | zero => exact absurd rfl hz
  | succ n => rfl

/-- `heldAt` at a FIRST point. -/
theorem heldAt_first (c : Dev nD) (t : Fin cfg1.N) (h0 : t.val % 16 = 0) :
    heldAt V c t.val t.isLt = (outIdle, scrFirst c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => by have h15 := (hcond1_1 t).mp h; omega) (blk1 V c 0 t) (blk1 V c 1 t) (blk1 V c 2 t) (blk1 V c 3 t) (blk1 V c 4 t)) :=
  dif_pos h0

/-- `heldAt` at a MIDDLE point, over what the scratch held before it. -/
theorem heldAt_middle (c : Dev nD) (t : Fin cfg1.N) (h0 : ¬t.val % 16 = 0) (h1 : ¬t.val % 16 = 15) :
    heldAt V c t.val t.isLt = (outIdle, scrMiddle c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (blk1 V c 0 t) (blk1 V c 1 t) (blk1 V c 2 t) (blk1 V c 3 t) (blk1 V c 4 t) (scrBefore V c t.val (Nat.le_of_lt t.isLt))) :=
  (dif_neg h0).trans (dif_neg h1)

/-- `heldAt` at a LAST point, over what the scratch held before it. -/
theorem heldAt_last (c : Dev nD) (t : Fin cfg1.N) (h0 : ¬t.val % 16 = 0) (h1 : t.val % 16 = 15) :
    heldAt V c t.val t.isLt = (outLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blk1 V c 0 t) (blk1 V c 1 t) (blk1 V c 2 t) (blk1 V c 3 t) (blk1 V c 4 t) (scrBefore V c t.val (Nat.le_of_lt t.isLt)), scrLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (blk1 V c 0 t) (blk1 V c 1 t) (blk1 V c 2 t) (blk1 V c 3 t) (blk1 V c 4 t) (scrBefore V c t.val (Nat.le_of_lt t.isLt))) :=
  (dif_neg h0).trans (dif_pos h1)

/-! ## The invariant and the proof data -/

/-- What the region holds beside the windows and the scratch: the other scoped buffers, each at anything, and
    the generator register at some state. The body touches none of it. -/
abbrev Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ r, prngReg c r))

/-- What the launch hands the region, with the scratch singled out. -/
theorem PhiA_split (c : Dev nD) :
    (Pipeline.ΦA spec1 c : sProp 𝕄) ⊢ iprop((∃ d, owns (c : Thread nD τ) scM1 fullShare d) ∗ Rest1 (F := F) c) := by
  rw [PhiA1_eq]
  iintro ⟨⟨A0, A1, A2, A3, A4, A5, HS⟩, Hg⟩
  isplitl [HS]
  · iexact HS
  isplitl [A0]; · iexact A0
  isplitl [A1]; · iexact A1
  isplitl [A2]; · iexact A2
  isplitl [A3]; · iexact A3
  isplitl [A4]; · iexact A4
  isplitl [A5]; · iexact A5
  iexact Hg

/-- And back. -/
theorem PhiA_join (c : Dev nD) :
    iprop((∃ d, owns (c : Thread nD τ) scM1 fullShare d) ∗ Rest1 (F := F) c) ⊢ (Pipeline.ΦA spec1 c : sProp 𝕄) := by
  rw [PhiA1_eq]
  iintro ⟨HS, A0, A1, A2, A3, A4, A5, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexact HS
  · iexact Hg

/-- The region's invariant before position `n`: the scratch at contents that, past the first point, are what the
    point before left (`scrBefore`); and the rest. -/
def Phi1 (c : Dev nD) (n : ℕ) (h : n ≤ cfg1.N) : sProp 𝕄 :=
  iprop((∃ d, ⌜n ≠ 0 → d = scrBefore V c n h⌝ ∗ owns (c : Thread nD τ) scM1 fullShare d) ∗ Rest1 (F := F) c)

/-- The proof data of this region on core `c`: the arrays as the region finds them; after the body at point `t`
    each input's buffer at its block, the output's at `heldAt`'s first component; the invariant `Phi1`; nothing
    owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => (heldAt V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = (heldAt V c t.val t.isLt).1 := by dsimp only [dat1]

/-- Input window 0's current buffer holds its block at every point, fetched there or not: the body leaves the
    block in place, and a point that does not fetch has the block index of the point before. -/
theorem before1_0 (c : Dev nD) (t : Fin cfg1.N) (d) : (dat1 V c).before 0 t d = blk1 V c 0 t := by
  have hkeep : ∀ t, (cfg1.win 0).cut (cfg1.grid.coords t) ((dat1 V c).after 0 t) = (dat1 V c).blockOf 0 t := by
    intro t
    rw [after1_0]
    unfold Dat.blockOf blk1
    rw [A_eq1]
  rw [(dat1 V c).before_in_eq_fetched 0 rfl (fun _ => rfl) (fun _ _ _ => rfl) hkeep t d]
  unfold Dat.fetched Dat.blockOf blk1
  rw [A_eq1]
  rfl

/-- Input window 1's current buffer holds its block at every point, fetched there or not: the body leaves the
    block in place, and a point that does not fetch has the block index of the point before. -/
theorem before1_1 (c : Dev nD) (t : Fin cfg1.N) (d) : (dat1 V c).before 1 t d = blk1 V c 1 t := by
  have hkeep : ∀ t, (cfg1.win 1).cut (cfg1.grid.coords t) ((dat1 V c).after 1 t) = (dat1 V c).blockOf 1 t := by
    intro t
    rw [after1_1]
    unfold Dat.blockOf blk1
    rw [A_eq1]
  rw [(dat1 V c).before_in_eq_fetched 1 rfl (fun _ => rfl) (fun _ _ _ => rfl) hkeep t d]
  unfold Dat.fetched Dat.blockOf blk1
  rw [A_eq1]
  rfl

/-- Input window 2's current buffer holds its block at every point, fetched there or not: the body leaves the
    block in place, and a point that does not fetch has the block index of the point before. -/
theorem before1_2 (c : Dev nD) (t : Fin cfg1.N) (d) : (dat1 V c).before 2 t d = blk1 V c 2 t := by
  have hkeep : ∀ t, (cfg1.win 2).cut (cfg1.grid.coords t) ((dat1 V c).after 2 t) = (dat1 V c).blockOf 2 t := by
    intro t
    rw [after1_2]
    unfold Dat.blockOf blk1
    rw [A_eq1]
  rw [(dat1 V c).before_in_eq_fetched 2 rfl (fun _ => rfl) (fun _ _ _ => rfl) hkeep t d]
  unfold Dat.fetched Dat.blockOf blk1
  rw [A_eq1]
  rfl

/-- Input window 3's current buffer holds its block at every point, fetched there or not: the body leaves the
    block in place, and a point that does not fetch has the block index of the point before. -/
theorem before1_3 (c : Dev nD) (t : Fin cfg1.N) (d) : (dat1 V c).before 3 t d = blk1 V c 3 t := by
  have hkeep : ∀ t, (cfg1.win 3).cut (cfg1.grid.coords t) ((dat1 V c).after 3 t) = (dat1 V c).blockOf 3 t := by
    intro t
    rw [after1_3]
    unfold Dat.blockOf blk1
    rw [A_eq1]
  rw [(dat1 V c).before_in_eq_fetched 3 rfl (fun _ => rfl) (fun _ _ _ => rfl) hkeep t d]
  unfold Dat.fetched Dat.blockOf blk1
  rw [A_eq1]
  rfl

/-- Input window 4's current buffer holds its block at every point, fetched there or not: the body leaves the
    block in place, and a point that does not fetch has the block index of the point before. -/
theorem before1_4 (c : Dev nD) (t : Fin cfg1.N) (d) : (dat1 V c).before 4 t d = blk1 V c 4 t := by
  have hkeep : ∀ t, (cfg1.win 4).cut (cfg1.grid.coords t) ((dat1 V c).after 4 t) = (dat1 V c).blockOf 4 t := by
    intro t
    rw [after1_4]
    unfold Dat.blockOf blk1
    rw [A_eq1]
  rw [(dat1 V c).before_in_eq_fetched 4 rfl (fun _ => rfl) (fun _ _ _ => rfl) hkeep t d]
  unfold Dat.fetched Dat.blockOf blk1
  rw [A_eq1]
  rfl

/-- The invariant after point `n` from the scratch owned at what that point left. -/
theorem Phi1_intro (c : Dev nD) (n : ℕ) (hn : n < cfg1.N) (x : Vec F S2048x1024 .f32) (hx : scrBefore V c (n + 1) hn = x) :
    iprop(owns (c : Thread nD τ) scM1 fullShare x ∗ Rest1 (F := F) c) ⊢ Phi1 V c (n + 1) hn := by
  unfold Phi1
  iintro ⟨HS, HR⟩
  isplitl [HS]
  · iexists x
    isplitr
    · ipureintro; intro _; exact hx.symm
    · iexact HS
  · iexact HR

/-- What the launch hands the region is the invariant before the first point. -/
theorem hin1 (c : Dev nD) : Pipeline.ΦA spec1 c ⊢ (dat1 V c).Φ 0 := by
  refine (PhiA_split c).trans ?_
  show _ ⊢ Phi1 V c 0 (Nat.zero_le _)
  unfold Phi1
  iintro ⟨⟨%d, HS⟩, HR⟩
  isplitl [HS]
  · iexists d
    isplitr
    · ipureintro; intro h; exact absurd rfl h
    · iexact HS
  · iexact HR

/-- The invariant after the last point gives back what the launch handed over: the scratch's contents are
    forgotten. -/
theorem hout1 (c : Dev nD) : (dat1 V c).Φ (Fin.last cfg1.N) ⊢ Pipeline.ΦA spec1 c := by
  refine BIBase.Entails.trans ?_ (PhiA_join c)
  show Phi1 V c (Fin.last cfg1.N).val _ ⊢ _
  unfold Phi1
  iintro ⟨⟨%d, -, HS⟩, HR⟩
  isplitl [HS]
  · iexists d; iexact HS
  · iexact HR

/-! ## The body obligation -/

/-- What the body is handed at point `t`: the invariant, the core's dues, each window's current buffer at what
    it then holds. -/
def Pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What it must return. -/
def Post1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- At a point live for window `w` the body must leave its buffer at `after w t`. -/
theorem leaves_live (c : Dev nD) (w : Fin cfg1.W) (t : Fin cfg1.N) (h : cfg1.idle w (cfg1.grid.coords t) = false) :
    (dat1 V c).leavesExact w t = owns (c : Thread nD τ) ((cfg1.win w).stage (cfg1.slots t w)) fullShare ((dat1 V c).after w t) := by
  unfold Dat.leavesExact; rw [h]

set_option maxHeartbeats 4000000 in
/-- The body at any point. The inputs' buffers hold their blocks; the head coordinate selects the case; the
    invariant hands over the scratch — at anything at a point that resets it, otherwise at what the point before
    left — and takes it back at what this point leaves; the output's buffer goes back untouched where the window
    is idle, and at the stored block where it is live. -/
theorem body1 (c : Dev nD) (t : Fin cfg1.N) :
    Pre1 V c t ⊢ wp frame (wpE (defs₀ (F := F)) Variants.none c none) Set.univ (bodyAt1 t) (fun _ => Post1 V c t) := by
  unfold Pre1 Post1 bodyAt1
  rw [leaves_live V c 0 t (liveAt1_0 t), leaves_live V c 1 t (liveAt1_1 t), leaves_live V c 2 t (liveAt1_2 t),
    leaves_live V c 3 t (liveAt1_3 t), leaves_live V c 4 t (liveAt1_4 t)]
  simp only [before1_0 V c, before1_1 V c, before1_2 V c, before1_3 V c, before1_4 V c,
    after1_0 V c, after1_1 V c, after1_2 V c, after1_3 V c, after1_4 V c]
  rw [show (dat1 V c).owesAt () t.succ = (dat1 V c).owesAt () t.castSucc from rfl,
    show (dat1 V c).Φ t.castSucc = Phi1 V c t.val (Nat.le_of_lt t.isLt) from rfl,
    show (dat1 V c).Φ t.succ = Phi1 V c (t.val + 1) t.isLt from rfl]
  rw [show Phi1 V c t.val (Nat.le_of_lt t.isLt) = iprop((∃ d, ⌜t.val ≠ 0 → d = scrBefore V c t.val (Nat.le_of_lt t.isLt)⌝ ∗ owns (c : Thread nD τ) scM1 fullShare d) ∗ Rest1 (F := F) c) from rfl]
  by_cases h0 : t.val % 16 = 0
  · -- the head is 0: the scratch is reset
    have hc0 : cond1_0 (grid1.coords t) := (hcond1_0 t).mpr h0
    have hc1 : ¬cond1_1 (grid1.coords t) := fun h => by have h15 := (hcond1_1 t).mp h; omega
    have hH := heldAt_first V c t h0
    rw [Dat.leavesExact_idle (dat1 V c) 5 t (idleAt1_5 t hc1) (noFlush1_5 t hc1)]
    iintro ⟨⟨⟨%d, -, HS⟩, HR⟩, Ho, ⟨%d0, H0⟩, ⟨%d1, H1⟩, ⟨%d2, H2⟩, ⟨%d3, H3⟩, ⟨%d4, H4⟩, ⟨%d5, H5⟩⟩
    iapply (wp_wand_r Idealize.ShloMosaic.frame (wpE (defs₀ (F := F)) Variants.none (c : Thread nD τ) none) Set.univ)
    isplitl [H0 H1 H2 H3 H4 H5 HS]
    · iapply (specFirst c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (blk1 V c 0 t) (blk1 V c 1 t) (blk1 V c 2 t) (blk1 V c 3 t) (blk1 V c 4 t) _ d Set.univ)
      isplitl [H0]; · iexact H0
      isplitl [H1]; · iexact H1
      isplitl [H2]; · iexact H2
      isplitl [H3]; · iexact H3
      isplitl [H4]; · iexact H4
      isplitl [H5]; · iexact H5
      iexact HS
    · iintro %_ ⟨H0, H1, H2, H3, H4, H5, HS⟩
      isplitl [HS HR]
      · iapply (Phi1_intro V c t.val t.isLt _ ((scrBefore_succ V c t.val t.isLt).trans (congrArg Prod.snd hH)))
        isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      iexists d5; iexact H5
  · have hc0 : ¬cond1_0 (grid1.coords t) := fun h => h0 ((hcond1_0 t).mp h)
    have hz : t.val ≠ 0 := fun e => h0 (by rw [e])
    by_cases h1 : t.val % 16 = 15
    · -- the head is 15: the output's block is stored
      have hc1 : cond1_1 (grid1.coords t) := (hcond1_1 t).mpr h1
      have hH := heldAt_last V c t h0 h1
      rw [leaves_live V c 5 t (liveAt1_5 t hc1), after1_5, hH]
      iintro ⟨⟨⟨%d, %hd, HS⟩, HR⟩, Ho, ⟨%d0, H0⟩, ⟨%d1, H1⟩, ⟨%d2, H2⟩, ⟨%d3, H3⟩, ⟨%d4, H4⟩, ⟨%d5, H5⟩⟩
      obtain rfl := hd hz
      iapply (wp_wand_r Idealize.ShloMosaic.frame (wpE (defs₀ (F := F)) Variants.none (c : Thread nD τ) none) Set.univ)
      isplitl [H0 H1 H2 H3 H4 H5 HS]
      · iapply (specLast c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (blk1 V c 0 t) (blk1 V c 1 t) (blk1 V c 2 t) (blk1 V c 3 t) (blk1 V c 4 t) (scrBefore V c t.val (Nat.le_of_lt t.isLt)) _ Set.univ)
        isplitl [H0]; · iexact H0
        isplitl [H1]; · iexact H1
        isplitl [H2]; · iexact H2
        isplitl [H3]; · iexact H3
        isplitl [H4]; · iexact H4
        isplitl [H5]; · iexact H5
        iexact HS
      · iintro %_ ⟨H0, H1, H2, H3, H4, H5, HS⟩
        isplitl [HS HR]
        · iapply (Phi1_intro V c t.val t.isLt _ ((scrBefore_succ V c t.val t.isLt).trans (congrArg Prod.snd hH)))
          isplitl [HS]; · iexact HS
          iexact HR
        isplitl [Ho]; · iexact Ho
        isplitl [H0]; · iexact H0
        isplitl [H1]; · iexact H1
        isplitl [H2]; · iexact H2
        isplitl [H3]; · iexact H3
        isplitl [H4]; · iexact H4
        iexact H5
    · -- the head is strictly between: the scratch accumulates, the output's buffer is left alone
      have hc1 : ¬cond1_1 (grid1.coords t) := fun h => h1 ((hcond1_1 t).mp h)
      have hH := heldAt_middle V c t h0 h1
      rw [Dat.leavesExact_idle (dat1 V c) 5 t (idleAt1_5 t hc1) (noFlush1_5 t hc1)]
      iintro ⟨⟨⟨%d, %hd, HS⟩, HR⟩, Ho, ⟨%d0, H0⟩, ⟨%d1, H1⟩, ⟨%d2, H2⟩, ⟨%d3, H3⟩, ⟨%d4, H4⟩, ⟨%d5, H5⟩⟩
      obtain rfl := hd hz
      iapply (wp_wand_r Idealize.ShloMosaic.frame (wpE (defs₀ (F := F)) Variants.none (c : Thread nD τ) none) Set.univ)
      isplitl [H0 H1 H2 H3 H4 H5 HS]
      · iapply (specMiddle c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) hc0 hc1 (blk1 V c 0 t) (blk1 V c 1 t) (blk1 V c 2 t) (blk1 V c 3 t) (blk1 V c 4 t) (scrBefore V c t.val (Nat.le_of_lt t.isLt)) _ Set.univ)
        isplitl [H0]; · iexact H0
        isplitl [H1]; · iexact H1
        isplitl [H2]; · iexact H2
        isplitl [H3]; · iexact H3
        isplitl [H4]; · iexact H4
        isplitl [H5]; · iexact H5
        iexact HS
      · iintro %_ ⟨H0, H1, H2, H3, H4, H5, HS⟩
        isplitl [HS HR]
        · iapply (Phi1_intro V c t.val t.isLt _ ((scrBefore_succ V c t.val t.isLt).trans (congrArg Prod.snd hH)))
          isplitl [HS]; · iexact HS
          iexact HR
        isplitl [Ho]; · iexact Ho
        isplitl [H0]; · iexact H0
        isplitl [H1]; · iexact H1
        isplitl [H2]; · iexact H2
        isplitl [H3]; · iexact H3
        isplitl [H4]; · iexact H4
        iexists d5; iexact H5

/-- The body obligation, at every point. -/
theorem body_obligation1 (c : Dev nD) : Pipeline.BodyObligation (dat1 (F := F) V c) (defs₀ (F := F)) Variants.none () Set.univ := fun t => by
  rw [bigSep_W1, bigSep_W1]
  exact body1 V c t

end Cert.KernelIdeal.Reg1

end
-- ==== Proof.I.Run.lean ====
/-
  The whole program as one run, at any float instance.

  @main is four items in order: a stretch of host operations that lays the in-projection's operands out, the in-projection
  region, a stretch of host operations that cuts its result into the heads' queries, keys and values and lays the
  out-projection's operands out, and the attention region. Between two items a core's unscoped buffers hold known contents:
  the launch memory, then the host stretch's fold over it, then the same with the region's arrays at what its write-backs
  leave, and so on. Each region is entered from the contents before it and left at the contents after it; its arrays are
  split out of the unscoped buffers on the way in and put back on the way out, the generator register rides through the
  region's invariant, and nothing is owed at any point.

  The run's post reads EVERY unscoped buffer at the last contents. Two consequences are drawn from it: the argument arrays
  end as launched (no host operation writes one and no region has one among its arrays), and the result array ends at what
  the attention region's write-backs leave.
-/
import proofs.«120176_j20856361190136_2_alg».proof.Proof.Gen.KernelIdeal.Launch
import proofs.«120176_j20856361190136_2_alg».proof.Proof.Gen.KernelIdeal.Skeleton
import proofs.«120176_j20856361190136_2_alg».proof.Proof.Gen.KernelIdeal.Points
import proofs.«120176_j20856361190136_2_alg».proof.Proof.Gen.KernelIdeal.Regions
import proofs.«120176_j20856361190136_2_alg».proof.Proof.I.Region0
import proofs.«120176_j20856361190136_2_alg».proof.Proof.I.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Region 0's proof data hold every array at the full share, owe nothing, and keep the class's invariant at every point. -/
theorem share0 (V : (c : Dev nD) → (b : Ref sig .tc) → Buf (Elt F) ((c : Thread nD τ).loc b)) (c : Dev nD) (w : Fin cfg0.W) :
    (Reg0.dat0 V c).share w = fullShare := (Reg0.dat0 V c).share_full (fun _ => rfl) w
theorem owed0 (V : (c : Dev nD) → (b : Ref sig .tc) → Buf (Elt F) ((c : Thread nD τ).loc b)) (c : Dev nD) (t : Fin (cfg0.N + 1)) :
    (Reg0.dat0 V c).owed t = 0 := rfl
theorem Phi0 (V : (c : Dev nD) → (b : Ref sig .tc) → Buf (Elt F) ((c : Thread nD τ).loc b)) (c : Dev nD) (t : Fin (cfg0.N + 1)) :
    (Reg0.dat0 V c).Φ t = Pipeline.ΦA spec0 c := rfl

/-- The same of region 1's proof data; its invariant is its own (it tracks the accumulator). -/
theorem share1 (V : (c : Dev nD) → (b : Ref sig .tc) → Buf (Elt F) ((c : Thread nD τ).loc b)) (c : Dev nD) (w : Fin cfg1.W) :
    (Reg1.dat1 V c).share w = fullShare := (Reg1.dat1 V c).share_full (fun _ => rfl) w
theorem owed1 (V : (c : Dev nD) → (b : Ref sig .tc) → Buf (Elt F) ((c : Thread nD τ).loc b)) (c : Dev nD) (t : Fin (cfg1.N + 1)) :
    (Reg1.dat1 V c).owed t = 0 := rfl
theorem recorded1 (V : (c : Dev nD) → (b : Ref sig .tc) → Buf (Elt F) ((c : Thread nD τ).loc b)) (c : Dev nD) (t : Fin (cfg1.N + 1))
    (x : SemLoc sig × Unit) : x ∈ (Reg1.dat1 V c).recorded t := Set.mem_univ x

variable (m : (ℓ : Loc nD τ sig) → Buf (Elt F) ℓ)

/-! ## What a core's unscoped buffers hold between two items -/

/-- As launched. -/
abbrev held0 : Dev nD → Valuation τ sig (Elt F) := fun c b => m (c, b)
/-- After the first host stretch: the in-projection's operands laid out. -/
abbrev held1 : Dev nD → Valuation τ sig (Elt F) := fun c => StableHlo.after hostOps0 (held0 m c)
/-- The same, read at the TensorCore's references: what the in-projection region is entered from. -/
abbrev entry0 : (c : Dev nD) → (b : Ref sig .tc) → Buf (Elt F) ((c : Thread nD τ).loc b) := fun c b => held1 m c b
/-- After the in-projection region: its arrays at what the write-backs leave, every other buffer as entered. -/
def held2 (c : Dev nD) : Valuation τ sig (Elt F) :=
  Pipeline.withArrays spec0 c (held1 m c) fun w => (Reg0.dat0 (entry0 m) c).arrAt w cfg0.N
abbrev exit0 : (c : Dev nD) → (b : Ref sig .tc) → Buf (Elt F) ((c : Thread nD τ).loc b) := fun c b => held2 m c b
/-- After the second host stretch: heads cut out, the out-projection's operands laid out. -/
abbrev held3 : Dev nD → Valuation τ sig (Elt F) := fun c => StableHlo.after hostOps1 (held2 m c)
abbrev entry1 : (c : Dev nD) → (b : Ref sig .tc) → Buf (Elt F) ((c : Thread nD τ).loc b) := fun c b => held3 m c b
/-- After the attention region. -/
def held4 (c : Dev nD) : Valuation τ sig (Elt F) :=
  Pipeline.withArrays spec1 c (held3 m c) fun w => (Reg1.dat1 (entry1 m) c).arrAt w cfg1.N
abbrev exit1 : (c : Dev nD) → (b : Ref sig .tc) → Buf (Elt F) ((c : Thread nD τ).loc b) := fun c b => held4 m c b

theorem held2_array (c : Dev nD) (w : Fin cfg0.W) :
    held2 m c (Proc.devRef .tc (Pipeline.arrRef spec0 w)) = (Reg0.dat0 (entry0 m) c).arrAt w cfg0.N := by
  unfold held2; exact Pipeline.withArrays_arr spec0 launch0.win.arr_inj c _ _ w
theorem held2_other (c : Dev nD) (b : Ref sig .tc) (hb : ∀ w, Pipeline.arrRef spec0 w ≠ b) :
    held2 m c (Proc.devRef .tc b) = held1 m c (Proc.devRef .tc b) := by
  unfold held2; exact Pipeline.withArrays_of_ne spec0 c _ _ b hb
theorem held4_array (c : Dev nD) (w : Fin cfg1.W) :
    held4 m c (Proc.devRef .tc (Pipeline.arrRef spec1 w)) = (Reg1.dat1 (entry1 m) c).arrAt w cfg1.N := by
  unfold held4; exact Pipeline.withArrays_arr spec1 launch1.win.arr_inj c _ _ w
theorem held4_other (c : Dev nD) (b : Ref sig .tc) (hb : ∀ w, Pipeline.arrRef spec1 w ≠ b) :
    held4 m c (Proc.devRef .tc b) = held3 m c (Proc.devRef .tc b) := by
  unfold held4; exact Pipeline.withArrays_of_ne spec1 c _ _ b hb

/-- An argument array is no region's array and no host operation's result: it is read through all four items back to
    the launch memory. -/
theorem held4_arg (c : Dev nD) (r : Ref sig .tc) (h0 : ∀ w, Pipeline.arrRef spec0 w ≠ r) (h1 : ∀ w, Pipeline.arrRef spec1 w ≠ r)
    (hw0 : r ∉ hostOps0_W) (hw1 : r ∉ hostOps1_W) : held4 m c (Proc.devRef .tc r) = m ((c : Thread nD τ).loc r) :=
  (held4_other m c r h1).trans <| (StableHlo.after_of_writes_sub hostOps1 _ hostOps1_writes hw1).trans <|
    (held2_other m c r h0).trans <| (StableHlo.after_of_writes_sub hostOps0 _ hostOps0_writes hw0).trans rfl

/-! ## The proof data family, and what rides beside the buffers -/

/-- No pipeline has a prefetched table. -/
abbrev adm : (p : Fin 2) → (pcfgs (F := F) p).Adm := fun p => (cfgs p).toPCfg_adm

/-- Every pipeline's proof data, each at its own region's entry contents. -/
def pdats : (p : Fin 2) → (c : Dev nD) → Dat τ (Elt F) Unit ℕ (UR sig nD τ) ℕ (Pipeline.pin (pcfgs (F := F)) adm p) c
  | ⟨0, _⟩ => fun c => Reg0.dat0 (entry0 m) c
  | ⟨1, _⟩ => fun c => Reg1.dat1 (entry1 m) c

abbrev noVariants : Variants := Variants.none
/-- No core owes another anything: no level is assigned. -/
abbrev noLevels : GSem nD τ sig → Finset Unit := fun _ => ∅
abbrev levelOf : GSem nD τ sig → Unit → ℕ := fun _ _ => 0

/-- Beside the buffers, through every item: the core's generator register at some state, and the core owing nothing. -/
abbrev beside (c : Dev nD) : sProp 𝕄 :=
  iprop((∃ r, prngReg c r) ∗ ∃ W, owes (c : Thread nD τ) (0 : CellTallies nD τ sig Unit) W)

/-- The thread state between two items: every unscoped buffer at the contents `H c`, and `beside`. -/
abbrev stateAt (H : Dev nD → Valuation τ sig (Elt F)) (c : Dev nD) : sProp 𝕄 :=
  iprop(StableHlo.held (c : Thread nD τ) (Pipeline.ucRefs τ sig) (H c) ∗ beside c)

/-- A stretch of host operations as a segment, from the contents `H`. -/
abbrev hostItem (ops : List (HloOp τ sig (Elt F))) (hsub : ops.Forall fun op => op.bufs ⊆ StableHlo.tcRefs τ sig)
    (hfresh : ops.Forall fun op => op.fresh = ∅) (H : Dev nD → Valuation τ sig (Elt F)) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) H beside

/-! ## The two regions as segments -/

theorem exit0_array (c : Dev nD) (w : Fin cfg0.W) : (Reg0.dat0 (entry0 m) c).arrAt w cfg0.N = exit0 m c (Pipeline.arrRef spec0 w) :=
  (held2_array m c w).symm
theorem exit0_other (c : Dev nD) : ∀ b, b ∉ Finset.univ.image (Pipeline.arrRef spec0) → exit0 m c b = entry0 m c b :=
  fun b hb => held2_other m c b fun w e => hb (Finset.mem_image.mpr ⟨w, Finset.mem_univ _, e⟩)
theorem exit1_array (c : Dev nD) (w : Fin cfg1.W) : (Reg1.dat1 (entry1 m) c).arrAt w cfg1.N = exit1 m c (Pipeline.arrRef spec1 w) :=
  (held4_array m c w).symm
theorem exit1_other (c : Dev nD) : ∀ b, b ∉ Finset.univ.image (Pipeline.arrRef spec1) → exit1 m c b = entry1 m c b :=
  fun b hb => held4_other m c b fun w e => hb (Finset.mem_image.mpr ⟨w, Finset.mem_univ _, e⟩)

set_option backward.isDefEq.respectTransparency.types false in
/-- The in-projection region: entered from `held1`, left at `held2`. -/
def inProj : Pipeline.RegionSeg (pcfgs (F := F)) adm (pdats m) () defs₀ noVariants noLevels levelOf 0 where
  win := launch0.win.to₀
  block_pos := launch0.block_pos
  stage_whole := launch0.stage_whole
  K := PEmpty
  osem k := k.elim
  ho := Pipeline.OwnSemFacts.none _
  hbody c := (Reg0.body_obligation0 (entry0 m) c).loose
  hwaits := Pipeline.hwaits_of_owed_zero _ _ _ _ noLevels levelOf 0 fun c t => owed0 (entry0 m) c t
  pre c := stateAt (held1 m) c
  post c := stateAt (held2 m) c
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      (fun w => share0 (entry0 m) c w) (entry0 m c) (fun w => Reg0.A_eq0 (entry0 m) c w)
    rw [Pipeline.unscopedBufs_held] at hsplit
    unfold stateAt beside
    iintro ⟨⟨Hbufs, Hgen, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]; iempintro
    isplitl [Howes]
    · unfold Pipeline.Dat.owesAt Pipeline.owesWithin
      icases Howes with ⟨%W, Howes⟩
      iexists W
      isplitr
      · ipureintro
        -- the pairs recorded before the first point are unconstrained
        exact fun x _ => Or.inl (Set.mem_univ x)
      iexact Howes
    isplitl [Hgen]; · iexact Hgen
    iexact Hrest
  hin c := by
    rw [show (pdats m 0 c).Φ 0 = Pipeline.ΦA spec0 c from Phi0 (entry0 m) c 0]
    unfold Pipeline.ΦA
    iintro ⟨Hgen, -, Hscoped⟩
    isplitl [Hscoped]; · iexact Hscoped
    iexact Hgen
  hout c := by
    rw [Pipeline.ownSems0_none, show (pdats m 0 c).Φ (Fin.last _) = Pipeline.ΦA spec0 c from Phi0 (entry0 m) c _]
    unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) (fun w => share0 (entry0 m) c w)
      (entry0 m c) (exit0 m c) ((pdats m 0 c).arrAt · cfg0.N) (exit0_array m c) (exit0_other m c)
    rw [Pipeline.unscopedBufs_held] at hjoin
    unfold stateAt beside
    iintro ⟨Harr, Howes, Hgen, Hrest⟩
    imodintro
    isplitl [Harr Hrest]
    · iapply hjoin
      isplitl [Harr]; · iexact Harr
      iexact Hrest
    isplitl [Hgen]; · iexact Hgen
    unfold Pipeline.Dat.owesAt Pipeline.owesWithin
    rw [show (pdats m 0 c).owed (Fin.last _) = 0 from owed0 (entry0 m) c _]
    icases Howes with ⟨%W, -, Howes⟩
    iexists W; iexact Howes

set_option backward.isDefEq.respectTransparency.types false in
/-- The attention region: entered from `held3`, left at `held4`. Its invariant tracks the scratch accumulator from
    point to point; the launch hands it the class's invariant and takes the class's invariant back. -/
def attention : Pipeline.RegionSeg (pcfgs (F := F)) adm (pdats m) () defs₀ noVariants noLevels levelOf 1 where
  win := launch1.win.to₀
  block_pos := launch1.block_pos
  stage_whole := launch1.stage_whole
  K := PEmpty
  osem k := k.elim
  ho := Pipeline.OwnSemFacts.none _
  hbody c := (Reg1.body_obligation1 (entry1 m) c).loose
  hwaits := Pipeline.hwaits_of_owed_zero _ _ _ _ noLevels levelOf 1 fun c t => owed1 (entry1 m) c t
  pre c := stateAt (held3 m) c
  post c := stateAt (held4 m) c
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      (fun w => share1 (entry1 m) c w) (entry1 m c) (fun w => Reg1.A_eq1 (entry1 m) c w)
    rw [Pipeline.unscopedBufs_held] at hsplit
    unfold stateAt beside
    iintro ⟨⟨Hbufs, Hgen, Howes⟩, -, -⟩
    ihave Hs := hsplit $$ Hbufs
    icases Hs with ⟨Harr, Hrest⟩
    imodintro
    isplitl [Harr]; · iexact Harr
    isplitr
    · unfold Pipeline.prefHeld
      rw [show (Finset.univ : Finset (Fin 0)) = ∅ from rfl, BI.bigSep_empty]; iempintro
    isplitl [Howes]
    · unfold Pipeline.Dat.owesAt Pipeline.owesWithin
      rw [show (pdats m 1 c).owed 0 = 0 from owed1 (entry1 m) c 0]
      icases Howes with ⟨%W, Howes⟩
      iexists W
      isplitr
      · ipureintro
        exact fun x _ => Or.inl (recorded1 (entry1 m) c 0 x)
      iexact Howes
    isplitl [Hgen]; · iexact Hgen
    iexact Hrest
  hin c := by
    refine BIBase.Entails.trans ?_ (Reg1.hin1 (entry1 m) c)
    unfold Pipeline.ΦA
    iintro ⟨Hgen, -, Hscoped⟩
    isplitl [Hscoped]; · iexact Hscoped
    iexact Hgen
  hout c := by
    rw [Pipeline.ownSems0_none]
    refine BIBase.Entails.trans (Reg1.hout1 (entry1 m) c) ?_
    unfold Pipeline.ΦA
    iintro ⟨Hscoped, Hgen⟩
    isplitl [Hgen]; · iexact Hgen
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (pdats m) (fun w => share1 (entry1 m) c w)
      (entry1 m c) (exit1 m c) ((pdats m 1 c).arrAt · cfg1.N) (exit1_array m c) (exit1_other m c)
    rw [Pipeline.unscopedBufs_held] at hjoin
    unfold stateAt beside
    iintro ⟨Harr, Howes, Hgen, Hrest⟩
    imodintro
    isplitl [Harr Hrest]
    · iapply hjoin
      isplitl [Harr]; · iexact Harr
      iexact Hrest
    isplitl [Hgen]; · iexact Hgen
    unfold Pipeline.Dat.owesAt Pipeline.owesWithin
    rw [show (pdats m 1 c).owed (Fin.last _) = 0 from owed1 (entry1 m) c _]
    icases Howes with ⟨%W, -, Howes⟩
    iexists W; iexact Howes

/-! ## @main as its four items, and the launch -/

abbrev items : List (Pipeline.Seg (pcfgs (F := F)) adm (pdats m) () defs₀ noVariants noLevels levelOf) :=
  [ .host (hostItem hostOps0 hostOps0_sub hostOps0_fresh (held0 m)),
    .region (inProj m),
    .host (hostItem hostOps1 hostOps1_sub hostOps1_fresh (held2 m)),
    .region (attention m) ]

/-- @main is the run of the four items. -/
theorem main_is_items (c : Dev nD) : main (F := F) c = Pipeline.Seg.run (items m) := (main_chain c).trans (by chain_rfl)

/-- What a final memory says on core `c`: every unscoped buffer holds the last contents. -/
abbrev endsAt (c : Dev nD) (s : MemSt nD τ sig (Elt F)) : Prop :=
  ∀ b ∈ Pipeline.ucRefs τ sig, s.mem (((c : Thread nD τ)).1, b) = held4 m c b

set_option backward.isDefEq.respectTransparency.types false in
/-- THE RUN. From any memory with zero counters, every weakly fair execution of @main on the TensorCores terminates,
    nothing faulting, and in every final state each core's unscoped buffers hold `held4`. -/
theorem run_all (ρ : Dev nD → PrngReg) :
    θ_run defs (onTc (τ := τ) (main (F := F))) ⟨m, fun _ => 0, ρ⟩ (fun r => ∀ c : Dev nD, endsAt m c r.2) :=
  Pipeline.θ_run_regions_kit (pcfgs (F := F)) adm (pdats m) () cellOf_inj emb₁ defs₀ noVariants noLevels levelOf m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state is the pipelines' cells and tokens; no other ghost resource is asked for
      iintro Hu; imodintro
      isplitl [Hu]
      · -- owning the launch's ghost state is owning its embedding, by definition
        iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := stateAt (held0 m))
    (Tₙ := fun c => iprop(StableHlo.held (c : Thread nD τ) (Pipeline.ucRefs τ sig) (held4 m c) ∗ ∃ r, prngReg c r))
    (hch := ⟨fun _ => .rfl, fun _ => .rfl, fun _ => .rfl, fun _ => .rfl, fun c => by
      -- the last state, regrouped: buffers and generator register together, the core owing nothing apart
      show stateAt (held4 m) c ⊢ iprop((StableHlo.held (c : Thread nD τ) (Pipeline.ucRefs τ sig) (held4 m c) ∗ ∃ r, prngReg c r)
        ∗ ∃ W, owes (c : Thread nD τ) (0 : CellTallies nD τ sig Unit) W)
      unfold stateAt beside
      iintro ⟨Hh, Hg, Ho⟩
      isplitl [Hh Hg]
      · isplitl [Hh]; · iexact Hh
        iexact Hg
      iexact Ho⟩)
    (hinit := by
      -- each core by itself: the launch memory is the first contents, the register is at its launch state, nothing is owed
      refine Pipeline.initEach noLevels levelOf fun c => ?_
      rw [show unscopedBufs c (fun b => m ((c : Thread nD τ).loc b)) = StableHlo.held (c : Thread nD τ) (Pipeline.ucRefs τ sig) (held0 m c)
        from Pipeline.unscopedBufs_held c (held0 m c)]
      unfold stateAt beside
      iintro ⟨⟨Hh, -, Ho, -, Hg, -⟩, -⟩
      imodintro
      isplitl [Hh]; · iexact Hh
      isplitl [Hg]; · iexists _; iexact Hg
      iexists ∅; iexact Ho)
    (QY := endsAt m)
    (hfin := fun c s' => by
      -- buffers held at known contents, beside a final state, say that the state's memory holds those contents
      unfold StableHlo.held
      iintro ⟨⟨Hh, -⟩, HSI⟩
      imodintro
      iapply (pointsTo_read_all (Pipeline.ucRefs τ sig) (fun b => (((c : Thread nD τ)).1, b)) (held4 m c) s')
      isplitl [Hh]; · iexact Hh
      iexact HSI)
    (hQ := fun s h c => h c)

/-! ## The two consequences -/

/-- An unscoped TensorCore reference is among those the final state is read at. -/
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: every execution terminates without a fault and the five argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (unscoped_mem main_arg0 (by decide))).trans (held4_arg m c main_arg0 (by decide) (by decide) (by decide) (by decide)),
     (h c _ (unscoped_mem main_arg1 (by decide))).trans (held4_arg m c main_arg1 (by decide) (by decide) (by decide) (by decide)),
     (h c _ (unscoped_mem main_arg2 (by decide))).trans (held4_arg m c main_arg2 (by decide) (by decide) (by decide) (by decide)),
     (h c _ (unscoped_mem main_arg3 (by decide))).trans (held4_arg m c main_arg3 (by decide) (by decide) (by decide) (by decide)),
     (h c _ (unscoped_mem main_arg4 (by decide))).trans (held4_arg m c main_arg4 (by decide) (by decide) (by decide) (by decide))⟩)
    (run_all m ρ)

/-- THE RESULT, at any float instance: the result array ends at what the attention region's write-backs leave in it, and
    the argument arrays end as launched. -/
theorem result (ρ : Dev nD → PrngReg) :
    θ_run defs (onTc (τ := τ) (main (F := F))) ⟨m, fun _ => 0, ρ⟩ (fun r => ∀ c : Dev nD,
      r.2.mem ((c.tc : Thread nD τ).loc main_v20) = (Reg1.dat1 (entry1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (unscoped_mem main_v20 (by decide))).trans (held4_array m c 5),
     (h c _ (unscoped_mem main_arg0 (by decide))).trans (held4_arg m c main_arg0 (by decide) (by decide) (by decide) (by decide)),
     (h c _ (unscoped_mem main_arg1 (by decide))).trans (held4_arg m c main_arg1 (by decide) (by decide) (by decide) (by decide)),
     (h c _ (unscoped_mem main_arg2 (by decide))).trans (held4_arg m c main_arg2 (by decide) (by decide) (by decide) (by decide)),
     (h c _ (unscoped_mem main_arg3 (by decide))).trans (held4_arg m c main_arg3 (by decide) (by decide) (by decide) (by decide)),
     (h c _ (unscoped_mem main_arg4 (by decide))).trans (held4_arg m c main_arg4 (by decide) (by decide) (by decide) (by decide))⟩)
    (run_all m ρ)

end Cert.KernelIdeal.Whole

end
-- ==== Proof.M.Spec.lean ====
/-
  Multi-head self-attention with input and output projections, as ONE function of its five argument arrays,
  index by index, on the extended reals.

  With X : [4, 2048, 1024] (batch, position, feature), Win : [3072, 1024], bin : [3072], Wout : [1024, 1024],
  bout : [1024]:
    lin b s n      = (sum over e of X(b,s,e) * Win(n,e)) + bin(n)                       the input projection, n < 3072
    qh, kh, vh     = lin at the columns h*64+d, 1024 + (h*64+d), 2048 + (h*64+d)        the three thirds, cut into 16 heads of width 64
    score b h s t  = (sum over d of qh(b,h,s,d) * kh(b,h,t,d)) / sqrt 64
    peak b h s     = the maximum over t of score(b,h,s,t), started from minus infinity
    w b h s t      = exp (score - peak);  mass b h s = 0 + sum over t of w;  attn = w / mass     the softmax along t
    ctx b h s d    = sum over t of attn(b,h,s,t) * vh(b,h,t,d)
    out b s f      = (sum over e of ctx(b, e / 64, s, e % 64) * Wout(f,e)) + bout(f)     heads laid side by side, then the output projection
  Float words are kept as words (64, minus infinity, 0): the same word on both sides of an equation is never evaluated.
-/
import Idealize.ShloMosaic.PureOps.Ideal
import Idealize.ShloMosaic.Lib.ValueIdx

noncomputable section

namespace Cert.Attn

open Idealize.ShloMosaic Idealize.ShloMosaic.ValueIdx
open scoped BigOperators

/-- Column of the input projection holding coordinate `d` of head `h` of the queries. -/
def colQ (h : Fin 16) (d : Fin 64) : Fin 3072 := ⟨h.val * 64 + d.val, by have := h.isLt; have := d.isLt; omega⟩
/-- The same of the keys: the second third of the columns. -/
def colK (h : Fin 16) (d : Fin 64) : Fin 3072 := ⟨1024 + (h.val * 64 + d.val), by have := h.isLt; have := d.isLt; omega⟩
/-- The same of the values: the last third. -/
def colV (h : Fin 16) (d : Fin 64) : Fin 3072 := ⟨2048 + (h.val * 64 + d.val), by have := h.isLt; have := d.isLt; omega⟩
/-- The head a feature `e` of the concatenated context belongs to. -/
def headOf (e : Fin 1024) : Fin 16 := ⟨e.val / 64, by have := e.isLt; omega⟩
/-- Its coordinate inside that head. -/
def laneOf (e : Fin 1024) : Fin 64 := ⟨e.val % 64, Nat.mod_lt _ (by decide)⟩

section
variable (X : (⟨3, ![4, 2048, 1024]⟩ : Shape).Idx → EReal) (Win : (⟨2, ![3072, 1024]⟩ : Shape).Idx → EReal)
  (bin : (⟨1, ![3072]⟩ : Shape).Idx → EReal)

/-- The input projection: row (b, s) of X against row n of Win, plus the bias. -/
def lin (b : Fin 4) (s : Fin 2048) (n : Fin 3072) : EReal :=
  (∑ e : Fin 1024, X (ix3 b s e) * Win (ix2 n e)) + bin (ix1 n)

def qh (b : Fin 4) (h : Fin 16) (s : Fin 2048) (d : Fin 64) : EReal := lin X Win bin b s (colQ h d)
def kh (b : Fin 4) (h : Fin 16) (s : Fin 2048) (d : Fin 64) : EReal := lin X Win bin b s (colK h d)
def vh (b : Fin 4) (h : Fin 16) (s : Fin 2048) (d : Fin 64) : EReal := lin X Win bin b s (colV h d)

/-- Query s against key t in head h, divided by the square root of the head width 64. -/
def score (b : Fin 4) (h : Fin 16) (s t : Fin 2048) : EReal :=
  Ideal.div (∑ d : Fin 64, qh X Win bin b h s d * kh X Win bin b h t d) (Ideal.sqrt (Ideal.ofBits .f32 0x42800000#32))

/-- The largest score of query s, the maximum started from minus infinity. -/
def peak (b : Fin 4) (h : Fin 16) (s : Fin 2048) : EReal :=
  (Finset.univ : Finset (Fin 2048)).fold max (Ideal.ofBits .f32 0xFF800000#32) (fun t => score X Win bin b h s t)

def w (b : Fin 4) (h : Fin 16) (s t : Fin 2048) : EReal := Ideal.exp (score X Win bin b h s t - peak X Win bin b h s)

def mass (b : Fin 4) (h : Fin 16) (s : Fin 2048) : EReal :=
  Ideal.ofBits .f32 0x00000000#32 + ∑ t : Fin 2048, w X Win bin b h s t

def attn (b : Fin 4) (h : Fin 16) (s t : Fin 2048) : EReal := Ideal.div (w X Win bin b h s t) (mass X Win bin b h s)

/-- The attention-weighted mix of the values of head h. -/
def ctx (b : Fin 4) (h : Fin 16) (s : Fin 2048) (d : Fin 64) : EReal :=
  ∑ t : Fin 2048, attn X Win bin b h s t * vh X Win bin b h t d

variable (Wout : (⟨2, ![1024, 1024]⟩ : Shape).Idx → EReal) (bout : (⟨1, ![1024]⟩ : Shape).Idx → EReal)

/-- The output projection of the heads laid side by side: feature e of the context is coordinate e % 64 of head e / 64. -/
def out (b : Fin 4) (s : Fin 2048) (f : Fin 1024) : EReal :=
  (∑ e : Fin 1024, ctx X Win bin b (headOf e) s (laneOf e) * Wout (ix2 f e)) + bout (ix1 f)

/-- The whole result array, [4, 2048, 1024]. -/
def G : (⟨3, ![4, 2048, 1024]⟩ : Shape).Idx → EReal := fun j => out X Win bin Wout bout (j 0) (j 1) (j 2)

theorem G_ix3 (b : Fin 4) (s : Fin 2048) (f : Fin 1024) :
    G X Win bin Wout bout (ix3 b s f) = out X Win bin Wout bout b s f := rfl

end

end Cert.Attn

end
-- ==== Proof.M.RefIsSpec.lean ====
/-
  The printed reference, read one operation at a time at an index, is the function `Cert.Attn.G` of its five
  argument arrays: the input projection (a contraction plus a broadcast bias), the three column slices cut into heads
  (a reshape [4,2048,1024] -> [4,2048,16,64] keeps the row-major position, so column n of a third is coordinate
  n % 64 of head n / 64; the transpose swaps the position and head axes), the scores divided by the square root of 64,
  the softmax along the key axis (maximum from minus infinity, the second maximum with minus infinity being the
  identity; exponential of the difference; sum from zero; quotient), the mix of the values, the heads laid side by
  side again, and the output projection plus its bias.
-/
import proofs.«120176_j20856361190136_2_alg».proof.Proof.Gen.ReferenceIdeal.Run
import proofs.«120176_j20856361190136_2_alg».proof.Proof.Gen.ReferenceIdeal.Read
import proofs.«120176_j20856361190136_2_alg».proof.Proof.M.Spec

noncomputable section

namespace Cert.RefSpec

open Cert.ReferenceIdeal Cert.ReferenceIdeal.Gen Cert.ReferenceIdeal.Read Idealize.ShloMosaic Idealize.ShloMosaic.TcCoe
  Idealize.SL.Sem Idealize.ShloMosaic.ValueIdx Cert.Attn
open scoped BigOperators

/-! ## The composed index maps of the layout operations, at explicit coordinates -/

theorem lidx0 (b : Fin 4) (s : Fin 2048) (n : Fin 3072) (k : Fin 1024) : lidx_main_v0 (ix3 b s n) k = ix3 b s k := by
  funext a; match a with | ⟨0, _⟩ => rfl | ⟨1, _⟩ => rfl | ⟨2, _⟩ => rfl
theorem ridx0 (b : Fin 4) (s : Fin 2048) (n : Fin 3072) (k : Fin 1024) : ridx_main_v0 (ix3 b s n) k = ix2 n k := by
  funext a; match a with | ⟨0, _⟩ => rfl | ⟨1, _⟩ => rfl
theorem idxBias (b : Fin 4) (s : Fin 2048) (n : Fin 3072) : idx_main_v1 (idx_main_v2 (ix3 b s n)) = ix1 n := by
  funext a; match a with | ⟨0, _⟩ => rfl

/-- Head h, coordinate d of the queries at (b, s) is column h*64+d of the first third of the projection. -/
theorem idxQ (b : Fin 4) (h : Fin 16) (s : Fin 2048) (d : Fin 64) :
    idx_main_v4 (idx_main_v7 (idx_main_v8 (ix4 b h s d))) = ix3 b s (colQ h d) := by
  have hb := b.isLt; have hh := h.isLt; have hs := s.isLt; have hd := d.isLt
  funext a; apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega
theorem idxK (b : Fin 4) (h : Fin 16) (s : Fin 2048) (d : Fin 64) :
    idx_main_v5 (idx_main_v9 (idx_main_v10 (ix4 b h s d))) = ix3 b s (colK h d) := by
  have hb := b.isLt; have hh := h.isLt; have hs := s.isLt; have hd := d.isLt
  funext a; apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show 1024 + (((b.val * 2048 + s.val) * 16 + h.val) * 64 + d.val) % 1024 = 1024 + (h.val * 64 + d.val); omega
theorem idxV (b : Fin 4) (h : Fin 16) (s : Fin 2048) (d : Fin 64) :
    idx_main_v6 (idx_main_v11 (idx_main_v12 (ix4 b h s d))) = ix3 b s (colV h d) := by
  have hb := b.isLt; have hh := h.isLt; have hs := s.isLt; have hd := d.isLt
  funext a; apply Fin.ext
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show 2048 + (((b.val * 2048 + s.val) * 16 + h.val) * 64 + d.val) % 1024 = 2048 + (h.val * 64 + d.val); omega

theorem lidx13 (b : Fin 4) (h : Fin 16) (s t : Fin 2048) (k : Fin 64) : lidx_main_v13 (ix4 b h s t) k = ix4 b h s k := by
  funext a; match a with | ⟨0, _⟩ => rfl | ⟨1, _⟩ => rfl | ⟨2, _⟩ => rfl | ⟨3, _⟩ => rfl
theorem ridx13 (b : Fin 4) (h : Fin 16) (s t : Fin 2048) (k : Fin 64) : ridx_main_v13 (ix4 b h s t) k = ix4 b h t k := by
  funext a; match a with | ⟨0, _⟩ => rfl | ⟨1, _⟩ => rfl | ⟨2, _⟩ => rfl | ⟨3, _⟩ => rfl
theorem idxRow20 (b : Fin 4) (h : Fin 16) (s t : Fin 2048) : idx_main_v20 (idx_main_v21 (ix4 b h s t)) = ix3 b h s := by
  funext a; match a with | ⟨0, _⟩ => rfl | ⟨1, _⟩ => rfl | ⟨2, _⟩ => rfl
theorem idxRow25 (b : Fin 4) (h : Fin 16) (s t : Fin 2048) : idx_main_v25 (idx_main_v26 (ix4 b h s t)) = ix3 b h s := by
  funext a; match a with | ⟨0, _⟩ => rfl | ⟨1, _⟩ => rfl | ⟨2, _⟩ => rfl
theorem idx24 (b : Fin 4) (h : Fin 16) (s : Fin 2048) (k : Fin 2048) : idx_main_v24 (ix3 b h s) k = ix4 b h s k := by
  funext a; match a with | ⟨0, _⟩ => rfl | ⟨1, _⟩ => rfl | ⟨2, _⟩ => rfl | ⟨3, _⟩ => rfl
theorem lidx28 (b : Fin 4) (h : Fin 16) (s : Fin 2048) (d : Fin 64) (k : Fin 2048) : lidx_main_v28 (ix4 b h s d) k = ix4 b h s k := by
  funext a; match a with | ⟨0, _⟩ => rfl | ⟨1, _⟩ => rfl | ⟨2, _⟩ => rfl | ⟨3, _⟩ => rfl
theorem ridx28 (b : Fin 4) (h : Fin 16) (s : Fin 2048) (d : Fin 64) (k : Fin 2048) : ridx_main_v28 (ix4 b h s d) k = ix4 b h k d := by
  funext a; match a with | ⟨0, _⟩ => rfl | ⟨1, _⟩ => rfl | ⟨2, _⟩ => rfl | ⟨3, _⟩ => rfl

/-- Feature e of the concatenated context at (b, s) is coordinate e % 64 of head e / 64. -/
theorem idxCtx (b : Fin 4) (s : Fin 2048) (e : Fin 1024) :
    idx_main_v29 (idx_main_v30 (ix3 b s e)) = ix4 b (headOf e) s (laneOf e) := by
  have hb := b.isLt; have hs := s.isLt; have he := e.isLt
  funext a; apply Fin.ext
  match a with
  | ⟨0, _⟩ => show ((b.val * 2048 + s.val) * 1024 + e.val) / 2097152 = b.val; omega
  | ⟨1, _⟩ => show ((b.val * 2048 + s.val) * 1024 + e.val) / 64 % 16 = e.val / 64; omega
  | ⟨2, _⟩ => show ((b.val * 2048 + s.val) * 1024 + e.val) / 1024 % 2048 = s.val; omega
  | ⟨3, _⟩ => show ((b.val * 2048 + s.val) * 1024 + e.val) % 64 = e.val % 64; omega

theorem lidx31 (b : Fin 4) (s : Fin 2048) (f k : Fin 1024) : lidx_main_v31 (ix3 b s f) k = ix3 b s k := by
  funext a; match a with | ⟨0, _⟩ => rfl | ⟨1, _⟩ => rfl | ⟨2, _⟩ => rfl
theorem ridx31 (b : Fin 4) (s : Fin 2048) (f k : Fin 1024) : ridx_main_v31 (ix3 b s f) k = ix2 f k := by
  funext a; match a with | ⟨0, _⟩ => rfl | ⟨1, _⟩ => rfl
theorem idxBiasOut (b : Fin 4) (s : Fin 2048) (f : Fin 1024) : idx_main_v32 (idx_main_v33 (ix3 b s f)) = ix1 f := by
  funext a; match a with | ⟨0, _⟩ => rfl

/-! ## The stages of the reference at explicit coordinates -/

section
variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- The projection plus its bias. -/
theorem proj_at (b : Fin 4) (s : Fin 2048) (n : Fin 3072) :
    val_main_v3 (F := Ideal) x0 x1 x2 (ix3 b s n) = lin x0 x1 x2 b s n := by
  rw [val_main_v3_apply, val_main_v0_apply, val_main_v2_apply, val_main_v1_apply, idxBias]
  simp only [lidx0, ridx0]
  rfl

theorem q_at (b : Fin 4) (h : Fin 16) (s : Fin 2048) (d : Fin 64) :
    val_main_v8 (F := Ideal) x0 x1 x2 (ix4 b h s d) = qh x0 x1 x2 b h s d := by
  rw [val_main_v8_apply, val_main_v7_apply, val_main_v4_apply, idxQ, proj_at]; rfl
theorem k_at (b : Fin 4) (h : Fin 16) (s : Fin 2048) (d : Fin 64) :
    val_main_v10 (F := Ideal) x0 x1 x2 (ix4 b h s d) = kh x0 x1 x2 b h s d := by
  rw [val_main_v10_apply, val_main_v9_apply, val_main_v5_apply, idxK, proj_at]; rfl
theorem v_at (b : Fin 4) (h : Fin 16) (s : Fin 2048) (d : Fin 64) :
    val_main_v12 (F := Ideal) x0 x1 x2 (ix4 b h s d) = vh x0 x1 x2 b h s d := by
  rw [val_main_v12_apply, val_main_v11_apply, val_main_v6_apply, idxV, proj_at]; rfl

theorem score_at (b : Fin 4) (h : Fin 16) (s t : Fin 2048) :
    val_main_v16 (F := Ideal) x0 x1 x2 (ix4 b h s t) = score x0 x1 x2 b h s t := by
  rw [val_main_v16_apply, val_main_v13_apply, val_main_v15_apply, val_main_v14_apply, val_main_cst_apply]
  simp only [lidx13, ridx13, q_at, k_at]
  rfl

/-- The key axis is the last of [4, 16, 2048, 2048]. -/
theorem keyAxis : S4x16x2048x2048.Reduces [3] S4x16x2048 := by decide

theorem lift_key (b : Fin 4) (h : Fin 16) (s : Fin 2048) (k : Fin (S4x16x2048x2048.size 3)) :
    keyAxis.lift (ix3 b h s) k = ix4 b h s (⟨k.val, k.isLt⟩ : Fin 2048) := by
  funext a; apply Fin.ext
  match a with | ⟨0, _⟩ => rfl | ⟨1, _⟩ => rfl | ⟨2, _⟩ => rfl | ⟨3, _⟩ => rfl

/-- The maximum-reduce over the key axis, from minus infinity. -/
theorem peak0_at (b : Fin 4) (h : Fin 16) (s : Fin 2048) :
    val_main_v17 (F := Ideal) x0 x1 x2 (ix3 b h s) = peak x0 x1 x2 b h s := by
  unfold val_main_v17
  rw [Host.reduce_eq_fold_single FloatOps.maximumf _ _ reducesTo_S4x16x2048x2048_S4x16x2048_d3 keyAxis h_S_]
  have hf : (val_main_v16 (F := Ideal) x0 x1 x2 ∘ keyAxis.lift (ix3 b h s)) = fun t : Fin 2048 => score x0 x1 x2 b h s t :=
    funext fun k => (congrArg (val_main_v16 (F := Ideal) x0 x1 x2) (lift_key b h s k)).trans (score_at x0 x1 x2 b h s _)
  exact congrArg (fun f => Finset.fold max (Ideal.ofBits .f32 0xFF800000#32) f (Finset.univ : Finset (Fin 2048))) hf

/-- The maximum with minus infinity is the identity on the extended reals. -/
theorem max_negInf (x : EReal) : max (Ideal.ofBits .f32 0xFF800000#32) x = x := by
  simp [Ideal.ofBits, Ideal.ieee]

theorem peak_at (b : Fin 4) (h : Fin 16) (s : Fin 2048) :
    val_main_v19 (F := Ideal) x0 x1 x2 (ix3 b h s) = peak x0 x1 x2 b h s := by
  rw [val_main_v19_apply, val_main_v18_apply, val_main_cst_1_apply, peak0_at]
  exact max_negInf _

theorem w_at (b : Fin 4) (h : Fin 16) (s t : Fin 2048) :
    val_main_v23 (F := Ideal) x0 x1 x2 (ix4 b h s t) = w x0 x1 x2 b h s t := by
  rw [val_main_v23_apply, val_main_v22_apply, score_at, val_main_v21_apply, val_main_v20_apply, idxRow20, peak_at]; rfl

theorem mass_at (b : Fin 4) (h : Fin 16) (s : Fin 2048) :
    val_main_v24 (F := Ideal) x0 x1 x2 (ix3 b h s) = mass x0 x1 x2 b h s := by
  rw [val_main_v24_apply, val_main_cst_2_apply]
  simp only [idx24, w_at]
  rfl

theorem attn_at (b : Fin 4) (h : Fin 16) (s t : Fin 2048) :
    val_main_v27 (F := Ideal) x0 x1 x2 (ix4 b h s t) = attn x0 x1 x2 b h s t := by
  rw [val_main_v27_apply, w_at, val_main_v26_apply, val_main_v25_apply, idxRow25, mass_at]; rfl

theorem ctx_at (b : Fin 4) (h : Fin 16) (s : Fin 2048) (d : Fin 64) :
    val_main_v28 (F := Ideal) x0 x1 x2 (ix4 b h s d) = ctx x0 x1 x2 b h s d := by
  rw [val_main_v28_apply]
  simp only [lidx28, ridx28, attn_at, v_at]
  rfl

theorem cat_at (b : Fin 4) (s : Fin 2048) (e : Fin 1024) :
    val_main_v30 (F := Ideal) x0 x1 x2 (ix3 b s e) = ctx x0 x1 x2 b (headOf e) s (laneOf e) := by
  rw [val_main_v30_apply, val_main_v29_apply, idxCtx, ctx_at]

theorem out_at (b : Fin 4) (s : Fin 2048) (f : Fin 1024) :
    val_main_v34 (F := Ideal) x0 x1 x2 x3 x4 (ix3 b s f) = out x0 x1 x2 x3 x4 b s f := by
  rw [val_main_v34_apply, val_main_v31_apply, val_main_v33_apply, val_main_v32_apply, idxBiasOut]
  simp only [lidx31, ridx31, cat_at]
  rfl

/-- The reference's result, as a function of its five arguments, is `G`. -/
theorem ref_is_G : val_main_v34 (F := Ideal) x0 x1 x2 x3 x4 = G x0 x1 x2 x3 x4 := by
  funext i
  obtain ⟨b, s, f, rfl⟩ : ∃ (b : Fin 4) (s : Fin 2048) (f : Fin 1024), i = ix3 b s f := ⟨i 0, i 1, i 2, eq_ix3 i⟩
  exact out_at x0 x1 x2 x3 x4 b s f

end

/-! ## The reference's run, stated over `G` -/

/-- Every weakly fair execution of the reference ends with its result array at `G` of the argument arrays as launched,
    and the arguments unchanged. -/
theorem ref_run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v34)
          = G (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run Cert.ReferenceIdeal.defs _ _).mono
    (fun _ h c => ⟨(h c).1.trans ((val_main_v34_eq m c).trans (ref_is_G _ _ _ _ _)), (h c).2⟩)
    (Cert.ReferenceIdeal.Value.run (F := Ideal) m ρ)

end Cert.RefSpec

end
-- ==== Proof.I.Region1Wit.lean ====
import proofs.«120176_j20856361190136_2_alg».proof.Proof.I.Region1RunF
import proofs.«120176_j20856361190136_2_alg».proof.Proof.I.Region1RunM
import proofs.«120176_j20856361190136_2_alg».proof.Proof.I.Region1RunL

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The runs' witnesses, spelled out -/

/-- The loop makes eight trips. -/
theorem trips_k1_t1 : k1_t1_loop.trips = 8 := by decide +kernel

/-- The reset's one piece: the whole scratch at zeros. -/
abbrev zeroPiece : List (View.Piece (Elt F) S2048x1024 .f32) :=
  [⟨Rect.unit (s := S2048x1024) ![0, 0] S2048x1024.size inb_S2048x1024_S2048x1024_0_0, k1_pay1 (F := F)⟩]

/-- FIRST: the scratch's pieces are the eight trips' pieces, from the scratch as the reset left it, in front of
    the reset's piece. -/
theorem runFirst_fst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) :
    (runFirst c i arg2 harg2 arg3 harg3 arg4 harg4 arg5 harg5 arg6 harg6 arg7 harg7 arg8 harg8 hc0 hc1 x0 x1 x2 x3 x4).1
      = pb_k1_t1 (F := F) Variants.none c none i arg2 harg2 arg3 harg3 arg4 harg4 arg5 harg5 arg6 harg6 arg7 harg7 arg8 harg8 (harg2.unread x0) (harg3.unread x1) (harg4.unread x2) (harg5.unread x3) (arg8.view.writes (Elt F) arg8.view.junk (zeroPiece (F := F))) 8 ++ zeroPiece (F := F) := rfl

/-- MIDDLE: the scratch's pieces are the eight trips' pieces, from the scratch as the point found it. -/
theorem runMiddle_fst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : ¬cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    (runMiddle c i arg2 harg2 arg3 harg3 arg4 harg4 arg5 harg5 arg6 harg6 arg7 harg7 arg8 harg8 hc0 hc1 x0 x1 x2 x3 x4 xs).1 = pb_k1_t1 (F := F) Variants.none c none i arg2 harg2 arg3 harg3 arg4 harg4 arg5 harg5 arg6 harg6 arg7 harg7 arg8 harg8 (harg2.unread x0) (harg3.unread x1) (harg4.unread x2) (harg5.unread x3) (harg8.unread xs) 8 := rfl

/-- LAST: the scratch's pieces are the eight trips' pieces, from the scratch as the point found it. -/
theorem runLast_snd (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    (runLast c i arg2 harg2 arg3 harg3 arg4 harg4 arg5 harg5 arg6 harg6 arg7 harg7 arg8 harg8 hc0 hc1 x0 x1 x2 x3 x4 xs).2.1 = pb_k1_t1 (F := F) Variants.none c none i arg2 harg2 arg3 harg3 arg4 harg4 arg5 harg5 arg6 harg6 arg7 harg7 arg8 harg8 (harg2.unread x0) (harg3.unread x1) (harg4.unread x2) (harg5.unread x3) (harg8.unread xs) 8 := rfl

/-- LAST: the output buffer's one piece is the whole block at the scratch, as the eight trips left it and read
    whole, plus the bias row. -/
theorem runLast_fst (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬cond1_0 i) (hc1 : cond1_1 i) (x0 : Vec F S1x1x2048x64 .bf16) (x1 : Vec F S1x1x2048x64 .bf16) (x2 : Vec F S1x1x2048x64 .bf16) (x3 : Vec F S1x64x1024 .bf16) (x4 : Vec F S1x1024 .f32) (xs : Vec F S2048x1024 .f32) :
    (runLast c i arg2 harg2 arg3 harg3 arg4 harg4 arg5 harg5 arg6 harg6 arg7 harg7 arg8 harg8 hc0 hc1 x0 x1 x2 x3 x4 xs).1
      = [⟨Rect.unit (s := S1x2048x1024) ![0, 0, 0] S1x2048x1024.size inb_S1x2048x1024_S1x2048x1024_0_0_0,
          k1_pay3
            (View.readAt (Elt F) arg8.view (Rect.unit (s := S2048x1024) ![0, 0] S2048x1024.size inb_S2048x1024_S2048x1024_0_0).toLoadRect
              (arg8.view.writes (Elt F) (harg8.unread xs) (pb_k1_t1 (F := F) Variants.none c none i arg2 harg2 arg3 harg3 arg4 harg4 arg5 harg5 arg6 harg6 arg7 harg7 arg8 harg8 (harg2.unread x0) (harg3.unread x1) (harg4.unread x2) (harg5.unread x3) (harg8.unread xs) 8)))
            (View.readAt (Elt F) arg6.view (Rect.unit (s := S1x1024) ![0, 0] S1x1024.size inb_S1x1024_S1x1024_0_0).toLoadRect (harg6.unread x4))⟩] := rfl

end Cert.KernelIdeal.Reg1

end
-- ==== Proof.V.LoopSlabs.lean ====
/-
  The accumulator after the eight trips of the query loop, slab by slab, at any float instance.

  Trip k reads rows 256·k … 256·k+255 of the queries, the whole keys, values and out-projection slice, and the same 256 rows of
  the accumulator; it stores back into those rows the rows it read plus the head's contribution (the payload of the loads).
  Different trips work on disjoint row slabs. Hence, whatever the accumulator held when the loop was entered (G): after the
  trips before n, slab k < n holds trip k's payload computed from G's own slab k, and every row outside those slabs holds
  what G held.
-/
import proofs.«120176_j20856361190136_2_alg».proof.Proof.Gen.KernelIdeal.Loops
import Idealize.ShloMosaic.Lib.Writes

set_option maxRecDepth 16384

noncomputable section

namespace Cert.KernelIdeal.Slabs

open Cert.KernelIdeal Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

section
variable (𝒱 : Variants) (c : Dev nD) (bd : Option 𝒱.V) (i : grid1.Coords)
  (arg2 : Memref sig .tc .vmem S1x1x2048x64 .bf16) (harg2 : arg2.IsWhole) (arg3 : Memref sig .tc .vmem S1x1x2048x64 .bf16) (harg3 : arg3.IsWhole)
  (arg4 : Memref sig .tc .vmem S1x1x2048x64 .bf16) (harg4 : arg4.IsWhole) (arg5 : Memref sig .tc .vmem S1x64x1024 .bf16) (harg5 : arg5.IsWhole)
  (arg6 : Memref sig .tc .vmem S1x1024 .f32) (harg6 : arg6.IsWhole) (arg7 : Memref sig .tc .vmem S1x2048x1024 .f32) (harg7 : arg7.IsWhole)
  (arg8 : Memref sig .tc .vmem S2048x1024 .f32) (harg8 : arg8.IsWhole)
  (X2 : BufTy.Contents (Elt F) arg2.view.ty) (X3 : BufTy.Contents (Elt F) arg3.view.ty) (X4 : BufTy.Contents (Elt F) arg4.view.ty)
  (X5 : BufTy.Contents (Elt F) arg5.view.ty)

/-- The rows trip k works on: 256 rows of the accumulator from row 256·k, all 1024 columns. -/
abbrev slab (k : Fin k1_t1_loop.trips) : Rect S2048x1024 := Rect.unit (s := S2048x1024) (k1_off2 k) S256x1024.size (k1_off2_inb k)

/-- What trip k stores into its rows, given those rows' contents `g` as the trip finds them: the payload of the trip's
    loads (its 256 query rows, the whole keys, values and out-projection slice) and `g`. -/
def slabOut (k : Fin k1_t1_loop.trips) (g : Vec F S256x1024 .f32) : FVec F S256x1024 .f32 :=
  k1_pay2 (k1_pay4
    (View.readAt (Elt F) arg2.view (Rect.unit (s := S1x1x2048x64) (k1_off1 k) S1x1x256x64.size (k1_off1_inb k)).toLoadRect X2)
    (View.readAt (Elt F) arg3.view (Rect.unit (s := S1x1x2048x64) ![0, 0, 0, 0] S1x1x2048x64.size inb_S1x1x2048x64_S1x1x2048x64_0_0_0_0).toLoadRect X3)
    (View.readAt (Elt F) arg4.view (Rect.unit (s := S1x1x2048x64) ![0, 0, 0, 0] S1x1x2048x64.size inb_S1x1x2048x64_S1x1x2048x64_0_0_0_0).toLoadRect X4)
    (View.readAt (Elt F) arg5.view (Rect.unit (s := S1x64x1024) ![0, 0, 0] S1x64x1024.size inb_S1x64x1024_S1x64x1024_0_0_0).toLoadRect X5)
    g)

local notation "before" => pb_k1_t1 (F := F) 𝒱 c bd i arg2 harg2 arg3 harg3 arg4 harg4 arg5 harg5 arg6 harg6 arg7 harg7 arg8 harg8 X2 X3 X4 X5
local notation "tripOut" => slabOut (F := F) arg2 arg3 arg4 arg5 X2 X3 X4 X5

/-- One trip writes one piece: its slab, with its payload over the slab as it finds it. -/
theorem trip_piece (k : Fin k1_t1_loop.trips) (f : BufTy.Contents (Elt F) arg8.view.ty) :
    tripL_k1_t1 (F := F) 𝒱 c bd i arg2 harg2 arg3 harg3 arg4 harg4 arg5 harg5 arg6 harg6 arg7 harg7 arg8 harg8 X2 X3 X4 X5 k f
      = [⟨slab k, tripOut k (View.readAt (Elt F) arg8.view (slab k).toLoadRect f)⟩] := by
  unfold tripL_k1_t1 trip_k1_t1
  dsimp only
  unfold trip_k1_t1.sl.r
  rfl

/-- The pieces of the trips before n + 1 are trip n's one piece, then the pieces of the trips before n. -/
theorem before_succ (G : BufTy.Contents (Elt F) arg8.view.ty) (k : Fin k1_t1_loop.trips) :
    before G (k.val + 1)
      = ⟨slab k, tripOut k (View.readAt (Elt F) arg8.view (slab k).toLoadRect (arg8.view.writes (Elt F) G (before G k.val)))⟩ :: before G k.val := by
  rw [pb_k1_t1_succ, trip_piece]; rfl

/-- The loop has eight trips. -/
theorem trips_eq : k1_t1_loop.trips = 8 := by decide

/-- Rows of different trips never meet: row 256·k + r with r < 256 is not among rows 256·j … 256·j + 255 when j ≠ k. -/
theorem slab_emb_not_mem {j k : Fin k1_t1_loop.trips} (h : j.val ≠ k.val) (x : (slab k).shape.Idx) : (slab k).emb x ∉ (slab j).set := by
  intro hm
  have hj := (Rect.mem_set_unit.mp hm) (0 : Fin 2)
  have hx : ((x (0 : Fin 2)) : ℕ) < 256 := (x 0).isLt
  have e : (((slab k).emb x) (0 : Fin 2) : ℕ) = k1_off2 k (0 : Fin 2) + 1 * (x (0 : Fin 2) : ℕ) := rfl
  have ej : k1_off2 j (0 : Fin 2) = 256 * j.val := by rw [k1_off2_eq]; rfl
  have ek : k1_off2 k (0 : Fin 2) = 256 * k.val := by rw [k1_off2_eq]; rfl
  have hs : S256x1024.size (0 : Fin 2) = 256 := rfl
  omega

/-- Every piece of the trips before n is the slab of a trip before n. -/
theorem pieces_before (G : BufTy.Contents (Elt F) arg8.view.ty) (n : ℕ) (hn : n ≤ k1_t1_loop.trips) :
    ∀ p ∈ before G n, ∃ k : Fin k1_t1_loop.trips, k.val < n ∧ p.1 = slab k := by
  induction n with
  | zero => intro p hp; exact absurd hp List.not_mem_nil
  | succ n ih =>
    intro p hp
    rw [before_succ 𝒱 c bd i arg2 harg2 arg3 harg3 arg4 harg4 arg5 harg5 arg6 harg6 arg7 harg7 arg8 harg8 X2 X3 X4 X5 G ⟨n, hn⟩] at hp
    rcases List.mem_cons.mp hp with rfl | hp
    · exact ⟨⟨n, hn⟩, Nat.lt_succ_self n, rfl⟩
    · obtain ⟨k, hk, e⟩ := ih (Nat.le_of_succ_le hn) p hp
      exact ⟨k, Nat.lt_succ_of_lt hk, e⟩

/-- A row outside the slabs of the trips before n holds what it held when the loop was entered. -/
theorem read_outside (G : BufTy.Contents (Elt F) arg8.view.ty) (n : ℕ) (hn : n ≤ k1_t1_loop.trips) (y : S2048x1024.Idx)
    (hy : ∀ k : Fin k1_t1_loop.trips, k.val < n → y ∉ (slab k).set) :
    arg8.view.read (Elt F) (arg8.view.writes (Elt F) G (before G n)) y = arg8.view.read (Elt F) G y :=
  View.read_writes_apply_of_forall_not_mem arg8.view G y (before G n) fun p hp => by
    obtain ⟨k, hk, e⟩ := pieces_before 𝒱 c bd i arg2 harg2 arg3 harg3 arg4 harg4 arg5 harg5 arg6 harg6 arg7 harg7 arg8 harg8 X2 X3 X4 X5 G n hn p hp
    rw [e]; exact hy k hk

/-- After the trips before n, slab k < n holds trip k's payload computed from the entry contents' own slab k. -/
theorem read_slab (G : BufTy.Contents (Elt F) arg8.view.ty) (n : ℕ) (hn : n ≤ k1_t1_loop.trips) :
    ∀ k : Fin k1_t1_loop.trips, k.val < n → ∀ x : (slab k).shape.Idx,
      arg8.view.read (Elt F) (arg8.view.writes (Elt F) G (before G n)) ((slab k).emb x)
        = tripOut k (fun x' => arg8.view.read (Elt F) G ((slab k).emb x')) x := by
  induction n with
  | zero => intro k hk; exact absurd hk (Nat.not_lt_zero _)
  | succ n ih =>
    intro k hk x
    rw [before_succ 𝒱 c bd i arg2 harg2 arg3 harg3 arg4 harg4 arg5 harg5 arg6 harg6 arg7 harg7 arg8 harg8 X2 X3 X4 X5 G ⟨n, hn⟩]
    by_cases hkn : k.val = n
    · obtain rfl : k = ⟨n, hn⟩ := Fin.ext hkn
      rw [View.read_writes_cons_emb]
      -- the slab as trip n finds it is the entry contents' slab: the earlier trips wrote other rows
      refine congrFun (congrArg (tripOut (⟨n, hn⟩ : Fin k1_t1_loop.trips)) (funext fun x' => ?_)) x
      show arg8.view.read (Elt F) (arg8.view.writes (Elt F) G (before G n)) ((slab ⟨n, hn⟩).emb x') = _
      exact read_outside 𝒱 c bd i arg2 harg2 arg3 harg3 arg4 harg4 arg5 harg5 arg6 harg6 arg7 harg7 arg8 harg8 X2 X3 X4 X5 G n (Nat.le_of_succ_le hn) _ (fun j hj => slab_emb_not_mem (Nat.ne_of_lt hj) x')
    · have hlt : k.val < n := by omega
      rw [View.writes_cons, View.read_slice_write_of_not_mem _ _ _ _ (by
        rw [Rect.map_emb_univ]; exact slab_emb_not_mem (j := ⟨n, hn⟩) (fun e => hkn e.symm) x)]
      exact ih (Nat.le_of_succ_le hn) k hlt x

/-- After the whole loop, the entry of the accumulator at row 256·k + r is trip k's payload, computed from the entry contents'
    slab k, at row r. -/
theorem read_after_loop (G : BufTy.Contents (Elt F) arg8.view.ty) (y : S2048x1024.Idx) (k : Fin k1_t1_loop.trips) (x : (slab k).shape.Idx)
    (hy : (slab k).emb x = y) :
    arg8.view.read (Elt F) (arg8.view.writes (Elt F) G (before G k1_t1_loop.trips)) y
      = tripOut k (fun x' => arg8.view.read (Elt F) G ((slab k).emb x')) x :=
  hy ▸ read_slab 𝒱 c bd i arg2 harg2 arg3 harg3 arg4 harg4 arg5 harg5 arg6 harg6 arg7 harg7 arg8 harg8 X2 X3 X4 X5 G k1_t1_loop.trips (Nat.le_refl _) k k.isLt x

/-- Slab k's piece is among the pieces of the trips before n, for k < n. -/
theorem slab_mem_before (G : BufTy.Contents (Elt F) arg8.view.ty) (n : ℕ) (hn : n ≤ k1_t1_loop.trips) :
    ∀ k : Fin k1_t1_loop.trips, k.val < n → ∃ w, (⟨slab k, w⟩ : View.Piece (Elt F) S2048x1024 .f32) ∈ before G n := by
  induction n with
  | zero => intro k hk; exact absurd hk (Nat.not_lt_zero _)
  | succ n ih =>
    intro k hk
    rw [before_succ 𝒱 c bd i arg2 harg2 arg3 harg3 arg4 harg4 arg5 harg5 arg6 harg6 arg7 harg7 arg8 harg8 X2 X3 X4 X5 G ⟨n, hn⟩]
    by_cases hkn : k.val = n
    · obtain rfl : k = ⟨n, hn⟩ := Fin.ext hkn
      exact ⟨_, List.mem_cons_self⟩
    · obtain ⟨w, hw⟩ := ih (Nat.le_of_succ_le hn) k (by omega)
      exact ⟨w, List.mem_cons_of_mem _ hw⟩

/-- Every row lies in the slab of trip (row / 256). -/
theorem mem_slab (y : S2048x1024.Idx) : ∃ k : Fin k1_t1_loop.trips, y ∈ (slab k).set := by
  have h0 : (y (0 : Fin 2)).val < 2048 := (y 0).isLt
  have h1 : (y (1 : Fin 2)).val < 1024 := (y 1).isLt
  refine ⟨⟨(y (0 : Fin 2)).val / 256, by rw [trips_eq]; omega⟩, ?_⟩
  rw [Rect.mem_set_unit]
  intro a
  match a with
  | ⟨0, _⟩ =>
    rw [k1_off2_eq]
    show 256 * ((y (0 : Fin 2)).val / 256) ≤ (y (0 : Fin 2)).val ∧ (y (0 : Fin 2)).val < 256 * ((y (0 : Fin 2)).val / 256) + 256
    omega
  | ⟨1, _⟩ =>
    rw [k1_off2_eq]
    show 0 ≤ (y (1 : Fin 2)).val ∧ (y (1 : Fin 2)).val < 0 + 1024
    omega

/-- The eight trips' pieces cover the accumulator. -/
theorem covered (G : BufTy.Contents (Elt F) arg8.view.ty) (y : S2048x1024.Idx) : ∃ p ∈ before G k1_t1_loop.trips, y ∈ p.1.set := by
  obtain ⟨k, hk⟩ := mem_slab y
  obtain ⟨w, hw⟩ := slab_mem_before 𝒱 c bd i arg2 harg2 arg3 harg3 arg4 harg4 arg5 harg5 arg6 harg6 arg7 harg7 arg8 harg8 X2 X3 X4 X5 G k1_t1_loop.trips (Nat.le_refl _) k k.isLt
  exact ⟨_, hw, hk⟩

/-- So the reading after the loop does not depend on what the pieces are written over. -/
theorem read_after_loop_over (f G : BufTy.Contents (Elt F) arg8.view.ty) (y : S2048x1024.Idx) (k : Fin k1_t1_loop.trips)
    (x : (slab k).shape.Idx) (hy : (slab k).emb x = y) :
    arg8.view.read (Elt F) (arg8.view.writes (Elt F) f (before G k1_t1_loop.trips)) y
      = tripOut k (fun x' => arg8.view.read (Elt F) G ((slab k).emb x')) x :=
  (View.read_writes_apply_eq arg8.view f arg8.view G y _ (covered 𝒱 c bd i arg2 harg2 arg3 harg3 arg4 harg4 arg5 harg5 arg6 harg6 arg7 harg7 arg8 harg8 X2 X3 X4 X5 G y)).trans (read_after_loop 𝒱 c bd i arg2 harg2 arg3 harg3 arg4 harg4 arg5 harg5 arg6 harg6 arg7 harg7 arg8 harg8 X2 X3 X4 X5 G y k x hy)

end

end Cert.KernelIdeal.Slabs

end
-- ==== Proof.LibColumnOps.lean ====
/-
  Two readings at an index given by coordinates, over generic extents.

  A column `[a, 1]` stretched over `[a, b]` (a row statistic kept as a column and broadcast back over the row) reads, at
  `(p, c)`, the column at `(p, 0)`.

  A reduction along ONE axis of an f32 array, as a kernel body prints it — the accumulator's word written out and the proof
  that it is the operation's neutral word an equation between two literals —: the maximum from the word of `-∞` is the
  fold of `max` from `⊥` over that axis's coordinates (`rowMax_single`), the sum from the zero word is the sum over them
  (`rowSum_single`).

  A matrix product `[K, M] × [K, N] → [M, N]` whose dimension numbers contract the FIRST axis of both operands and keep
  the other two in order (`ColDot`): the sum over the contraction index at output `(p, n)` is
  `∑ k : Fin K, x (k, p) · w (k, n)` (`sum_contr_col_eq`), and so is the product into a zero accumulator read at `(p, n)`
  (`matmul_zero_col_apply`). Only the commutative monoid of the extended reals' addition is used.
-/
import Idealize.ShloMosaic.Lib.ValueIdx
import Idealize.ShloMosaic.Lib.Pipeline.Value
import Idealize.ShloMosaic.PureOps.Ideal.Laws

noncomputable section

namespace Idealize.ShloMosaic.ColumnOps

open Idealize.ShloMosaic Idealize.ShloMosaic.ValueIdx

/-- A column `[a, 1]` broadcast to `[a, b]` reads, at `(p, c)`, the column at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A printed `multi_reduction <maximumf>` over one axis from the word of `-∞`, at a result index: the fold of `max` from `⊥`
    of the source along that axis. -/
theorem rowMax_single {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max ⊥ (src ∘ h.lift j) := by
  refine (Ideal.multiReduction_maximumf_single src 0xFF800000#32 h hφ hacc j).trans ?_
  show (Finset.univ : Finset (Fin (s.size a))).fold max (Ideal.ofBits .f32 0xFF800000#32) _ = _
  rw [show Ideal.ofBits .f32 0xFF800000#32 = (⊥ : EReal) by simp [Ideal.ofBits, Ideal.ieee]]

/-- A printed `multi_reduction <add>` over one axis from the zero word, at a result index: the sum of the source along
    that axis. -/
theorem rowSum_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The dimension numbers of a product contracting the first axis of both operands: one contracted axis of extent `K`;
    the left operand's index at output `j` and contraction index `q` is `(q, j 0)`, the right operand's `(q, j 1)`. -/
structure ColDot {K M N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {K M N : Nat}

/-- The contraction's sum at output `j` is the sum over `k : Fin K` of `x (k, j 0) · w (k, j 1)`. -/
theorem sum_contr_col_eq (d : DotDims (⟨2, ![K, M]⟩ : Shape) (⟨2, ![K, N]⟩ : Shape) (⟨2, ![M, N]⟩ : Shape)) (h : ColDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_col_apply {φ₁ φ₂ : FTy}
    (d : DotDims (⟨2, ![K, M]⟩ : Shape) (⟨2, ![K, N]⟩ : Shape) (⟨2, ![M, N]⟩ : Shape)) (hd : ColDot d)
    (prec : Option ContractPrecision) (lhs : FVec Ideal ⟨2, ![K, M]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 k p) * rhs (ix2 k n) :=
  (Ideal.matmul_constant_zero_apply d prec lhs rhs (ix2 p n)).trans (sum_contr_col_eq d hd lhs rhs (ix2 p n))

end Idealize.ShloMosaic.ColumnOps

end
-- ==== Proof.LibRowNormalize.lean ====
/-
  THE ROWS OF A MATRIX DIVIDED BY THEIR CLAMPED LENGTHS, READ AT AN INDEX, over generic extents.

  A body that L2-normalises the rows of an [a, d] matrix X writes: the squares X * X, their sum along the second axis (a
  vector of a sums), that vector cast to a column [a, 1], its square root, the maximum with a splat constant eps (so that a
  zero row is not divided by zero), the column stretched back over [a, d], and the quotient of X by it. Read at the
  extended reals at (i, k) this is

      X (i, k) / max (sqrt (sum over j of X (i, j) * X (i, j))) eps

  where the sum has no rounding and no order, the square root and the quotient are the extended reals' ones, and eps is
  the extended real the constant's word denotes. Each layout step is read at an index written by its coordinates: the sum
  along the second axis at i is the sum over the row i; a vector cast to a column reads its entry; a column stretched over
  the matrix reads the column's entry of that row.
-/
import Idealize.ShloMosaic.Lib.ValueIdx
import Idealize.ShloMosaic.Lib.Pipeline.Value
import Idealize.ShloMosaic.PureOps.Ideal.Laws

noncomputable section

open scoped BigOperators

namespace Idealize.ShloMosaic.RowNormalize

open Idealize.ShloMosaic Idealize.ShloMosaic.ValueIdx

section Layout
variable {α : Type}

/-- A column [a, 1] stretched over [a, b] by a vector broadcast reads, at (i, j), the column at (i, 0). -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector [a] cast to the column [a, 1] reads, at (i, u), the vector at i, whatever the unit coordinate u. -/
theorem shapeCast_vec_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- For a sum along the second axis of [a, d], the source index over the result index i with coordinate k on the summed
    axis is (i, k). -/
theorem lift_row {a d : ℕ} (h : (⟨2, ![a, d]⟩ : Shape).Reduces [1] ⟨1, ![a]⟩) (i : Fin a) (k : Fin d) :
    h.lift (ix1 i) k = ix2 i k := by
  funext c
  apply Fin.ext
  show Shape.Reduces.liftVal h (ix1 i) k.val c = (ix2 i k c).val
  unfold Shape.Reduces.liftVal
  match c with
  | ⟨0, _⟩ => rfl
  | ⟨1, _⟩ => rfl

end Layout

/-! ## The sum of a row's squares, and the row divided by its clamped length -/

section Rows
variable {a d : ℕ}

/-- The sum along the second axis of a matrix, read at i at the extended reals: the sum over the row i. -/
theorem rowSum_apply (Y : FVec Ideal ⟨2, ![a, d]⟩ .f32) (h : (⟨2, ![a, d]⟩ : Shape).Reduces [1] ⟨1, ![a]⟩)
    (hφ : FKind.Formats .f32) (hacc : (0x00000000#32 : BitVec 32) = FKind.add.neutral .f32 hφ) (i : Fin a) :
    multiReduction .add [1] ⟨1, ![a]⟩ Y 0x00000000#32 h hφ hacc (ix1 i) = ∑ k : Fin d, Y (ix2 i k) :=
  (Ideal.multiReduction_add_single Y 0x00000000#32 h hφ hacc (ix1 i)).trans
    (Finset.sum_congr rfl fun k _ => congrArg Y (lift_row h i k))

/-- The rows of X divided by their clamped lengths, as a body spells it with vector operations: the squares, their sum
    along the second axis, the cast to a column, the square root, the maximum with the splat of the word e, the column
    stretched over the matrix, the quotient. -/
def normalizeRows (X : FVec Ideal ⟨2, ![a, d]⟩ .f32) (e : BitVec 32)
    (hr : (⟨2, ![a, d]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, d]⟩) :
    FVec Ideal ⟨2, ![a, d]⟩ .f32 :=
  divf X (broadcastTo ⟨2, ![a, d]⟩
    (maximumf (sqrt (shapeCast ⟨2, ![a, 1]⟩ (multiReduction .add [1] ⟨1, ![a]⟩ (mulf X X) 0x00000000#32 hr hφ hacc) hc))
      (broadcast ⟨2, ![a, 1]⟩ (Scalar.ofBits (F := Ideal) .f32 e))) hb)

/-- Read at (i, k): the entry over the larger of the square root of the sum of the row's squares and the extended real
    the word e denotes. -/
theorem normalizeRows_apply (X : FVec Ideal ⟨2, ![a, d]⟩ .f32) (e : BitVec 32)
    (hr : (⟨2, ![a, d]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, d]⟩)
    (i : Fin a) (k : Fin d) :
    normalizeRows X e hr hφ hacc hc hb (ix2 i k)
      = Ideal.div (X (ix2 i k)) (max (Ideal.sqrt (∑ j : Fin d, X (ix2 i j) * X (ix2 i j))) (Ideal.ofBits .f32 e)) := by
  unfold normalizeRows
  refine (divf_apply _ _ _).trans ?_
  refine congrArg (Ideal.div (X (ix2 i k))) ?_
  refine (broadcastTo_col_apply _ hb i k).trans ?_
  refine (maximumf_apply _ _ _).trans ?_
  refine congrArg (max · (Ideal.ofBits .f32 e)) ?_
  show Ideal.sqrt (shapeCast ⟨2, ![a, 1]⟩ (multiReduction .add [1] ⟨1, ![a]⟩ (mulf X X) 0x00000000#32 hr hφ hacc) hc
    (ix2 i (0 : Fin 1))) = _
  refine congrArg Ideal.sqrt ?_
  refine (shapeCast_vec_col_apply _ hc i 0).trans ?_
  exact rowSum_apply (mulf X X) hr hφ hacc i

end Rows

end Idealize.ShloMosaic.RowNormalize

end
-- ==== Proof.LibRowSoftmax.lean ====
/-
  THE SOFTMAX OF THE ROWS OF A MATRIX, AS A KERNEL BODY SPELLS IT, READ AT AN INDEX, over generic extents.

  For a row of scores s the softmax taken against the row's peak is, at j,

      exp (s j - M) / (sum over j' of exp (s j' - M)),   M = the largest entry of the row (the fold of max from -infinity).

  A body that takes it over the rows of an [a, n] matrix S writes: the maximum of S along the second axis from the word of
  -infinity (a vector of a maxima), that vector cast to a column [a, 1] and stretched back over [a, n]; the difference of S
  and it; the exponential; the sum of that along the second axis from the zero word, cast to a column and stretched back
  likewise; and the quotient of the exponentials by the stretched sums. Read at the extended reals at (i, j) this is the
  softmax of the row i of S at j: the maximum and the sum have no rounding and no order, the exponential and the quotient are
  the extended reals' ones. Each step is read at an index written by its coordinates: a reduction along the second axis at
  i ranges over the row i, a vector cast to a column reads its entry, a column stretched over the matrix reads the column's
  entry of that row.
-/
import Idealize.ShloMosaic.Lib.ValueIdx
import Idealize.ShloMosaic.Lib.Pipeline.Value
import Idealize.ShloMosaic.PureOps.Ideal.Laws
import proofs.«120176_j20856361190136_2_alg».proof.Proof.LibColumnOps
import proofs.«120176_j20856361190136_2_alg».proof.Proof.LibRowNormalize

noncomputable section

open scoped BigOperators

namespace Idealize.ShloMosaic.RowSoftmax

open Idealize.ShloMosaic Idealize.ShloMosaic.ValueIdx

/-- The largest entry of a row: the fold of max from -infinity. -/
def peak {n : ℕ} (s : Fin n → EReal) : EReal := (Finset.univ : Finset (Fin n)).fold max ⊥ s

/-- The softmax of a row of scores at j, taken against the row's peak. -/
def softmax {n : ℕ} (s : Fin n → EReal) (j : Fin n) : EReal :=
  Ideal.div (Ideal.exp (s j - peak s)) (∑ j' : Fin n, Ideal.exp (s j' - peak s))

variable {a n : ℕ}

/-- The rows' maxima from the word of -infinity, kept as a column and stretched back over the matrix. -/
def peakRows (S : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hc : (⟨1, ![a]⟩ : Shape).ShapeCasts ⟨2, ![a, 1]⟩)
    (hb : (⟨2, ![a, 1]⟩ : Shape).Broadcasts ⟨2, ![a, n]⟩) : FVec Ideal ⟨2, ![a, n]⟩ .f32 :=
  broadcastTo ⟨2, ![a, n]⟩ (shapeCast ⟨2, ![a, 1]⟩ (multiReduction .maximumf [1] ⟨1, ![a]⟩ S 0xFF800000#32 hr hφ hmax) hc) hb

/-- Read at (i, j): the peak of the row i. -/
theorem peakRows_apply (S : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩)
    (i : Fin a) (j : Fin n) :
    peakRows S hr hφ hmax hc hb (ix2 i j) = peak fun j' : Fin n => S (ix2 i j') := by
  unfold peakRows
  refine (ColumnOps.broadcastTo_col_apply _ hb i j).trans ?_
  refine (RowNormalize.shapeCast_vec_col_apply _ hc i 0).trans ?_
  refine (ColumnOps.rowMax_single S hr hφ hmax (ix1 i)).trans ?_
  show (Finset.univ : Finset (Fin n)).fold max ⊥ (S ∘ hr.lift (ix1 i)) = _
  unfold peak
  exact congrArg (fun f => Finset.fold max ⊥ f (Finset.univ : Finset (Fin n)))
    (funext fun k => congrArg S (RowNormalize.lift_row hr i k))

/-- The rows' sums from the zero word, kept as a column and stretched back over the matrix. -/
def sumRows (E : FVec Ideal ⟨2, ![a, n]⟩ .f32) (hr : (⟨2, ![a, n]⟩ : Shape).Reduces [1] ⟨1, ![a]⟩) (hφ : FKind.Formats .f32)
    (hadd : (0x00000000#32 : BitVec 32) = 0x00000000#32) (hc : (⟨1, ![a]⟩ : Shape).ShapeCasts ⟨2, ![a, 1]⟩)
    (hb : (⟨2, ![a, 1]⟩ : Shape).Broadcasts ⟨2, ![a, n]⟩) : FVec Ideal ⟨2, ![a, n]⟩ .f32 :=
  broadcastTo ⟨2, ![a, n]⟩ (shapeCast ⟨2, ![a, 1]⟩ (multiReduction .add [1] ⟨1, ![a]⟩ E 0x00000000#32 hr hφ hadd) hc) hb

/-- Read at (i, j): the sum over the row i. -/
theorem sumRows_apply (E : FVec Ideal ⟨2, ![a, n]⟩ .f32) (hr : (⟨2, ![a, n]⟩ : Shape).Reduces [1] ⟨1, ![a]⟩)
    (hφ : FKind.Formats .f32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (i : Fin a) (j : Fin n) :
    sumRows E hr hφ hadd hc hb (ix2 i j) = ∑ j' : Fin n, E (ix2 i j') := by
  unfold sumRows
  refine (ColumnOps.broadcastTo_col_apply _ hb i j).trans ?_
  refine (RowNormalize.shapeCast_vec_col_apply _ hc i 0).trans ?_
  refine (ColumnOps.rowSum_single E hr hφ hadd (ix1 i)).trans ?_
  exact Finset.sum_congr rfl fun k _ => congrArg E (RowNormalize.lift_row hr i k)

/-- The exponentials of the rows' scores against their peaks. -/
def expRows (S : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hc : (⟨1, ![a]⟩ : Shape).ShapeCasts ⟨2, ![a, 1]⟩)
    (hb : (⟨2, ![a, 1]⟩ : Shape).Broadcasts ⟨2, ![a, n]⟩) : FVec Ideal ⟨2, ![a, n]⟩ .f32 :=
  exp (subf S (peakRows S hr hφ hmax hc hb))

/-- Read at (i, j): the exponential of the score less the row's peak. -/
theorem expRows_apply (S : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩)
    (i : Fin a) (j : Fin n) :
    expRows S hr hφ hmax hc hb (ix2 i j) = Ideal.exp (S (ix2 i j) - peak fun j' : Fin n => S (ix2 i j')) := by
  show Ideal.exp (S (ix2 i j) - peakRows S hr hφ hmax hc hb (ix2 i j)) = _
  rw [peakRows_apply]

/-- The softmax of the rows as a body spells it with vector operations: the exponentials against the stretched peaks over
    their stretched row sums. -/
def softmaxRows (S : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) :
    FVec Ideal ⟨2, ![a, n]⟩ .f32 :=
  divf (expRows S hr hφ hmax hc hb) (sumRows (expRows S hr hφ hmax hc hb) hr hφ hadd hc hb)

/-- Read at (i, j): the softmax of the row i at j. -/
theorem softmaxRows_apply (S : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (i : Fin a) (j : Fin n) :
    softmaxRows S hr hφ hmax hadd hc hb (ix2 i j) = softmax (fun j' : Fin n => S (ix2 i j')) j := by
  show Ideal.div (expRows S hr hφ hmax hc hb (ix2 i j)) (sumRows (expRows S hr hφ hmax hc hb) hr hφ hadd hc hb (ix2 i j)) = _
  rw [expRows_apply, sumRows_apply]
  unfold softmax
  exact congrArg (Ideal.div _) (Finset.sum_congr rfl fun j' _ => expRows_apply S hr hφ hmax hc hb i j')

end Idealize.ShloMosaic.RowSoftmax

end
-- ==== Proof.LibTransDot.lean ====
/-
  A matrix product against a transposed right operand.

  For a two-axis contraction `[M, K] × [N, K] → [M, N]` whose dimension numbers contract the second axis of both
  operands and keep the other two in order (`TransDot`), the sum over the contraction index at output `(r, c)` is
  `∑ k : Fin K, x (r, k) · w (c, k)` (`sum_contr_trans_eq`), and so is the product into a zero accumulator read at
  `(r, c)` (`matmul_zero_trans_apply`). Only the commutative monoid of the extended reals' addition is used.
-/
import Idealize.ShloMosaic.Lib.ValueIdx
import Idealize.ShloMosaic.PureOps.Ideal.Laws

noncomputable section

namespace Idealize.ShloMosaic.TransDot

open Idealize.ShloMosaic Idealize.ShloMosaic.ValueIdx

/-- The dimension numbers of a product with a transposed right operand: one contracted axis of extent `K`; the left
    operand's index at output `j` and contraction index `q` is `(j 0, q)`, the right operand's `(j 1, q)`. -/
structure TransDot {M K N : Nat} (d : DotDims (⟨2, ![M, K]⟩ : Shape) (⟨2, ![N, K]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

variable {M K N : Nat}

/-- The contraction's sum at output `j` is the sum over `k : Fin K` of `x (j 0, k) · w (j 1, k)`. -/
theorem sum_contr_trans_eq (d : DotDims (⟨2, ![M, K]⟩ : Shape) (⟨2, ![N, K]⟩ : Shape) (⟨2, ![M, N]⟩ : Shape)) (h : TransDot d)
    (x : (⟨2, ![M, K]⟩ : Shape).Idx → EReal) (w : (⟨2, ![N, K]⟩ : Shape).Idx → EReal) (j : (⟨2, ![M, N]⟩ : Shape).Idx) :
    ∑ q : d.contr.Idx, x (d.lhsIdx j q) * w (d.rhsIdx j q) = ∑ k : Fin K, x (ix2 (j 0) k) * w (ix2 (j 1) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 (j 1) k := funext fun a => Fin.ext (by
    match a with
    | ⟨0, _⟩ => exact h.r0 _ _
    | ⟨1, _⟩ => exact (h.r1 _ _).trans hk)
  exact congrArg₂ (· * ·) (congrArg x el) (congrArg w er)

/-- The product into the zero accumulator, read at `(p, c)`. -/
theorem matmul_zero_trans_apply {φ₁ φ₂ : FTy}
    (d : DotDims (⟨2, ![M, K]⟩ : Shape) (⟨2, ![N, K]⟩ : Shape) (⟨2, ![M, N]⟩ : Shape)) (hd : TransDot d)
    (prec : Option ContractPrecision) (lhs : FVec Ideal ⟨2, ![M, K]⟩ φ₁) (rhs : FVec Ideal ⟨2, ![N, K]⟩ φ₂) (p : Fin M) (c : Fin N) :
    matmul d prec lhs rhs (constant ⟨2, ![M, N]⟩ .f32 0x00000000#32) (ix2 p c) = ∑ k : Fin K, lhs (ix2 p k) * rhs (ix2 c k) :=
  (Ideal.matmul_constant_zero_apply d prec lhs rhs (ix2 p c)).trans (sum_contr_trans_eq d hd lhs rhs (ix2 p c))

end Idealize.ShloMosaic.TransDot

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.V.Payloads.lean ====
/- The three values region 1's body stores, each read at one index, at the exact extended reals.

   The body keeps a [2048, 1024] running sum. At the first head it fills it with zeros. For each block of 256 query rows
   it adds, to the block's rows of the running sum, the head's attention output pushed through the head's slice of the
   output weight: with q the 256 query rows, k and v the head's 2048 key and value rows (64 coordinates each) and ow the
   head's [64, 1024] slice,

       score r t = (∑ d, q r d · k t d) · (1/8)          the scaled products of query r with every key t
       softmax over t of score r t, taken against the row's largest score
       mix r d   = ∑ t, softmax r t · v t d               the attention-weighted mix of the values
       slab r f  = g r f + ∑ d, mix r d · ow d f          added to what the running sum held, g

   At the last head it stores the running sum plus the output bias, repeated down the rows. Roundings between formats and
   casts that only add or drop unit axes change no value. -/
import proofs.«120176_j20856361190136_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«120176_j20856361190136_2_alg».proof.Proof.LibRowSoftmax
import proofs.«120176_j20856361190136_2_alg».proof.Proof.LibTransDot
import proofs.«120176_j20856361190136_2_alg».proof.Proof.LibTileRead

noncomputable section

namespace Cert.KernelIdeal.Pay

open Cert.KernelIdeal Cert.KernelIdeal.Gen
open Idealize.ShloMosaic Idealize.ShloMosaic.ValueIdx
open scoped BigOperators

/-! ## The zero fill and the last head's store -/

/-- Every entry of the zero fill is the zero word's value. -/
theorem fill_apply (s : Fin 2048) (f : Fin 1024) :
    (k1_pay1 (F := Ideal)) (ix2 s f) = Ideal.ofBits .f32 0x00000000#32 := by
  unfold k1_pay1
  rw [shapeCast_self]
  rfl

/-- Entry (s, f) of what the last head stores: the running sum there plus entry f of the bias row. -/
theorem last_apply (acc : Vec Ideal S2048x1024 .f32) (bias : Vec Ideal S1x1024 .f32) (s : Fin 2048) (f : Fin 1024) :
    k1_pay3 acc bias (ix3 (0 : Fin 1) s f) = acc (ix2 s f) + bias (ix2 (0 : Fin 1) f) := by
  unfold k1_pay3
  rw [shapeCast_self]
  refine (shapeCast_ab_1ab_apply _ _ (0 : Fin 1) s f).trans ?_
  show acc (ix2 s f) + broadcastTo S2048x1024 bias _ (ix2 s f) = _
  exact congrArg (acc (ix2 s f) + ·) (Cert.Lib.TileRead.broadcastTo_row_apply bias _ s f)

/-! ## Two leading unit axes dropped -/

/-- A [1, 1, a, b] array cast to [a, b] reads, at (i, j), the operand at (0, 0, i, j): the two have the same row-major
    position. -/
theorem cast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## The three products' dimension numbers -/

/-- Queries against keys: the 64 coordinates of both are contracted. -/
theorem scores_dims : TransDot.TransDot dot_S256x64_S2048x64_S256x2048_1_1_0_0_n_n where
  hr := rfl
  hs := rfl
  l0 := fun j q => by simp [DotDims.lhsIdx, dot_S256x64_S2048x64_S256x2048_1_1_0_0_n_n]; try rfl
  l1 := fun j q => by simp [DotDims.lhsIdx, dot_S256x64_S2048x64_S256x2048_1_1_0_0_n_n]; try rfl
  r0 := fun j q => by simp [DotDims.rhsIdx, dot_S256x64_S2048x64_S256x2048_1_1_0_0_n_n]; try rfl
  r1 := fun j q => by simp [DotDims.rhsIdx, dot_S256x64_S2048x64_S256x2048_1_1_0_0_n_n]; try rfl

/-- Weights against values: a plain product over the 2048 keys. -/
theorem mix_dims : Cert.Lib.TileRead.PlainDot dot_S256x2048_S2048x64_S256x64_1_0_0_1_n_n where
  hr := rfl
  hs := rfl
  l0 := fun j q => by simp [DotDims.lhsIdx, dot_S256x2048_S2048x64_S256x64_1_0_0_1_n_n]; try rfl
  l1 := fun j q => by simp [DotDims.lhsIdx, dot_S256x2048_S2048x64_S256x64_1_0_0_1_n_n]; try rfl
  r0 := fun j q => by simp [DotDims.rhsIdx, dot_S256x2048_S2048x64_S256x64_1_0_0_1_n_n]; try rfl
  r1 := fun j q => by simp [DotDims.rhsIdx, dot_S256x2048_S2048x64_S256x64_1_0_0_1_n_n]; try rfl

/-- The mix against the head's slice of the output weight: a plain product over the 64 coordinates. -/
theorem out_dims : Cert.Lib.TileRead.PlainDot dot_S256x64_S64x1024_S256x1024_1_0_0_1_n_n where
  hr := rfl
  hs := rfl
  l0 := fun j q => by simp [DotDims.lhsIdx, dot_S256x64_S64x1024_S256x1024_1_0_0_1_n_n]; try rfl
  l1 := fun j q => by simp [DotDims.lhsIdx, dot_S256x64_S64x1024_S256x1024_1_0_0_1_n_n]; try rfl
  r0 := fun j q => by simp [DotDims.rhsIdx, dot_S256x64_S64x1024_S256x1024_1_0_0_1_n_n]; try rfl
  r1 := fun j q => by simp [DotDims.rhsIdx, dot_S256x64_S64x1024_S256x1024_1_0_0_1_n_n]; try rfl

/-! ## One trip's slab -/

section Slab
variable (q : Vec Ideal S1x1x256x64 .bf16) (k v : Vec Ideal S1x1x2048x64 .bf16) (ow : Vec Ideal S1x64x1024 .bf16)
  (g : Vec Ideal S256x1024 .f32)

/-- Query row r against key row t, scaled by the word of 1/8. -/
def sc (r : Fin 256) (t : Fin 2048) : EReal :=
  (∑ d : Fin 64, q (ix4 (0 : Fin 1) (0 : Fin 1) r d) * k (ix4 (0 : Fin 1) (0 : Fin 1) t d)) * Ideal.ofBits .f32 0x3E000000#32
/-- The largest score of query row r, the maximum started from the word of minus infinity. -/
def pk (r : Fin 256) : EReal :=
  (Finset.univ : Finset (Fin 2048)).fold max (Ideal.ofBits .f32 0xFF800000#32) (fun t => sc q k r t)
/-- The exponential of a score against its row's largest. -/
def wt (r : Fin 256) (t : Fin 2048) : EReal := Ideal.exp (sc q k r t - pk q k r)
/-- The sum of a row's exponentials, started from the zero word. -/
def ms (r : Fin 256) : EReal := Ideal.ofBits .f32 0x00000000#32 + ∑ t : Fin 2048, wt q k r t
/-- The softmax-weighted mix of the values: coordinate d for query row r. -/
def mix (r : Fin 256) (d : Fin 64) : EReal :=
  ∑ t : Fin 2048, Ideal.div (wt q k r t) (ms q k r) * v (ix4 (0 : Fin 1) (0 : Fin 1) t d)

/-- The scaled score matrix as the body spells it — the product of the queries with the keys, both with their two unit
    axes dropped, into zeros, times the splat of 1/8 — read at (r, t). -/
theorem scores_apply (hq : S1x1x256x64.ShapeCasts S256x64) (hk : S1x1x2048x64.ShapeCasts S2048x64) (r : Fin 256) (t : Fin 2048) :
    mulf (matmul (F := Ideal) (φ₁ := .bf16) (φ₂ := .bf16) dot_S256x64_S2048x64_S256x2048_1_1_0_0_n_n none
        (shapeCast S256x64 q hq : FVec Ideal S256x64 .bf16) (shapeCast S2048x64 k hk : FVec Ideal S2048x64 .bf16)
        (constant (F := Ideal) S256x2048 .f32 0x00000000#32))
      (broadcast S256x2048 (Scalar.ofBits (F := Ideal) .f32 0x3E000000#32)) (ix2 r t) = sc q k r t := by
  refine (mulf_apply _ _ _).trans ?_
  unfold sc
  refine congrArg₂ (· * ·) ?_ rfl
  refine (TransDot.matmul_zero_trans_apply _ scores_dims none _ _ r t).trans ?_
  exact Finset.sum_congr rfl fun d _ => congrArg₂ (· * ·) (cast_11ab_ab_apply q hq r d) (cast_11ab_ab_apply k hk t d)

/-- The softmax of the row of scores of query r, at t: the weight over the row's mass. The maximum's start, the word of
    minus infinity, is the bottom element, and the sum's start, the zero word, is zero. -/
theorem softmax_scores (r : Fin 256) (t : Fin 2048) :
    RowSoftmax.softmax (fun t' : Fin 2048 => sc q k r t') t = Ideal.div (wt q k r t) (ms q k r) := by
  have hpk : RowSoftmax.peak (fun t' : Fin 2048 => sc q k r t') = pk q k r := by
    unfold RowSoftmax.peak pk
    rw [show Ideal.ofBits .f32 0xFF800000#32 = (⊥ : EReal) by simp [Ideal.ofBits, Ideal.ieee]]
  unfold RowSoftmax.softmax ms wt
  rw [hpk, Ideal.ofBits_zero_f32, zero_add]

/-- Entry (r, f) of the slab one trip stores: what the running sum held there plus the mix of query row r pushed through
    column f of the head's slice of the output weight. -/
theorem slab_apply (r : Fin 256) (f : Fin 1024) :
    k1_pay2 (k1_pay4 q k v ow g) (ix2 r f) = g (ix2 r f) + ∑ d : Fin 64, mix q k v r d * ow (ix3 (0 : Fin 1) d f) := by
  unfold k1_pay2 k1_pay4
  rw [shapeCast_self]
  refine (addf_apply _ _ _).trans ?_
  refine congrArg (g (ix2 r f) + ·) ?_
  -- the product with the output weight's slice
  refine (Cert.Lib.TileRead.matmul_zero_plain_apply _ out_dims none _ _ r f).trans ?_
  refine Finset.sum_congr rfl fun d _ => congrArg₂ (· * ·) ?_ (shapeCast_1ab_ab_apply ow _ d f)
  -- the rounding is the identity; the product of the weights with the values
  refine (truncf_apply (φ := .f32) (ψ := .bf16) _ _ _).trans ?_
  refine (Cert.Lib.TileRead.matmul_zero_plain_apply _ mix_dims none _ _ r d).trans ?_
  unfold mix
  refine Finset.sum_congr rfl fun t _ => congrArg₂ (· * ·) ?_ (cast_11ab_ab_apply v _ t d)
  -- the rounding is the identity; the softmax of the rows of the scaled scores
  refine (truncf_apply (φ := .f32) (ψ := .bf16) _ _ _).trans ?_
  refine (RowSoftmax.softmaxRows_apply _ _ _ rfl rfl _ _ r t).trans ?_
  refine (congrArg (fun s : Fin 2048 → EReal => RowSoftmax.softmax s t) (funext fun t' => scores_apply q k _ _ r t')).trans ?_
  exact softmax_scores q k r t

end Slab

end Cert.KernelIdeal.Pay

end
-- ==== Proof.V.PointStep.lean ====
/-
  One grid point's effect on the accumulator, at the exact extended reals.

  At a point the loop's eight trips together add, to every entry (s, f) of the accumulator, the head's contribution
  ∑_d mix(s, d) · ow(d, f), where mix(s, ·) is the softmax of query row s's scores against all keys, applied to the values.
  Trip k handles rows 256·k … 256·k + 255, and a row's contribution depends on the queries through that row alone, so the
  slab-by-slab reading is the same formula at every row of the whole query block.
-/
import proofs.«120176_j20856361190136_2_alg».proof.Proof.V.LoopSlabs
import proofs.«120176_j20856361190136_2_alg».proof.Proof.V.Payloads

set_option maxRecDepth 16384

noncomputable section

namespace Cert.KernelIdeal.Step

open Cert.KernelIdeal Cert.KernelIdeal.Gen
open Idealize.ShloMosaic Idealize.ShloMosaic.TcCoe Idealize.ShloMosaic.ValueIdx
open Idealize.SL Idealize.SL.Sem
open scoped BigOperators

/-! ## A head's contribution, row by row of the whole query block -/

section
variable (xq xk xv : S1x1x2048x64.Idx → EReal) (xow : S1x64x1024.Idx → EReal)

/-- Query row s against key row t: the inner product times one eighth. -/
def rowScore (s t : Fin 2048) : EReal :=
  (∑ d : Fin 64, xq (ix4 (0 : Fin 1) (0 : Fin 1) s d) * xk (ix4 (0 : Fin 1) (0 : Fin 1) t d)) * Ideal.ofBits .f32 0x3E000000#32
def rowPeak (s : Fin 2048) : EReal :=
  (Finset.univ : Finset (Fin 2048)).fold max (Ideal.ofBits .f32 0xFF800000#32) (fun t => rowScore xq xk s t)
def rowW (s t : Fin 2048) : EReal := Ideal.exp (rowScore xq xk s t - rowPeak xq xk s)
def rowMass (s : Fin 2048) : EReal := Ideal.ofBits .f32 0x00000000#32 + ∑ t : Fin 2048, rowW xq xk s t
def rowMix (s : Fin 2048) (d : Fin 64) : EReal :=
  ∑ t : Fin 2048, Ideal.div (rowW xq xk s t) (rowMass xq xk s) * xv (ix4 (0 : Fin 1) (0 : Fin 1) t d)
/-- The head's contribution to entry (s, f). -/
def headAt (s : Fin 2048) (f : Fin 1024) : EReal := ∑ d : Fin 64, rowMix xq xk xv s d * xow (ix3 (0 : Fin 1) d f)

/-- A 256-row slab of queries whose row r is the block's row s gives row r the block's row-s mix. -/
theorem mix_of_row (q : Vec Ideal S1x1x256x64 .bf16) (r : Fin 256) (s : Fin 2048)
    (hq : ∀ d : Fin 64, q (ix4 (0 : Fin 1) (0 : Fin 1) r d) = xq (ix4 (0 : Fin 1) (0 : Fin 1) s d)) (d : Fin 64) :
    Pay.mix q xk xv r d = rowMix xq xk xv s d := by
  have hsc : ∀ t, Pay.sc q xk r t = rowScore xq xk s t := fun t => by
    unfold Pay.sc rowScore
    rw [Finset.sum_congr rfl fun d _ => by rw [hq d]]
  have hpk : Pay.pk q xk r = rowPeak xq xk s := by
    unfold Pay.pk rowPeak
    rw [show (fun t => Pay.sc q xk r t) = fun t => rowScore xq xk s t from funext hsc]
  have hwt : ∀ t, Pay.wt q xk r t = rowW xq xk s t := fun t => by unfold Pay.wt rowW; rw [hsc, hpk]
  have hms : Pay.ms q xk r = rowMass xq xk s := by
    unfold Pay.ms rowMass; rw [Finset.sum_congr rfl fun t _ => hwt t]
  unfold Pay.mix rowMix
  exact Finset.sum_congr rfl fun t _ => by rw [hwt, hms]

end

/-! ## A trip's store, and the loop's effect at an entry -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

section
variable (arg2 arg3 arg4 : Memref sig .tc .vmem S1x1x2048x64 .bf16) (arg5 : Memref sig .tc .vmem S1x64x1024 .bf16)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty)

/-- What trip k stores at its row r, given its rows as it finds them: that row's entry plus the head's contribution at row
    256·k + r of the whole query block. -/
theorem slabOut_apply (k : Fin k1_t1_loop.trips) (g : Vec Ideal S256x1024 .f32) (r : Fin 256) (f : Fin 1024) (s : Fin 2048)
    (hs : s.val = 256 * k.val + r.val) :
    Slabs.slabOut arg2 arg3 arg4 arg5 X2 X3 X4 X5 k g (ix2 r f)
      = g (ix2 r f) + headAt (arg2.view.read (Elt Ideal) X2) (arg3.view.read (Elt Ideal) X3) (arg4.view.read (Elt Ideal) X4)
          (arg5.view.read (Elt Ideal) X5) s f := by
  -- a load of a whole buffer reads the buffer
  have hk3 : View.readAt (Elt Ideal) arg3.view (Rect.unit (s := S1x1x2048x64) ![0, 0, 0, 0] S1x1x2048x64.size inb_S1x1x2048x64_S1x1x2048x64_0_0_0_0).toLoadRect X3
      = arg3.view.read (Elt Ideal) X3 := by rw [View.readAt_eq_ld, View.ld_unit_zero (S := S1x1x2048x64) zeros4]
  have hk4 : View.readAt (Elt Ideal) arg4.view (Rect.unit (s := S1x1x2048x64) ![0, 0, 0, 0] S1x1x2048x64.size inb_S1x1x2048x64_S1x1x2048x64_0_0_0_0).toLoadRect X4
      = arg4.view.read (Elt Ideal) X4 := by rw [View.readAt_eq_ld, View.ld_unit_zero (S := S1x1x2048x64) zeros4]
  have hk5 : View.readAt (Elt Ideal) arg5.view (Rect.unit (s := S1x64x1024) ![0, 0, 0] S1x64x1024.size inb_S1x64x1024_S1x64x1024_0_0_0).toLoadRect X5
      = arg5.view.read (Elt Ideal) X5 := by rw [View.readAt_eq_ld, View.ld_unit_zero (S := S1x64x1024) zeros3]
  -- row r of the trip's query slab is row 256·k + r of the query block
  have hq : ∀ d : Fin 64,
      (View.readAt (Elt Ideal) arg2.view (Rect.unit (s := S1x1x2048x64) (k1_off1 k) S1x1x256x64.size (k1_off1_inb k)).toLoadRect X2)
          (ix4 (0 : Fin 1) (0 : Fin 1) r d)
        = arg2.view.read (Elt Ideal) X2 (ix4 (0 : Fin 1) (0 : Fin 1) s d) := fun d => by
    rw [View.readAt_apply]
    refine congrArg (arg2.view.read (Elt Ideal) X2) (funext fun a => Fin.ext ?_)
    match a with
    | ⟨0, _⟩ => show k1_off1 k (0 : Fin 4) + 1 * 0 = 0; rw [k1_off1_eq]; rfl
    | ⟨1, _⟩ => show k1_off1 k (1 : Fin 4) + 1 * 0 = 0; rw [k1_off1_eq]; rfl
    | ⟨2, _⟩ => show k1_off1 k (2 : Fin 4) + 1 * r.val = s.val; rw [k1_off1_eq, hs]; show 256 * k.val + 1 * r.val = _; omega
    | ⟨3, _⟩ => show k1_off1 k (3 : Fin 4) + 1 * d.val = d.val; rw [k1_off1_eq]; show 0 + 1 * d.val = d.val; omega
  unfold Slabs.slabOut
  rw [hk3, hk4, hk5]
  refine (Pay.slab_apply _ _ _ _ g r f).trans ?_
  refine congrArg (g (ix2 r f) + ·) ?_
  unfold headAt
  exact Finset.sum_congr rfl fun d _ => congrArg (· * _) (mix_of_row _ _ _ _ r s hq d)

end

section
variable (𝒱 : Variants) (c : Dev nD) (bd : Option 𝒱.V) (i : grid1.Coords)
  (arg2 : Memref sig .tc .vmem S1x1x2048x64 .bf16) (harg2 : arg2.IsWhole) (arg3 : Memref sig .tc .vmem S1x1x2048x64 .bf16) (harg3 : arg3.IsWhole)
  (arg4 : Memref sig .tc .vmem S1x1x2048x64 .bf16) (harg4 : arg4.IsWhole) (arg5 : Memref sig .tc .vmem S1x64x1024 .bf16) (harg5 : arg5.IsWhole)
  (arg6 : Memref sig .tc .vmem S1x1024 .f32) (harg6 : arg6.IsWhole) (arg7 : Memref sig .tc .vmem S1x2048x1024 .f32) (harg7 : arg7.IsWhole)
  (arg8 : Memref sig .tc .vmem S2048x1024 .f32) (harg8 : arg8.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty)

/-- THE LOOP AT AN ENTRY. Whatever the accumulator held when the loop was entered (G), and whatever the trips' pieces are
    written over (f): afterwards entry (s, col) is G's entry plus the head's contribution there. -/
theorem loop_at (f G : BufTy.Contents (Elt Ideal) arg8.view.ty) (s : Fin 2048) (col : Fin 1024) :
    arg8.view.read (Elt Ideal) (arg8.view.writes (Elt Ideal) f
        (pb_k1_t1 (F := Ideal) 𝒱 c bd i arg2 harg2 arg3 harg3 arg4 harg4 arg5 harg5 arg6 harg6 arg7 harg7 arg8 harg8 X2 X3 X4 X5 G k1_t1_loop.trips)) (ix2 s col)
      = arg8.view.read (Elt Ideal) G (ix2 s col)
        + headAt (arg2.view.read (Elt Ideal) X2) (arg3.view.read (Elt Ideal) X3) (arg4.view.read (Elt Ideal) X4)
            (arg5.view.read (Elt Ideal) X5) s col := by
  have hs : s.val < 2048 := s.isLt
  have hk : s.val / 256 < k1_t1_loop.trips := by rw [Slabs.trips_eq]; omega
  have hr : s.val % 256 < 256 := Nat.mod_lt _ (by decide)
  -- row s is row s % 256 of trip s / 256's slab
  have hy : (Slabs.slab ⟨s.val / 256, hk⟩).emb (ix2 (⟨s.val % 256, hr⟩ : Fin 256) col) = (ix2 s col : S2048x1024.Idx) :=
    funext fun a => Fin.ext (by
      match a with
      | ⟨0, _⟩ =>
        show k1_off2 ⟨s.val / 256, hk⟩ (0 : Fin 2) + 1 * (s.val % 256) = s.val
        rw [k1_off2_eq]; show 256 * (s.val / 256) + 1 * (s.val % 256) = s.val; omega
      | ⟨1, _⟩ =>
        show k1_off2 ⟨s.val / 256, hk⟩ (1 : Fin 2) + 1 * col.val = col.val
        rw [k1_off2_eq]; show 0 + 1 * col.val = col.val; omega)
  refine (Slabs.read_after_loop_over 𝒱 c bd i arg2 harg2 arg3 harg3 arg4 harg4 arg5 harg5 arg6 harg6 arg7 harg7 arg8 harg8 X2 X3 X4 X5 f G (ix2 s col) ⟨s.val / 256, hk⟩ (ix2 (⟨s.val % 256, hr⟩ : Fin 256) col) hy).trans ?_
  refine (slabOut_apply arg2 arg3 arg4 arg5 X2 X3 X4 X5 ⟨s.val / 256, hk⟩ _ ⟨s.val % 256, hr⟩ col s
    (by show s.val = 256 * (s.val / 256) + s.val % 256; omega)).trans ?_
  show arg8.view.read (Elt Ideal) G ((Slabs.slab ⟨s.val / 256, hk⟩).emb (ix2 (⟨s.val % 256, hr⟩ : Fin 256) col)) + _ = _
  rw [hy]

end

end Cert.KernelIdeal.Step

end
-- ==== Proof.V.Cases.lean ====
/- The three cases of region 1's body, each read at one entry, at the exact extended reals.

   At a point of the grid the body works on one head of one batch element. At the batch element's first head it zeroes the
   running sum and then adds the head's contribution, so the running sum ends at zero plus that contribution. At a later
   head it adds the contribution to what it found. At the last head it also stores the running sum, as it stands after the
   addition, plus the output bias repeated down the rows.

   The head's contribution at entry (s, f) is  ∑ d, mix(s, d) · ow(d, f),  mix being the softmax-weighted mix of the values
   for query row s; the eight trips of the body's loop add it slab by slab. -/
import proofs.«120176_j20856361190136_2_alg».proof.Proof.I.Region1Cases
import proofs.«120176_j20856361190136_2_alg».proof.Proof.I.Region1Wit
import proofs.«120176_j20856361190136_2_alg».proof.Proof.V.PointStep

set_option maxRecDepth 16384

noncomputable section

namespace Cert.KernelIdeal.Cases

open Cert.KernelIdeal Cert.KernelIdeal.Gen
open Idealize.ShloMosaic Idealize.ShloMosaic.TcCoe Idealize.ShloMosaic.ValueIdx
open Idealize.SL Idealize.SL.Sem
open scoped BigOperators

/-! ## Two readings used by every case -/

/-- The two zero offsets of an access to a whole two-axis buffer. -/
theorem zeros2 : (![0, 0] : Fin 2 → Nat) = fun _ => 0 := funext fun a => by fin_cases a <;> rfl

/-- One store through the whole of a buffer, over whatever it held: the buffer then reads the stored value, because
    the store's rectangle is the whole buffer. -/
theorem read_whole_store {S : Shape} {e : EltTy} (m : Memref sig .tc .vmem S e) (g : BufTy.Contents (Elt Ideal) m.view.ty)
    {off : Fin S.rank → Nat} (hz : off = fun _ => 0) (inb : ∀ a, off a + S.size a ≤ S.size a) (p : S.Idx → Elt Ideal e) :
    m.view.read (Elt Ideal) (m.view.writes (Elt Ideal) g [⟨Rect.unit off S.size inb, p⟩]) = p :=
  (View.read_writes_eq_canon m.view g _ (fun y => ⟨_, List.mem_singleton_self _, View.mem_set_unit_zero hz inb y⟩)).trans
    (View.canon_unit_zero hz inb p)

/-- The loop's effect at an entry with its eight trips counted out: whatever the running sum held when the loop was
    entered (G) and whatever the trips' stores are written over (f), afterwards entry (s, col) is G's entry plus the
    head's contribution there. -/
theorem loop_at_eight (𝒱 : Variants) (c : Dev nD) (bd : Option 𝒱.V) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole)
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (f G : BufTy.Contents (Elt Ideal) arg8.view.ty) (s : Fin 2048) (col : Fin 1024) :
    arg8.view.read (Elt Ideal) (arg8.view.writes (Elt Ideal) f
        (pb_k1_t1 (F := Ideal) 𝒱 c bd i arg2 harg2 arg3 harg3 arg4 harg4 arg5 harg5 arg6 harg6 arg7 harg7 arg8 harg8 X2 X3 X4 X5 G 8)) (ix2 s col)
      = arg8.view.read (Elt Ideal) G (ix2 s col)
        + Step.headAt (arg2.view.read (Elt Ideal) X2) (arg3.view.read (Elt Ideal) X3) (arg4.view.read (Elt Ideal) X4)
            (arg5.view.read (Elt Ideal) X5) s col := by
  have h := Step.loop_at 𝒱 c bd i arg2 harg2 arg3 harg3 arg4 harg4 arg5 harg5 arg6 harg6 arg7 harg7 arg8 harg8 X2 X3 X4 X5 f G s col
  rw [Slabs.trips_eq] at h
  exact h

/-! ## The three cases -/

/-- FIRST head: zero plus the head's contribution. -/
theorem first_apply (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : Reg1.cond1_0 i) (hc1 : ¬Reg1.cond1_1 i) (x0 : Vec Ideal S1x1x2048x64 .bf16) (x1 : Vec Ideal S1x1x2048x64 .bf16) (x2 : Vec Ideal S1x1x2048x64 .bf16) (x3 : Vec Ideal S1x64x1024 .bf16) (x4 : Vec Ideal S1x1024 .f32) (s : Fin 2048) (f : Fin 1024) :
    Reg1.scrFirst c i arg2 harg2 arg3 harg3 arg4 harg4 arg5 harg5 arg6 harg6 arg7 harg7 arg8 harg8 hc0 hc1 x0 x1 x2 x3 x4 (ix2 s f)
      = Ideal.ofBits .f32 0x00000000#32 + Step.headAt x0 x1 x2 x3 s f := by
  unfold Reg1.scrFirst
  -- the trips' stores sit in front of the zero fill: they are written over the filled buffer
  rw [Reg1.runFirst_fst, View.writes_append]
  refine (loop_at_eight Variants.none c none i arg2 harg2 arg3 harg3 arg4 harg4 arg5 harg5 arg6 harg6 arg7 harg7 arg8 harg8 (harg2.unread x0) (harg3.unread x1) (harg4.unread x2) (harg5.unread x3)
    (arg8.view.writes (Elt Ideal) arg8.view.junk (Reg1.zeroPiece (F := Ideal)))
    (arg8.view.writes (Elt Ideal) arg8.view.junk (Reg1.zeroPiece (F := Ideal))) s f).trans ?_
  rw [harg2.read_unread, harg3.read_unread, harg4.read_unread, harg5.read_unread]
  refine congrArg (· + Step.headAt x0 x1 x2 x3 s f) ?_
  -- the filled buffer reads the fill, every entry of which is zero
  exact (congrFun (read_whole_store arg8 arg8.view.junk zeros2 inb_S2048x1024_S2048x1024_0_0 (k1_pay1 (F := Ideal))) (ix2 s f)).trans
    (Pay.fill_apply s f)

/-- A LATER head that is not the last: what the running sum held plus the head's contribution. -/
theorem middle_apply (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬Reg1.cond1_0 i) (hc1 : ¬Reg1.cond1_1 i) (x0 : Vec Ideal S1x1x2048x64 .bf16) (x1 : Vec Ideal S1x1x2048x64 .bf16) (x2 : Vec Ideal S1x1x2048x64 .bf16) (x3 : Vec Ideal S1x64x1024 .bf16) (x4 : Vec Ideal S1x1024 .f32) (xs : Vec Ideal S2048x1024 .f32) (s : Fin 2048) (f : Fin 1024) :
    Reg1.scrMiddle c i arg2 harg2 arg3 harg3 arg4 harg4 arg5 harg5 arg6 harg6 arg7 harg7 arg8 harg8 hc0 hc1 x0 x1 x2 x3 x4 xs (ix2 s f)
      = xs (ix2 s f) + Step.headAt x0 x1 x2 x3 s f := by
  unfold Reg1.scrMiddle
  rw [Reg1.runMiddle_fst]
  refine (loop_at_eight Variants.none c none i arg2 harg2 arg3 harg3 arg4 harg4 arg5 harg5 arg6 harg6 arg7 harg7 arg8 harg8 (harg2.unread x0) (harg3.unread x1) (harg4.unread x2) (harg5.unread x3) arg8.view.junk (harg8.unread xs) s f).trans ?_
  rw [harg2.read_unread, harg3.read_unread, harg4.read_unread, harg5.read_unread]
  rw [harg8.read_unread]

/-- The LAST head, the running sum: as at any later head. -/
theorem last_scr_apply (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬Reg1.cond1_0 i) (hc1 : Reg1.cond1_1 i) (x0 : Vec Ideal S1x1x2048x64 .bf16) (x1 : Vec Ideal S1x1x2048x64 .bf16) (x2 : Vec Ideal S1x1x2048x64 .bf16) (x3 : Vec Ideal S1x64x1024 .bf16) (x4 : Vec Ideal S1x1024 .f32) (xs : Vec Ideal S2048x1024 .f32) (s : Fin 2048) (f : Fin 1024) :
    Reg1.scrLast c i arg2 harg2 arg3 harg3 arg4 harg4 arg5 harg5 arg6 harg6 arg7 harg7 arg8 harg8 hc0 hc1 x0 x1 x2 x3 x4 xs (ix2 s f)
      = xs (ix2 s f) + Step.headAt x0 x1 x2 x3 s f := by
  unfold Reg1.scrLast
  rw [Reg1.runLast_snd]
  refine (loop_at_eight Variants.none c none i arg2 harg2 arg3 harg3 arg4 harg4 arg5 harg5 arg6 harg6 arg7 harg7 arg8 harg8 (harg2.unread x0) (harg3.unread x1) (harg4.unread x2) (harg5.unread x3) arg8.view.junk (harg8.unread xs) s f).trans ?_
  rw [harg2.read_unread, harg3.read_unread, harg4.read_unread, harg5.read_unread]
  rw [harg8.read_unread]

/-- The LAST head, the output block: the running sum after the head's contribution, plus entry f of the bias row. -/
theorem last_out_apply (c : Dev nD) (i : grid1.Coords) (arg2 : Memref sig .tc .vmem S1x1x2048x64 .bf16) (harg2 : arg2.IsWhole) (arg3 : Memref sig .tc .vmem S1x1x2048x64 .bf16) (harg3 : arg3.IsWhole) (arg4 : Memref sig .tc .vmem S1x1x2048x64 .bf16) (harg4 : arg4.IsWhole) (arg5 : Memref sig .tc .vmem S1x64x1024 .bf16) (harg5 : arg5.IsWhole) (arg6 : Memref sig .tc .vmem S1x1024 .f32) (harg6 : arg6.IsWhole) (arg7 : Memref sig .tc .vmem S1x2048x1024 .f32) (harg7 : arg7.IsWhole) (arg8 : Memref sig .tc .vmem S2048x1024 .f32) (harg8 : arg8.IsWhole) (hc0 : ¬Reg1.cond1_0 i) (hc1 : Reg1.cond1_1 i) (x0 : Vec Ideal S1x1x2048x64 .bf16) (x1 : Vec Ideal S1x1x2048x64 .bf16) (x2 : Vec Ideal S1x1x2048x64 .bf16) (x3 : Vec Ideal S1x64x1024 .bf16) (x4 : Vec Ideal S1x1024 .f32) (xs : Vec Ideal S2048x1024 .f32) (s : Fin 2048) (f : Fin 1024) :
    Reg1.outLast c i arg2 harg2 arg3 harg3 arg4 harg4 arg5 harg5 arg6 harg6 arg7 harg7 arg8 harg8 hc0 hc1 x0 x1 x2 x3 x4 xs (ix3 (0 : Fin 1) s f)
      = (xs (ix2 s f) + Step.headAt x0 x1 x2 x3 s f) + x4 (ix2 (0 : Fin 1) f) := by
  unfold Reg1.outLast
  rw [Reg1.runLast_fst]
  -- the block's one store is whole, so the block reads the stored value: the loaded running sum plus the loaded bias row
  refine (congrFun (read_whole_store arg7 arg7.view.junk Step.zeros3 inb_S1x2048x1024_S1x2048x1024_0_0_0 _) (ix3 (0 : Fin 1) s f)).trans ?_
  refine (Pay.last_apply _ _ s f).trans ?_
  refine congrArg₂ (· + ·) ?_ ?_
  · -- the running sum loaded whole after the loop: the loop's effect over what the point found
    rw [View.readAt_eq_ld, View.ld_unit_zero (S := S2048x1024) zeros2]
    refine (loop_at_eight Variants.none c none i arg2 harg2 arg3 harg3 arg4 harg4 arg5 harg5 arg6 harg6 arg7 harg7 arg8 harg8 (harg2.unread x0) (harg3.unread x1) (harg4.unread x2) (harg5.unread x3) (harg8.unread xs) (harg8.unread xs) s f).trans ?_
    rw [harg2.read_unread, harg3.read_unread, harg4.read_unread, harg5.read_unread]
    rw [harg8.read_unread]
  · -- the bias row loaded whole
    rw [View.readAt_eq_ld, View.ld_unit_zero (S := S1x1024) zeros2, harg6.read_unread]

end Cert.KernelIdeal.Cases

end
-- ==== Proof.V.AttnBlocks.lean ====
/-
  The attention region's blocks in their arrays, at the exact extended reals.

  The grid's point t stands for batch t / 16 and head t % 16. There the query, key and value windows hold the [2048, 64] matrix
  of that batch and head, the out-projection window holds the head's [64, 1024] slice, the bias window holds the bias row,
  and the output window's block is the batch's [2048, 1024] matrix.
-/
import proofs.«120176_j20856361190136_2_alg».proof.Proof.Gen.KernelIdeal.Launch
import proofs.«120176_j20856361190136_2_alg».proof.Proof.Gen.KernelIdeal.Points
import Idealize.ShloMosaic.Lib.ValueIdx
import Idealize.ShloMosaic.Lib.Pipeline.Value

set_option maxRecDepth 16384

noncomputable section

namespace Cert.KernelIdeal.AttnBlocks

open Cert.KernelIdeal Cert.KernelIdeal.Gen Idealize.ShloMosaic Idealize.ShloMosaic.TcCoe Idealize.SL.Sem
open Idealize.ShloMosaic.ValueIdx

/-- Each window's block index at each of the 64 points, decided over the grid. -/
theorem block_indices : ∀ t : Fin cfg1.N,
    (win1_0.index t (0 : Fin 4) = t.val / 16 ∧ win1_0.index t (1 : Fin 4) = t.val % 16 ∧ win1_0.index t (2 : Fin 4) = 0 ∧ win1_0.index t (3 : Fin 4) = 0)
    ∧ (win1_1.index t (0 : Fin 4) = t.val / 16 ∧ win1_1.index t (1 : Fin 4) = t.val % 16 ∧ win1_1.index t (2 : Fin 4) = 0 ∧ win1_1.index t (3 : Fin 4) = 0)
    ∧ (win1_2.index t (0 : Fin 4) = t.val / 16 ∧ win1_2.index t (1 : Fin 4) = t.val % 16 ∧ win1_2.index t (2 : Fin 4) = 0 ∧ win1_2.index t (3 : Fin 4) = 0)
    ∧ (win1_3.index t (0 : Fin 3) = t.val % 16 ∧ win1_3.index t (1 : Fin 3) = 0 ∧ win1_3.index t (2 : Fin 3) = 0)
    ∧ (win1_4.index t (0 : Fin 2) = 0 ∧ win1_4.index t (1 : Fin 2) = 0)
    ∧ (win1_5.index t (0 : Fin 3) = t.val / 16 ∧ win1_5.index t (1 : Fin 3) = 0 ∧ win1_5.index t (2 : Fin 3) = 0) :=
  (by decide +kernel : ∀ t : Fin grid1.N, _)

/-- Row s, lane d of the query window's block at point t is the queries' entry (t / 16, t % 16, s, d). -/
theorem query_block_apply (A : S4x16x2048x64.Idx → EReal) (t : Fin cfg1.N) (s : Fin 2048) (d : Fin 64) (B : Fin 4) (H : Fin 16)
    (hB : B.val = t.val / 16) (hH : H.val = t.val % 16) :
    A (((cfg1.win 0).blk t).view.emb (ix4 (0 : Fin 1) (0 : Fin 1) s d)) = A (ix4 B H s d) := by
  obtain ⟨⟨e0, e1, e2, e3⟩, -⟩ := block_indices t
  refine congrArg A (funext fun a => Fin.ext ?_)
  match a with
  | ⟨0, _⟩ => show win1_0.index t (0 : Fin 4) * 1 + 1 * 0 = B.val; rw [e0, hB]; omega
  | ⟨1, _⟩ => show win1_0.index t (1 : Fin 4) * 1 + 1 * 0 = H.val; rw [e1, hH]; omega
  | ⟨2, _⟩ => show win1_0.index t (2 : Fin 4) * 2048 + 1 * s.val = s.val; rw [e2]; omega
  | ⟨3, _⟩ => show win1_0.index t (3 : Fin 4) * 64 + 1 * d.val = d.val; rw [e3]; omega

/-- The key window's block, likewise. -/
theorem key_block_apply (A : S4x16x2048x64.Idx → EReal) (t : Fin cfg1.N) (s : Fin 2048) (d : Fin 64) (B : Fin 4) (H : Fin 16)
    (hB : B.val = t.val / 16) (hH : H.val = t.val % 16) :
    A (((cfg1.win 1).blk t).view.emb (ix4 (0 : Fin 1) (0 : Fin 1) s d)) = A (ix4 B H s d) := by
  obtain ⟨-, ⟨e0, e1, e2, e3⟩, -⟩ := block_indices t
  refine congrArg A (funext fun a => Fin.ext ?_)
  match a with
  | ⟨0, _⟩ => show win1_1.index t (0 : Fin 4) * 1 + 1 * 0 = B.val; rw [e0, hB]; omega
  | ⟨1, _⟩ => show win1_1.index t (1 : Fin 4) * 1 + 1 * 0 = H.val; rw [e1, hH]; omega
  | ⟨2, _⟩ => show win1_1.index t (2 : Fin 4) * 2048 + 1 * s.val = s.val; rw [e2]; omega
  | ⟨3, _⟩ => show win1_1.index t (3 : Fin 4) * 64 + 1 * d.val = d.val; rw [e3]; omega

/-- The value window's block, likewise. -/
theorem value_block_apply (A : S4x16x2048x64.Idx → EReal) (t : Fin cfg1.N) (s : Fin 2048) (d : Fin 64) (B : Fin 4) (H : Fin 16)
    (hB : B.val = t.val / 16) (hH : H.val = t.val % 16) :
    A (((cfg1.win 2).blk t).view.emb (ix4 (0 : Fin 1) (0 : Fin 1) s d)) = A (ix4 B H s d) := by
  obtain ⟨-, -, ⟨e0, e1, e2, e3⟩, -⟩ := block_indices t
  refine congrArg A (funext fun a => Fin.ext ?_)
  match a with
  | ⟨0, _⟩ => show win1_2.index t (0 : Fin 4) * 1 + 1 * 0 = B.val; rw [e0, hB]; omega
  | ⟨1, _⟩ => show win1_2.index t (1 : Fin 4) * 1 + 1 * 0 = H.val; rw [e1, hH]; omega
  | ⟨2, _⟩ => show win1_2.index t (2 : Fin 4) * 2048 + 1 * s.val = s.val; rw [e2]; omega
  | ⟨3, _⟩ => show win1_2.index t (3 : Fin 4) * 64 + 1 * d.val = d.val; rw [e3]; omega

/-- Lane d, feature f of the out-projection window's block at point t is the slice of head t % 16. -/
theorem outproj_block_apply (A : S16x64x1024.Idx → EReal) (t : Fin cfg1.N) (d : Fin 64) (f : Fin 1024) (H : Fin 16) (hH : H.val = t.val % 16) :
    A (((cfg1.win 3).blk t).view.emb (ix3 (0 : Fin 1) d f)) = A (ix3 H d f) := by
  obtain ⟨-, -, -, ⟨e0, e1, e2⟩, -⟩ := block_indices t
  refine congrArg A (funext fun a => Fin.ext ?_)
  match a with
  | ⟨0, _⟩ => show win1_3.index t (0 : Fin 3) * 1 + 1 * 0 = H.val; rw [e0, hH]; omega
  | ⟨1, _⟩ => show win1_3.index t (1 : Fin 3) * 64 + 1 * d.val = d.val; rw [e1]; omega
  | ⟨2, _⟩ => show win1_3.index t (2 : Fin 3) * 1024 + 1 * f.val = f.val; rw [e2]; omega

/-- The bias window's one block is the bias row. -/
theorem bias_block_apply (A : S1x1024.Idx → EReal) (t : Fin cfg1.N) (f : Fin 1024) :
    A (((cfg1.win 4).blk t).view.emb (ix2 (0 : Fin 1) f)) = A (ix2 (0 : Fin 1) f) := by
  obtain ⟨-, -, -, -, ⟨e0, e1⟩, -⟩ := block_indices t
  refine congrArg A (funext fun a => Fin.ext ?_)
  match a with
  | ⟨0, _⟩ => show win1_4.index t (0 : Fin 2) * 1 + 1 * 0 = 0; rw [e0]
  | ⟨1, _⟩ => show win1_4.index t (1 : Fin 2) * 1024 + 1 * f.val = f.val; rw [e1]; omega

/-- Row s, feature f of the output window's block at point t is the result's entry (t / 16, s, f). -/
theorem out_block_emb (t : Fin cfg1.N) (s : Fin 2048) (f : Fin 1024) (B : Fin 4) (hB : B.val = t.val / 16) :
    ((cfg1.win 5).blk t).view.emb (ix3 (0 : Fin 1) s f) = (ix3 B s f : S4x2048x1024.Idx) := by
  obtain ⟨-, -, -, -, -, ⟨e0, e1, e2⟩⟩ := block_indices t
  refine funext fun a => Fin.ext ?_
  match a with
  | ⟨0, _⟩ => show win1_5.index t (0 : Fin 3) * 1 + 1 * 0 = B.val; rw [e0, hB]; omega
  | ⟨1, _⟩ => show win1_5.index t (1 : Fin 3) * 2048 + 1 * s.val = s.val; rw [e1]; omega
  | ⟨2, _⟩ => show win1_5.index t (2 : Fin 3) * 1024 + 1 * f.val = f.val; rw [e2]; omega

end Cert.KernelIdeal.AttnBlocks

end
-- ==== Proof.M.Laws.lean ====
/-
  Small laws on the extended reals, each for EVERY extended real (no finiteness is assumed), that join a tiled
  arrangement of attention to the index-by-index function of Proof/M/Spec.lean:
  the product with one eighth is the quotient by the square root of sixty-four; the maximum with minus infinity is the
  identity; terms added one at a time from zero are their sum; a sum over 1024 features is the sum over 16 heads of the
  sums over the 64 coordinates of each head.
-/
import Idealize.ShloMosaic.PureOps.Ideal
import Idealize.ShloMosaic.PureOps.Ideal.Laws

noncomputable section

namespace Cert.Attn

open Idealize.ShloMosaic
open scoped BigOperators

/-! ## One eighth and the square root of sixty-four -/

/-- The word 0x42800000 is sixty-four. -/
theorem ofBits_sixtyFour : Ideal.ofBits .f32 0x42800000#32 = ((64 : ℝ) : EReal) := by
  simp [Ideal.ofBits, Ideal.ieee, -EReal.coe_mul]; norm_num

/-- The word 0x3E000000 is one eighth. -/
theorem ofBits_eighth : Ideal.ofBits .f32 0x3E000000#32 = ((1 / 8 : ℝ) : EReal) := by
  simp [Ideal.ofBits, Ideal.ieee, -EReal.coe_mul]; norm_num

/-- The square root of sixty-four is eight, exactly. -/
theorem sqrt_sixtyFour : Ideal.sqrt (Ideal.ofBits .f32 0x42800000#32) = ((8 : ℝ) : EReal) := by
  rw [ofBits_sixtyFour, Ideal.sqrt_coe, if_neg (by norm_num)]
  refine congrArg (fun r : ℝ => (r : EReal)) ?_
  rw [show (64 : ℝ) = 8 ^ 2 by norm_num, Real.sqrt_sq (by norm_num)]

/-- Scaling by one eighth is dividing by the square root of sixty-four, at every extended real (the infinities
    included: eight is a nonzero real, and the quotient by it is by definition the product with its inverse). -/
theorem mul_eighth_eq_div_sqrt (x : EReal) :
    x * Ideal.ofBits .f32 0x3E000000#32 = Ideal.div x (Ideal.sqrt (Ideal.ofBits .f32 0x42800000#32)) := by
  rw [sqrt_sixtyFour, Ideal.div_coe (by norm_num : (8 : ℝ) ≠ 0), ofBits_eighth]

/-! ## Minus infinity under a maximum -/

/-- The word 0xFF800000 is minus infinity. -/
theorem ofBits_negInf : Ideal.ofBits .f32 0xFF800000#32 = (⊥ : EReal) := by
  simp [Ideal.ofBits, Ideal.ieee]

/-- The maximum with minus infinity on the left is the identity. -/
theorem max_negInf_left (x : EReal) : max (Ideal.ofBits .f32 0xFF800000#32) x = x := by
  rw [ofBits_negInf]; exact max_eq_right bot_le

/-- The same on the right. -/
theorem max_negInf_right (x : EReal) : max x (Ideal.ofBits .f32 0xFF800000#32) = x := by
  rw [ofBits_negInf]; exact max_eq_left bot_le

/-! ## Sums taken in parts -/

/-- Terms added one at a time, starting from zero, are their sum: if `acc 0 = 0` and `acc (n + 1) = acc n + c n` for
    the `N` terms, then `acc N` is the sum of the terms. Only commutativity and associativity of the sum are used. -/
theorem acc_eq_sum {M : Type*} [AddCommMonoid M] {N : ℕ} (c : Fin N → M) (acc : ℕ → M) (h0 : acc 0 = 0)
    (hs : ∀ n : Fin N, acc (n.val + 1) = acc n.val + c n) : acc N = ∑ h : Fin N, c h := by
  induction N with
  | zero => simpa using h0
  | succ N ih =>
    rw [Fin.sum_univ_castSucc, ← ih (fun h => c h.castSucc) (fun n => hs n.castSucc)]
    exact hs (Fin.last N)

/-- The sixteen-term case over the extended reals, the start being the zero word. -/
theorem acc16_eq_sum (c : Fin 16 → EReal) (acc : ℕ → EReal) (h0 : acc 0 = Ideal.ofBits .f32 0x00000000#32)
    (hs : ∀ n : Fin 16, acc (n.val + 1) = acc n.val + c n) : acc 16 = ∑ h : Fin 16, c h :=
  acc_eq_sum c acc (h0.trans Ideal.ofBits_zero_f32) hs

/-- A sum over the 1024 features is the sum over the 16 heads of the sums over each head's 64 coordinates:
    feature `h * 64 + d` is coordinate `d` of head `h`. -/
theorem sum_heads {M : Type*} [AddCommMonoid M] (f : Fin 1024 → M) :
    ∑ h : Fin 16, ∑ d : Fin 64, f ⟨h.val * 64 + d.val, by have := h.isLt; have := d.isLt; omega⟩ = ∑ e : Fin 1024, f e := by
  rw [← Fintype.sum_prod_type']
  refine Fintype.sum_equiv (finProdFinEquiv (m := 16) (n := 64)) _ _ (fun p => congrArg f (Fin.ext ?_))
  show p.1.val * 64 + p.2.val = p.2.val + 64 * p.1.val
  omega

end Cert.Attn

end
-- ==== Proof.M.SpecLaws.lean ====
/-
  The specification of Proof/M/Spec.lean restated head by head: feature h * 64 + d of the concatenated context is
  coordinate d of head h, so the output projection is the sum over the sixteen heads of each head's context against its
  64 rows of the transposed output weight; and the softmax denominator, started from the zero word, is the plain sum.
-/
import proofs.«120176_j20856361190136_2_alg».proof.Proof.M.Spec
import proofs.«120176_j20856361190136_2_alg».proof.Proof.M.Laws

noncomputable section

namespace Cert.Attn

open Idealize.ShloMosaic Idealize.ShloMosaic.ValueIdx
open scoped BigOperators

/-- Feature `h * 64 + d` of the concatenated context. -/
def feat (h : Fin 16) (d : Fin 64) : Fin 1024 := ⟨h.val * 64 + d.val, by have := h.isLt; have := d.isLt; omega⟩

theorem headOf_feat (h : Fin 16) (d : Fin 64) : headOf (feat h d) = h :=
  Fin.ext (by have := d.isLt; show (h.val * 64 + d.val) / 64 = h.val; omega)
theorem laneOf_feat (h : Fin 16) (d : Fin 64) : laneOf (feat h d) = d :=
  Fin.ext (by have := d.isLt; show (h.val * 64 + d.val) % 64 = d.val; omega)

section
variable (X : (⟨3, ![4, 2048, 1024]⟩ : Shape).Idx → EReal) (Win : (⟨2, ![3072, 1024]⟩ : Shape).Idx → EReal)
  (bin : (⟨1, ![3072]⟩ : Shape).Idx → EReal) (Wout : (⟨2, ![1024, 1024]⟩ : Shape).Idx → EReal)
  (bout : (⟨1, ![1024]⟩ : Shape).Idx → EReal)

/-- The softmax denominator is the sum of the exponentials: the zero word it starts from is zero. -/
theorem mass_eq_sum (b : Fin 4) (h : Fin 16) (s : Fin 2048) :
    mass X Win bin b h s = ∑ t : Fin 2048, w X Win bin b h s t := by
  unfold mass; rw [Ideal.ofBits_zero_f32, zero_add]

/-- The output projection, head by head. -/
theorem out_eq_heads (b : Fin 4) (s : Fin 2048) (f : Fin 1024) :
    out X Win bin Wout bout b s f
      = (∑ h : Fin 16, ∑ d : Fin 64, ctx X Win bin b h s d * Wout (ix2 f (feat h d))) + bout (ix1 f) := by
  unfold out
  rw [← sum_heads (fun e => ctx X Win bin b (headOf e) s (laneOf e) * Wout (ix2 f e))]
  refine congrArg (· + bout (ix1 f)) (Finset.sum_congr rfl fun h _ => Finset.sum_congr rfl fun d _ => ?_)
  show ctx X Win bin b (headOf (feat h d)) s (laneOf (feat h d)) * Wout (ix2 f (feat h d)) = _
  rw [headOf_feat, laneOf_feat]

end

end Cert.Attn

end
-- ==== Proof.V.KernelForm.lean ====
/-
  The kernel's arrangement of the computation, and that it is the specification.

  The kernel works head by head over arrays already cut into heads: for batch b and head h it scores query s against key t as
  the inner product times one eighth, softmaxes each row, mixes the values, multiplies by the head's slice of the
  out-projection, and ADDS the result into an accumulator that starts at zero at head 0; after head 15 it adds the bias. The
  specification divides the inner product by the square root of 64, and contracts all 1024 features of the concatenated heads
  at once. The two agree on every extended real: x · (1/8) = x / √64; a sum accumulated head after head from zero is the
  sum over the heads; the 1024 features are the 16 heads' 64 lanes side by side.
-/
import proofs.«120176_j20856361190136_2_alg».proof.Proof.M.Spec
import proofs.«120176_j20856361190136_2_alg».proof.Proof.M.Laws
import proofs.«120176_j20856361190136_2_alg».proof.Proof.M.SpecLaws

noncomputable section

namespace Cert.Attn

open Idealize.ShloMosaic Idealize.ShloMosaic.ValueIdx
open scoped BigOperators

section
variable (Aq Ak Av : (⟨4, ![4, 16, 2048, 64]⟩ : Shape).Idx → EReal) (Aow : (⟨3, ![16, 64, 1024]⟩ : Shape).Idx → EReal)
  (Aob : (⟨2, ![1, 1024]⟩ : Shape).Idx → EReal)

/-- Query s against key t of head h: the inner product times one eighth. -/
def kScore (b : Fin 4) (h : Fin 16) (s t : Fin 2048) : EReal :=
  (∑ d : Fin 64, Aq (ix4 b h s d) * Ak (ix4 b h t d)) * Ideal.ofBits .f32 0x3E000000#32
def kPeak (b : Fin 4) (h : Fin 16) (s : Fin 2048) : EReal :=
  (Finset.univ : Finset (Fin 2048)).fold max (Ideal.ofBits .f32 0xFF800000#32) (fun t => kScore Aq Ak b h s t)
def kW (b : Fin 4) (h : Fin 16) (s t : Fin 2048) : EReal := Ideal.exp (kScore Aq Ak b h s t - kPeak Aq Ak b h s)
def kMass (b : Fin 4) (h : Fin 16) (s : Fin 2048) : EReal := Ideal.ofBits .f32 0x00000000#32 + ∑ t : Fin 2048, kW Aq Ak b h s t
/-- The softmax-weighted mix of head h's values. -/
def kMix (b : Fin 4) (h : Fin 16) (s : Fin 2048) (d : Fin 64) : EReal :=
  ∑ t : Fin 2048, Ideal.div (kW Aq Ak b h s t) (kMass Aq Ak b h s) * Av (ix4 b h t d)
/-- Head h's contribution to output feature f. -/
def kHead (b : Fin 4) (h : Fin 16) (s : Fin 2048) (f : Fin 1024) : EReal := ∑ d : Fin 64, kMix Aq Ak Av b h s d * Aow (ix3 h d f)
/-- The accumulator after the first n heads: zero, then one head added at a time. -/
def kAcc (b : Fin 4) (s : Fin 2048) (f : Fin 1024) : ℕ → EReal
  | 0 => Ideal.ofBits .f32 0x00000000#32
  | n + 1 => kAcc b s f n + (if h : n < 16 then kHead Aq Ak Av Aow b ⟨n, h⟩ s f else 0)
/-- What the kernel writes: the accumulator after all sixteen heads, plus the bias. -/
def kOut (b : Fin 4) (s : Fin 2048) (f : Fin 1024) : EReal := kAcc Aq Ak Av Aow b s f 16 + Aob (ix2 (0 : Fin 1) f)

variable (X : (⟨3, ![4, 2048, 1024]⟩ : Shape).Idx → EReal) (Win : (⟨2, ![3072, 1024]⟩ : Shape).Idx → EReal)
  (bin : (⟨1, ![3072]⟩ : Shape).Idx → EReal) (Wout : (⟨2, ![1024, 1024]⟩ : Shape).Idx → EReal) (bout : (⟨1, ![1024]⟩ : Shape).Idx → EReal)

/-- When the heads' arrays are the projection cut into heads, the out-projection's slices the transposed weight's, and the bias
    row the bias: the kernel's arrangement is the specification. -/
theorem kOut_eq_out
    (hq : ∀ b h s d, Aq (ix4 b h s d) = qh X Win bin b h s d) (hk : ∀ b h s d, Ak (ix4 b h s d) = kh X Win bin b h s d)
    (hv : ∀ b h s d, Av (ix4 b h s d) = vh X Win bin b h s d) (how : ∀ h d f, Aow (ix3 h d f) = Wout (ix2 f (feat h d)))
    (hob : ∀ f, Aob (ix2 (0 : Fin 1) f) = bout (ix1 f)) (b : Fin 4) (s : Fin 2048) (f : Fin 1024) :
    kOut Aq Ak Av Aow Aob b s f = out X Win bin Wout bout b s f := by
  have hscore : ∀ h s t, kScore Aq Ak b h s t = score X Win bin b h s t := fun h s t => by
    unfold kScore score
    rw [mul_eighth_eq_div_sqrt]
    exact congrArg (fun z => Ideal.div z _) (Finset.sum_congr rfl fun d _ => by rw [hq, hk])
  have hpeak : ∀ h s, kPeak Aq Ak b h s = peak X Win bin b h s := fun h s => by
    unfold kPeak peak
    rw [show (fun t => kScore Aq Ak b h s t) = fun t => score X Win bin b h s t from funext fun t => hscore h s t]
  have hw : ∀ h s t, kW Aq Ak b h s t = w X Win bin b h s t := fun h s t => by
    unfold kW w; rw [hscore, hpeak]
  have hmass : ∀ h s, kMass Aq Ak b h s = mass X Win bin b h s := fun h s => by
    unfold kMass mass
    rw [Finset.sum_congr rfl fun t _ => hw h s t]
  have hmix : ∀ h s d, kMix Aq Ak Av b h s d = ctx X Win bin b h s d := fun h s d => by
    unfold kMix ctx attn
    exact Finset.sum_congr rfl fun t _ => by rw [hw, hmass, hv]
  have hhead : ∀ h : Fin 16, kHead Aq Ak Av Aow b h s f = ∑ d : Fin 64, ctx X Win bin b h s d * Wout (ix2 f (feat h d)) := fun h => by
    unfold kHead; exact Finset.sum_congr rfl fun d _ => by rw [hmix, how]
  have hacc : kAcc Aq Ak Av Aow b s f 16 = ∑ h : Fin 16, kHead Aq Ak Av Aow b h s f :=
    acc16_eq_sum (fun h => kHead Aq Ak Av Aow b h s f) (kAcc Aq Ak Av Aow b s f) rfl (fun n => by
      show kAcc Aq Ak Av Aow b s f n.val + (if h : n.val < 16 then kHead Aq Ak Av Aow b ⟨n.val, h⟩ s f else 0) = _
      rw [dif_pos n.isLt])
  unfold kOut
  rw [hacc, out_eq_heads, hob]
  exact congrArg (· + bout (ix1 f)) (Finset.sum_congr rfl fun h _ => hhead h)

end

end Cert.Attn

end
-- ==== Proof.V.AttnValue.lean ====
/-
  The attention region's result array, at the exact extended reals.

  Point t of the grid is head t % 16 of batch t / 16. The accumulator is zeroed at head 0 and every head adds its contribution,
  so after head h it holds the sum of the contributions of heads 0 … h, accumulated from zero one head at a time; at head 15
  the output block of the batch is stored as the accumulator plus the bias and written back. The four batches' blocks cover
  the result array. Hence the array ends at the kernel's arrangement `kOut` of the heads' arrays as the region found them.
-/
import proofs.«120176_j20856361190136_2_alg».proof.Proof.I.Region1
import proofs.«120176_j20856361190136_2_alg».proof.Proof.V.Cases
import proofs.«120176_j20856361190136_2_alg».proof.Proof.V.AttnBlocks
import proofs.«120176_j20856361190136_2_alg».proof.Proof.V.KernelForm
import proofs.«120176_j20856361190136_2_alg».proof.Proof.V.PointStep

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.Pipeline (Dat)
open Idealize.ShloMosaic.ValueIdx
open Cert.Attn
open scoped BigOperators

/-! ## The accumulator, one head at a time -/

section
variable (Aq Ak Av : S4x16x2048x64.Idx → EReal) (Aow : S16x64x1024.Idx → EReal) (Aob : S1x1024.Idx → EReal)

theorem kAcc_succ (b : Fin 4) (s : Fin 2048) (f : Fin 1024) (n : ℕ) (h : n < 16) :
    kAcc Aq Ak Av Aow b s f (n + 1) = kAcc Aq Ak Av Aow b s f n + kHead Aq Ak Av Aow b ⟨n, h⟩ s f := by
  show kAcc Aq Ak Av Aow b s f n + (if h' : n < 16 then kHead Aq Ak Av Aow b ⟨n, h'⟩ s f else 0) = _
  rw [dif_pos h]

/-- A head's mix over a point's blocks is the mix over the heads' arrays at that batch and head. -/
theorem rowMix_eq_kMix (xq xk xv : S1x1x2048x64.Idx → EReal) (B : Fin 4) (H : Fin 16)
    (hq : ∀ s d, xq (ix4 (0 : Fin 1) (0 : Fin 1) s d) = Aq (ix4 B H s d)) (hk : ∀ s d, xk (ix4 (0 : Fin 1) (0 : Fin 1) s d) = Ak (ix4 B H s d))
    (hv : ∀ s d, xv (ix4 (0 : Fin 1) (0 : Fin 1) s d) = Av (ix4 B H s d)) (s : Fin 2048) (d : Fin 64) :
    Step.rowMix xq xk xv s d = kMix Aq Ak Av B H s d := by
  have hsc : ∀ t, Step.rowScore xq xk s t = kScore Aq Ak B H s t := fun t => by
    unfold Step.rowScore kScore
    rw [Finset.sum_congr rfl fun d _ => by rw [hq, hk]]
  have hpk : Step.rowPeak xq xk s = kPeak Aq Ak B H s := by
    unfold Step.rowPeak kPeak
    rw [show (fun t => Step.rowScore xq xk s t) = fun t => kScore Aq Ak B H s t from funext hsc]
  have hw : ∀ t, Step.rowW xq xk s t = kW Aq Ak B H s t := fun t => by unfold Step.rowW kW; rw [hsc, hpk]
  have hm : Step.rowMass xq xk s = kMass Aq Ak B H s := by
    unfold Step.rowMass kMass; rw [Finset.sum_congr rfl fun t _ => hw t]
  unfold Step.rowMix kMix
  exact Finset.sum_congr rfl fun t _ => by rw [hw, hm, hv]

end

/-! ## The region, point by point -/

section
variable (V : (c : Dev nD) → (b : Ref sig .tc) → Buf (Elt Ideal) ((c : Thread nD τ).loc b)) (c : Dev nD)

local notation "Aq" => (V c main_v11 : S4x16x2048x64.Idx → EReal)
local notation "Ak" => (V c main_v13 : S4x16x2048x64.Idx → EReal)
local notation "Av" => (V c main_v15 : S4x16x2048x64.Idx → EReal)
local notation "Aow" => (V c main_v18 : S16x64x1024.Idx → EReal)
local notation "Aob" => (V c main_v19 : S1x1024.Idx → EReal)

/-- The head's contribution computed from point t's blocks is head t % 16's contribution for batch t / 16. -/
theorem head_at_point (t : Fin cfg1.N) (B : Fin 4) (H : Fin 16) (hB : B.val = t.val / 16) (hH : H.val = t.val % 16) (s : Fin 2048) (f : Fin 1024) :
    Step.headAt (Reg1.blk1 V c 0 t) (Reg1.blk1 V c 1 t) (Reg1.blk1 V c 2 t) (Reg1.blk1 V c 3 t) s f = kHead Aq Ak Av Aow B H s f := by
  unfold Step.headAt kHead
  refine Finset.sum_congr rfl fun d _ => congrArg₂ (· * ·) ?_ ?_
  · exact rowMix_eq_kMix Aq Ak Av _ _ _ B H
      (fun s d => AttnBlocks.query_block_apply Aq t s d B H hB hH)
      (fun s d => AttnBlocks.key_block_apply Ak t s d B H hB hH)
      (fun s d => AttnBlocks.value_block_apply Av t s d B H hB hH) s d
  · exact AttnBlocks.outproj_block_apply Aow t d f H hH

/-- After the body at position n the accumulator holds the contributions of heads 0 … n % 16 of batch n / 16, accumulated from
    zero. -/
theorem scr_after : ∀ (n : ℕ) (hn : n < cfg1.N) (B : Fin 4) (hB : B.val = n / 16) (s : Fin 2048) (f : Fin 1024),
    (Reg1.heldAt V c n hn).2 (ix2 s f) = kAcc Aq Ak Av Aow B s f (n % 16 + 1) := by
  intro n
  induction n with
  | zero =>
    intro hn B hB s f
    rw [Reg1.heldAt_first V c ⟨0, hn⟩ (by rfl)]
    dsimp only
    rw [Cases.first_apply, head_at_point V c ⟨0, hn⟩ B ⟨0, by decide⟩ hB rfl s f]
    exact (kAcc_succ Aq Ak Av Aow B s f 0 (by decide)).symm
  | succ n ih =>
    intro hn B hB s f
    have hN : cfg1.N = 64 := N_1
    by_cases h0 : (n + 1) % 16 = 0
    · rw [Reg1.heldAt_first V c ⟨n + 1, hn⟩ h0]
      dsimp only
      rw [Cases.first_apply, head_at_point V c ⟨n + 1, hn⟩ B ⟨0, by decide⟩ hB (by show 0 = (n + 1) % 16; omega) s f, h0]
      exact (kAcc_succ Aq Ak Av Aow B s f 0 (by decide)).symm
    · -- the accumulator as this point finds it is what the point before left, in the same batch
      have hprev : ∀ s f, Reg1.scrBefore V c (n + 1) (Nat.le_of_lt hn) (ix2 s f) = kAcc Aq Ak Av Aow B s f ((n + 1) % 16) := fun s f => by
        rw [Reg1.scrBefore_succ V c n (Nat.lt_of_succ_lt hn), ih (Nat.lt_of_succ_lt hn) B (by omega) s f]
        exact congrArg _ (by omega)
      have hlt : (n + 1) % 16 < 16 := Nat.mod_lt _ (by decide)
      have hstep : kAcc Aq Ak Av Aow B s f ((n + 1) % 16 + 1)
          = kAcc Aq Ak Av Aow B s f ((n + 1) % 16) + kHead Aq Ak Av Aow B ⟨(n + 1) % 16, hlt⟩ s f := kAcc_succ Aq Ak Av Aow B s f _ hlt
      by_cases h1 : (n + 1) % 16 = 15
      · rw [Reg1.heldAt_last V c ⟨n + 1, hn⟩ h0 h1]
        dsimp only
        rw [Cases.last_scr_apply, head_at_point V c ⟨n + 1, hn⟩ B ⟨(n + 1) % 16, hlt⟩ hB rfl s f, hstep]
        exact congrArg (· + _) (hprev s f)
      · rw [Reg1.heldAt_middle V c ⟨n + 1, hn⟩ h0 h1]
        dsimp only
        rw [Cases.middle_apply, head_at_point V c ⟨n + 1, hn⟩ B ⟨(n + 1) % 16, hlt⟩ hB rfl s f, hstep]
        exact congrArg (· + _) (hprev s f)

/-- At head 15 the batch's output block is stored as the accumulator plus the bias: the kernel's arrangement at that batch. -/
theorem out_at_last (t : Fin cfg1.N) (h15 : t.val % 16 = 15) (B : Fin 4) (hB : B.val = t.val / 16) (s : Fin 2048) (f : Fin 1024) :
    (Reg1.heldAt V c t.val t.isLt).1 (ix3 (0 : Fin 1) s f) = kOut Aq Ak Av Aow Aob B s f := by
  have h0 : ¬ t.val % 16 = 0 := by omega
  have hpos : t.val ≠ 0 := by omega
  have hprev : t.val - 1 < cfg1.N := Nat.lt_of_le_of_lt (Nat.sub_le _ _) t.isLt
  -- what this point finds in the accumulator: heads 0 … 14 of the batch
  have hfound : Reg1.scrBefore V c t.val (Nat.le_of_lt t.isLt) (ix2 s f) = kAcc Aq Ak Av Aow B s f 15 := by
    rw [Reg1.scrBefore_pos V c t.val (Nat.le_of_lt t.isLt) hpos, scr_after V c (t.val - 1) hprev B (by omega) s f]
    exact congrArg _ (by omega)
  have hbias : Reg1.blk1 V c 4 t (ix2 (0 : Fin 1) f) = Aob (ix2 (0 : Fin 1) f) := AttnBlocks.bias_block_apply Aob t f
  rw [Reg1.heldAt_last V c t h0 h15]
  dsimp only
  rw [Cases.last_out_apply, head_at_point V c t B ⟨15, by decide⟩ hB (by show 15 = t.val % 16; omega) s f, hfound, hbias]
  unfold kOut
  rw [kAcc_succ Aq Ak Av Aow B s f 15 (by decide)]

/-- The kernel's arrangement as one array. -/
def kArr : S4x2048x1024.Idx → EReal := fun j => kOut Aq Ak Av Aow Aob (j 0 : Fin 4) (j 1 : Fin 2048) (j 2 : Fin 1024)

/-- What a writing-back point writes is its batch's block of that array. -/
theorem flushed_eq (t : Fin cfg1.N) (hf : (cfg1.win 5).flush t = true) :
    (Reg1.dat1 V c).flushed 5 t = ((cfg1.win 5).blk t).view.read (Elt Ideal) (kArr V c) := by
  have h15 : t.val % 16 = 15 := (flush1_5 t).mp hf
  have hN : cfg1.N = 64 := N_1
  have hBlt : t.val / 16 < 4 := by have := t.isLt; omega
  show (cfg1.win 5).cut (grid1.coords t) ((Reg1.dat1 V c).after 5 t) = _
  rw [Reg1.after1_5]
  funext j
  obtain ⟨z, s, f, rfl⟩ : ∃ (z : Fin 1) (s : Fin 2048) (f : Fin 1024), j = ix3 z s f := ⟨j 0, j 1, j 2, eq_ix3 j⟩
  obtain rfl : z = 0 := Subsingleton.elim _ _
  refine (out_at_last V c t h15 ⟨t.val / 16, hBlt⟩ rfl s f).trans ?_
  show _ = kArr V c (((cfg1.win 5).blk t).view.emb (ix3 (0 : Fin 1) s f))
  rw [AttnBlocks.out_block_emb t s f ⟨t.val / 16, hBlt⟩ rfl]
  rfl

/-- An index of the result array is in point t's block when each coordinate is in the block's range on its axis. -/
theorem mem_out_block (t : Fin cfg1.N) (i : S4x2048x1024.Idx) :
    i ∈ ((cfg1.win 5).blk t).view.set ↔ ∀ a : Fin 3, win1_5.index t a * S1x2048x1024.size a ≤ (i a).val ∧ (i a).val < win1_5.index t a * S1x2048x1024.size a + S1x2048x1024.size a := by
  show i ∈ ((View.whole main_v20).slice (win1_5.rect t)).set ↔ _
  rw [View.set_slice_whole, Rect.mem_set_unit]
  exact Iff.rfl

/-- Batch b of the result array lies in the block of point 16·b + 15, which writes back. -/
theorem out_cover (i : S4x2048x1024.Idx) : ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 1024 := (i 2).isLt
  have hN : cfg1.N = 64 := N_1
  have hlt : (i 0).val * 16 + 15 < cfg1.N := by rw [hN]; omega
  refine ⟨⟨(i 0).val * 16 + 15, hlt⟩, (flush1_5 _).mpr (by show ((i 0).val * 16 + 15) % 16 = 15; omega), ?_⟩
  rw [mem_out_block]
  obtain ⟨-, -, -, -, -, ⟨e0, e1, e2⟩⟩ := AttnBlocks.block_indices ⟨(i 0).val * 16 + 15, hlt⟩
  intro a
  match a with
  | ⟨0, _⟩ =>
    show win1_5.index ⟨(i 0).val * 16 + 15, hlt⟩ (0 : Fin 3) * 1 ≤ (i 0).val ∧ (i 0).val < win1_5.index ⟨(i 0).val * 16 + 15, hlt⟩ (0 : Fin 3) * 1 + 1
    rw [e0]; show ((i 0).val * 16 + 15) / 16 * 1 ≤ (i 0).val ∧ (i 0).val < ((i 0).val * 16 + 15) / 16 * 1 + 1; omega
  | ⟨1, _⟩ =>
    show win1_5.index ⟨(i 0).val * 16 + 15, hlt⟩ (1 : Fin 3) * 2048 ≤ (i 1).val ∧ (i 1).val < win1_5.index ⟨(i 0).val * 16 + 15, hlt⟩ (1 : Fin 3) * 2048 + 2048
    rw [e1]; omega
  | ⟨2, _⟩ =>
    show win1_5.index ⟨(i 0).val * 16 + 15, hlt⟩ (2 : Fin 3) * 1024 ≤ (i 2).val ∧ (i 2).val < win1_5.index ⟨(i 0).val * 16 + 15, hlt⟩ (2 : Fin 3) * 1024 + 1024
    rw [e2]; omega

/-- THE REGION'S RESULT: after the region the result array holds the kernel's arrangement of the heads' arrays as the region
    found them. -/
theorem attn_array : (Reg1.dat1 V c).arrAt 5 cfg1.N = kArr V c :=
  (Reg1.dat1 V c).arrAt_eq_of_cover 5 (kArr V c) (fun t hf => flushed_eq V c t hf) (out_cover)

end

end Cert.KernelIdeal.AttnValue

end
-- ==== Proof.I.Region0Value.lean ====
/- Region 0's result as one function of its three operand arrays, at the exact extended reals.

   Row r, column c of the projected array is the inner product of row r of the activations with
   column c of the weight, plus entry c of the bias row:  (x · W + b)[r, c] = ∑ₖ x[r, k] · W[k, c] + b[0, c].
   Grid point t computes rows 512·t … 512·t + 511 of it and writes them back, and the sixteen row
   blocks together cover the array, so after the region the output array holds that function. -/
import proofs.«120176_j20856361190136_2_alg».proof.Proof.I.Region0
import Idealize.ShloMosaic.PureOps.Ideal.Laws
import Idealize.ShloMosaic.Lib.ValueIdx
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The specification -/

/-- The projection x · W + b, entry by entry. -/
def projG (x : S8192x1024.Idx → EReal) (w : S1024x3072.Idx → EReal) (b : S1x3072.Idx → EReal) : S8192x3072.Idx → EReal :=
  fun j => (∑ k : Fin 1024, x (ix2 (j 0 : Fin 8192) k) * w (ix2 k (j 1 : Fin 3072))) + b (ix2 (0 : Fin 1) (j 1 : Fin 3072))

/-- The same at an index given by its two coordinates. -/
theorem projG_ix2 (x : S8192x1024.Idx → EReal) (w : S1024x3072.Idx → EReal) (b : S1x3072.Idx → EReal) (r : Fin 8192) (c : Fin 3072) :
    projG x w b (ix2 r c) = (∑ k : Fin 1024, x (ix2 r k) * w (ix2 k c)) + b (ix2 (0 : Fin 1) c) := rfl

/-! ## One tile, entry by entry -/

/-- The two zero offsets of a whole-buffer access. -/
theorem zeros2 : (![0, 0] : Fin 2 → Nat) = fun _ => 0 := funext fun a => by fin_cases a <;> rfl

/-- The body's matrix product into a zero accumulator, at row r and column c, is the inner product of row r of
    the left factor with column c of the right one: the contraction runs over the one shared axis. -/
theorem matmul_tile_apply (x : FVec Ideal S512x1024 .bf16) (w : FVec Ideal S1024x3072 .bf16) (r : Fin 512) (c : Fin 3072) :
    matmul dot_S512x1024_S1024x3072_S512x3072_1_0_0_1_n_n none x w (constant S512x3072 .f32 0x00000000#32) (ix2 r c)
      = ∑ k : Fin 1024, x (ix2 r k) * w (ix2 k c) := by
  refine (Ideal.matmul_constant_zero_apply dot_S512x1024_S1024x3072_S512x3072_1_0_0_1_n_n none x w (ix2 r c)).trans ?_
  rw [← Equiv.sum_comp (contrEquiv1 dot_S512x1024_S1024x3072_S512x3072_1_0_0_1_n_n 1024 rfl rfl).symm]
  refine Finset.sum_congr rfl fun k _ => ?_
  have ck := contrEquiv1_symm_val dot_S512x1024_S1024x3072_S512x3072_1_0_0_1_n_n 1024 rfl rfl k
  have hl : dot_S512x1024_S1024x3072_S512x3072_1_0_0_1_n_n.lhsIdx (ix2 r c)
      ((contrEquiv1 dot_S512x1024_S1024x3072_S512x3072_1_0_0_1_n_n 1024 rfl rfl).symm k) = ix2 r k := by
    funext ax; apply Fin.ext
    match ax with
    | ⟨0, _⟩ => simp [DotDims.lhsIdx, dot_S512x1024_S1024x3072_S512x3072_1_0_0_1_n_n]; rfl
    | ⟨1, _⟩ => simp [DotDims.lhsIdx, dot_S512x1024_S1024x3072_S512x3072_1_0_0_1_n_n]; exact ck
  have hr : dot_S512x1024_S1024x3072_S512x3072_1_0_0_1_n_n.rhsIdx (ix2 r c)
      ((contrEquiv1 dot_S512x1024_S1024x3072_S512x3072_1_0_0_1_n_n 1024 rfl rfl).symm k) = ix2 k c := by
    funext ax; apply Fin.ext
    match ax with
    | ⟨0, _⟩ => simp [DotDims.rhsIdx, dot_S512x1024_S1024x3072_S512x3072_1_0_0_1_n_n]; exact ck
    | ⟨1, _⟩ => simp [DotDims.rhsIdx, dot_S512x1024_S1024x3072_S512x3072_1_0_0_1_n_n]; rfl
  rw [hl, hr]

/-- Entry (r, c) of the tile the body computes from a block x of activations, the weight w and the bias row b:
    the rounding and the casts of a shape to itself are the identity at the exact values, the bias row is
    repeated down the rows. -/
theorem tile0_apply (x : Vec Ideal S512x1024 .bf16) (w : Vec Ideal S1024x3072 .bf16) (b : Vec Ideal S1x3072 .f32)
    (r : Fin 512) (c : Fin 3072) :
    tile0 x w b (ix2 r c) = (∑ k : Fin 1024, x (ix2 r k) * w (ix2 k c)) + b (ix2 (0 : Fin 1) c) := by
  unfold tile0
  rw [View.canon_unit_zero zeros2]
  simp only [View.ld_unit_zero (S := S512x1024) zeros2, View.ld_unit_zero (S := S1024x3072) zeros2, View.ld_unit_zero (S := S1x3072) zeros2]
  unfold k0_pay1
  rw [shapeCast_self, shapeCast_self, shapeCast_self]
  show matmul (F := Ideal) dot_S512x1024_S1024x3072_S512x3072_1_0_0_1_n_n none x w (constant (F := Ideal) S512x3072 .f32 0x00000000#32) (ix2 r c)
      + broadcastTo S512x3072 b _ (ix2 r c) = _
  refine congrArg₂ (· + ·) (matmul_tile_apply x w r c) ?_
  exact broadcastTo_apply b _ (ix2 r c) (ix2 (0 : Fin 1) c) (fun a => by
    match a with
    | ⟨0, _⟩ => rfl
    | ⟨1, _⟩ => rfl)

/-! ## The blocks in their arrays -/

-- the contents of the TensorCore's buffers when the region is entered
variable (V : (c : Dev nD) → (b : Ref sig .tc) → Buf (Elt Ideal) ((c : Thread nD τ).loc b))

/-- The block index of each window at each of the sixteen points, decided over the grid: the activations and the
    output move down one block of rows per point, the weight and the bias stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the activations' block at point t is row 512·t + r of the activations. -/
theorem activations_block_apply (c : Dev nD) (t : Fin cfg0.N) (r : Fin 512) (k : Fin 1024) (R : Fin 8192)
    (hR : R.val = t.val * 512 + r.val) :
    (blk0 V c 0 t : Vec Ideal S512x1024 .bf16) (ix2 r k) = (V c main_v1 : S8192x1024.Idx → EReal) (ix2 R k) := by
  obtain ⟨e0, e1, -⟩ := block_indices t
  show (V c main_v1 : S8192x1024.Idx → EReal) (((cfg0.win 0).blk t).view.emb (ix2 r k)) = _
  refine congrArg (V c main_v1 : S8192x1024.Idx → EReal) (funext fun a => Fin.ext ?_)
  match a with
  | ⟨0, _⟩ => show win0_0.index t (0 : Fin 2) * 512 + 1 * r.val = R.val; rw [e0, hR]; omega
  | ⟨1, _⟩ => show win0_0.index t (1 : Fin 2) * 1024 + 1 * k.val = k.val; rw [e1]; omega

/-- The weight's one block is the weight. -/
theorem weight_block_apply (c : Dev nD) (t : Fin cfg0.N) (k : Fin 1024) (cc : Fin 3072) :
    (blk0 V c 1 t : Vec Ideal S1024x3072 .bf16) (ix2 k cc) = (V c main_v3 : S1024x3072.Idx → EReal) (ix2 k cc) := by
  obtain ⟨-, -, e2, e3, -⟩ := block_indices t
  show (V c main_v3 : S1024x3072.Idx → EReal) (((cfg0.win 1).blk t).view.emb (ix2 k cc)) = _
  refine congrArg (V c main_v3 : S1024x3072.Idx → EReal) (funext fun a => Fin.ext ?_)
  match a with
  | ⟨0, _⟩ => show win0_1.index t (0 : Fin 2) * 1024 + 1 * k.val = k.val; rw [e2]; omega
  | ⟨1, _⟩ => show win0_1.index t (1 : Fin 2) * 3072 + 1 * cc.val = cc.val; rw [e3]; omega

/-- The bias row's one block is the bias row. -/
theorem bias_block_apply (c : Dev nD) (t : Fin cfg0.N) (cc : Fin 3072) :
    (blk0 V c 2 t : Vec Ideal S1x3072 .f32) (ix2 (0 : Fin 1) cc) = (V c main_v4 : S1x3072.Idx → EReal) (ix2 (0 : Fin 1) cc) := by
  obtain ⟨-, -, -, -, e4, e5, -⟩ := block_indices t
  show (V c main_v4 : S1x3072.Idx → EReal) (((cfg0.win 2).blk t).view.emb (ix2 (0 : Fin 1) cc)) = _
  refine congrArg (V c main_v4 : S1x3072.Idx → EReal) (funext fun a => Fin.ext ?_)
  match a with
  | ⟨0, _⟩ => show win0_2.index t (0 : Fin 2) * 1 + 1 * 0 = 0; rw [e4]
  | ⟨1, _⟩ => show win0_2.index t (1 : Fin 2) * 3072 + 1 * cc.val = cc.val; rw [e5]; omega

/-! ## What a point writes back -/

/-- Entry j of the tile computed at point t is the projection at the array index i that lies 512·t rows below j. -/
theorem tile_at (c : Dev nD) (t : Fin cfg0.N) (j : S512x3072.Idx) (i : S8192x3072.Idx)
    (h0 : (i 0).val = t.val * 512 + (j 0).val) (h1 : (i 1).val = (j 1).val) :
    tile0 (blk0 V c 0 t) (blk0 V c 1 t) (blk0 V c 2 t) j = projG (V c main_v1) (V c main_v3) (V c main_v4) i := by
  obtain ⟨r, cc, rfl⟩ : ∃ (r : Fin 512) (cc : Fin 3072), j = ix2 r cc := ⟨j 0, j 1, eq_ix2 j⟩
  obtain ⟨R, C, rfl⟩ : ∃ (R : Fin 8192) (C : Fin 3072), i = ix2 R C := ⟨i 0, i 1, eq_ix2 i⟩
  obtain rfl : C = cc := Fin.ext h1
  refine (tile0_apply (blk0 V c 0 t) (blk0 V c 1 t) (blk0 V c 2 t) r C).trans ?_
  refine Eq.trans ?_ (projG_ix2 (V c main_v1) (V c main_v3) (V c main_v4) R C).symm
  exact congrArg₂ (· + ·)
    (Finset.sum_congr rfl fun k _ => congrArg₂ (· * ·) (activations_block_apply V c t r k R h0) (weight_block_apply V c t k C))
    (bias_block_apply V c t C)

/-- What point t writes back is block t of the projection of the operand arrays as the region finds them. -/
theorem flushed_eq (c : Dev nD) (t : Fin cfg0.N) :
    (dat0 V c).flushed 3 t
      = ((cfg0.win 3).blk t).view.read (Elt Ideal) (projG (V c main_v1) (V c main_v3) (V c main_v4)) := by
  show (cfg0.win 3).cut (grid0.coords t) ((dat0 V c).after 3 t) = _
  rw [after0_3]
  obtain ⟨-, -, -, -, -, -, e6, e7⟩ := block_indices t
  funext j
  exact tile_at V c t j (((cfg0.win 3).blk t).view.emb j)
    (by show win0_3.index t (0 : Fin 2) * 512 + 1 * (j 0).val = t.val * 512 + (j 0).val; rw [e6]; omega)
    (by show win0_3.index t (1 : Fin 2) * 3072 + 1 * (j 1).val = (j 1).val; rw [e7]; omega)

/-! ## The sixteen row blocks cover the array -/

/-- An index of the output array is in point t's block when each coordinate is in the block's range on its axis. -/
theorem mem_out_block (t : Fin cfg0.N) (i : S8192x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v5).slice (win0_3.rect t)).set ↔ _
  rw [View.set_slice_whole, Rect.mem_set_unit]
  exact Iff.rfl

/-- Row r of the output array lies in the block of point r / 512, which writes back. -/
theorem out_blocks_cover (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 16 := N_0
  have hlt : (i 0).val / 512 < cfg0.N := by rw [hN]; omega
  refine ⟨⟨(i 0).val / 512, hlt⟩, flush0_3 _, ?_⟩
  rw [mem_out_block]
  obtain ⟨-, -, -, -, -, -, e6, e7⟩ := block_indices ⟨(i 0).val / 512, hlt⟩
  intro a
  match a with
  | ⟨0, _⟩ =>
    show win0_3.index ⟨(i 0).val / 512, hlt⟩ (0 : Fin 2) * 512 ≤ (i 0).val ∧ (i 0).val < win0_3.index ⟨(i 0).val / 512, hlt⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, hlt⟩ (1 : Fin 2) * 3072 ≤ (i 1).val ∧ (i 1).val < win0_3.index ⟨(i 0).val / 512, hlt⟩ (1 : Fin 2) * 3072 + 3072
    rw [e7]; omega

/-! ## The output array after the region -/

/-- After the region the output array is the projection of the three operand arrays as the region found them. -/
theorem proj_value (c : Dev nD) :
    (dat0 V c).arrAt 3 cfg0.N = projG (V c main_v1) (V c main_v3) (V c main_v4) :=
  (dat0 V c).arrAt_eq_of_cover 3 (projG (V c main_v1) (V c main_v3) (V c main_v4)) (fun t _ => flushed_eq V c t) out_blocks_cover

end Cert.KernelIdeal.Reg0

end
-- ==== Proof.V.HostGlue.lean ====
/-
  The host operations around the two kernels only re-lay the arrays (and change the float format, which on the extended
  reals is the identity): the input rows [4, 2048, 1024] are merged to [8192, 1024]; the input weight is transposed; the
  biases get a leading unit axis; the projected rows [8192, 3072] are split again into [4, 2048, 3072], cut into three
  column thirds, each third cut into 16 heads of width 64 (a reshape keeps the row-major position, so column n is
  coordinate n % 64 of head n / 64) and the position and head axes swapped; the output weight is transposed and its rows
  grouped by head. Each lemma reads one of these arrays at an index, over any contents of the buffers before the stretch.
-/
import proofs.«120176_j20856361190136_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import proofs.«120176_j20856361190136_2_alg».proof.Proof.M.Spec

noncomputable section

namespace Cert.KernelIdeal.Glue

open Cert.KernelIdeal Cert.KernelIdeal.Gen Idealize.ShloMosaic Idealize.ShloMosaic.TcCoe Idealize.SL.Sem
  Idealize.ShloMosaic.StableHlo Idealize.ShloMosaic.ValueIdx Cert.Attn

variable (H : Valuation τ sig (Elt Ideal))

/-- Row `b * 2048 + s` of the merged rows [8192, ·]. -/
def row (b : Fin 4) (s : Fin 2048) : Fin 8192 := ⟨b.val * 2048 + s.val, by have := b.isLt; have := s.isLt; omega⟩

/-! ## Each layout operation read at an index, over any operand -/

section Layout
variable {α : Type}

/-- [4, 2048, 1024] merged to [8192, 1024]: row r is position r % 2048 of batch r / 2048. -/
theorem mergeRows_apply (y : S4x2048x1024.Idx → α) (j : S8192x1024.Idx) :
    shapeCast S8192x1024 y shapeCasts_S4x2048x1024_S8192x1024 j
      = y (ix3 (⟨(j 0).val / 2048, by have h0 : (j 0).val < 8192 := (j 0).isLt; omega⟩ : Fin 4)
            (⟨(j 0).val % 2048, Nat.mod_lt _ (by decide)⟩ : Fin 2048) (⟨(j 1).val, (j 1).isLt⟩ : Fin 1024)) := by
  refine shapeCast_apply y _ j _ ?_
  rewrite [Shape.rowMajor_val_three, Shape.rowMajor_val_two]
  have h0 : (j 0).val < 8192 := (j 0).isLt
  show ((j 0).val / 2048 * 2048 + (j 0).val % 2048) * 1024 + (j 1).val = (j 0).val * 1024 + (j 1).val
  omega

/-- The input weight transposed. -/
theorem swapIn_apply (y : S3072x1024.Idx → α) (j : S1024x3072.Idx) :
    transpose S1024x3072 [1, 0] y transposes_S3072x1024_S1024x3072_1_0 j
      = y (ix2 (⟨(j 1).val, (j 1).isLt⟩ : Fin 3072) (⟨(j 0).val, (j 0).isLt⟩ : Fin 1024)) :=
  transpose_apply [1, 0] y transposes_S3072x1024_S1024x3072_1_0 j _ (fun b => match b with
    | ⟨0, _⟩ => rfl
    | ⟨1, _⟩ => rfl)

/-- A vector of 3072 as one row. -/
theorem rowIn_apply (y : S3072.Idx → α) (j : S1x3072.Idx) :
    shapeCast S1x3072 y shapeCasts_S3072_S1x3072 j = y (ix1 (⟨(j 1).val, (j 1).isLt⟩ : Fin 3072)) := by
  refine shapeCast_apply y _ j _ ?_
  rewrite [Shape.rowMajor_val_one, Shape.rowMajor_val_two]
  have h0 : (j 0).val < 1 := (j 0).isLt
  show (j 1).val = (j 0).val * 3072 + (j 1).val
  omega

/-- [8192, 3072] split to [4, 2048, 3072]: (b, s) is row b * 2048 + s. -/
theorem splitRows_apply (y : S8192x3072.Idx → α) (i : S4x2048x3072.Idx) :
    shapeCast S4x2048x3072 y shapeCasts_S8192x3072_S4x2048x3072 i
      = y (ix2 (⟨(i 0).val * 2048 + (i 1).val, by have h0 : (i 0).val < 4 := (i 0).isLt; have h1 : (i 1).val < 2048 := (i 1).isLt; omega⟩ : Fin 8192)
            (⟨(i 2).val, (i 2).isLt⟩ : Fin 3072)) := by
  refine shapeCast_apply y _ i _ ?_
  rewrite [Shape.rowMajor_val_two, Shape.rowMajor_val_three]
  show ((i 0).val * 2048 + (i 1).val) * 3072 + (i 2).val = ((i 0).val * 2048 + (i 1).val) * 3072 + (i 2).val
  rfl

/-- The first third of the columns. -/
theorem third0_apply (y : S4x2048x3072.Idx → α) (i : S4x2048x1024.Idx) :
    extractStridedSlice S4x2048x1024 ![0, 0, 0] y slices_S4x2048x3072_S4x2048x1024_0_0_0 i
      = y (ix3 (⟨(i 0).val, (i 0).isLt⟩ : Fin 4) (⟨(i 1).val, (i 1).isLt⟩ : Fin 2048)
            (⟨(i 2).val, by have h2 : (i 2).val < 1024 := (i 2).isLt; omega⟩ : Fin 3072)) :=
  extractStridedSlice_apply ![0, 0, 0] y slices_S4x2048x3072_S4x2048x1024_0_0_0 i _ (fun a => match a with
    | ⟨0, _⟩ => by show (i 0).val = 0 + (i 0).val; omega
    | ⟨1, _⟩ => by show (i 1).val = 0 + (i 1).val; omega
    | ⟨2, _⟩ => by show (i 2).val = 0 + (i 2).val; omega)
/-- The second third. -/
theorem third1_apply (y : S4x2048x3072.Idx → α) (i : S4x2048x1024.Idx) :
    extractStridedSlice S4x2048x1024 ![0, 0, 1024] y slices_S4x2048x3072_S4x2048x1024_0_0_1024 i
      = y (ix3 (⟨(i 0).val, (i 0).isLt⟩ : Fin 4) (⟨(i 1).val, (i 1).isLt⟩ : Fin 2048)
            (⟨1024 + (i 2).val, by have h2 : (i 2).val < 1024 := (i 2).isLt; omega⟩ : Fin 3072)) :=
  extractStridedSlice_apply ![0, 0, 1024] y slices_S4x2048x3072_S4x2048x1024_0_0_1024 i _ (fun a => match a with
    | ⟨0, _⟩ => by show (i 0).val = 0 + (i 0).val; omega
    | ⟨1, _⟩ => by show (i 1).val = 0 + (i 1).val; omega
    | ⟨2, _⟩ => by show 1024 + (i 2).val = 1024 + (i 2).val; rfl)
/-- The last third. -/
theorem third2_apply (y : S4x2048x3072.Idx → α) (i : S4x2048x1024.Idx) :
    extractStridedSlice S4x2048x1024 ![0, 0, 2048] y slices_S4x2048x3072_S4x2048x1024_0_0_2048 i
      = y (ix3 (⟨(i 0).val, (i 0).isLt⟩ : Fin 4) (⟨(i 1).val, (i 1).isLt⟩ : Fin 2048)
            (⟨2048 + (i 2).val, by have h2 : (i 2).val < 1024 := (i 2).isLt; omega⟩ : Fin 3072)) :=
  extractStridedSlice_apply ![0, 0, 2048] y slices_S4x2048x3072_S4x2048x1024_0_0_2048 i _ (fun a => match a with
    | ⟨0, _⟩ => by show (i 0).val = 0 + (i 0).val; omega
    | ⟨1, _⟩ => by show (i 1).val = 0 + (i 1).val; omega
    | ⟨2, _⟩ => by show 2048 + (i 2).val = 2048 + (i 2).val; rfl)

/-- 1024 columns cut into 16 heads of width 64: (h, d) is column h * 64 + d. -/
theorem heads_apply (y : S4x2048x1024.Idx → α) (i : S4x2048x16x64.Idx) :
    shapeCast S4x2048x16x64 y shapeCasts_S4x2048x1024_S4x2048x16x64 i
      = y (ix3 (⟨(i 0).val, (i 0).isLt⟩ : Fin 4) (⟨(i 1).val, (i 1).isLt⟩ : Fin 2048)
            (⟨(i 2).val * 64 + (i 3).val, by have h2 : (i 2).val < 16 := (i 2).isLt; have h3 : (i 3).val < 64 := (i 3).isLt; omega⟩ : Fin 1024)) := by
  refine shapeCast_apply y _ i _ ?_
  rewrite [Shape.rowMajor_val_three, Shape.rowMajor_val_four]
  show ((i 0).val * 2048 + (i 1).val) * 1024 + ((i 2).val * 64 + (i 3).val) = (((i 0).val * 2048 + (i 1).val) * 16 + (i 2).val) * 64 + (i 3).val
  omega

/-- The position and head axes swapped. -/
theorem swapHeads_apply (y : S4x2048x16x64.Idx → α) (j : S4x16x2048x64.Idx) :
    transpose S4x16x2048x64 [0, 2, 1, 3] y transposes_S4x2048x16x64_S4x16x2048x64_0_2_1_3 j
      = y (ix4 (⟨(j 0).val, (j 0).isLt⟩ : Fin 4) (⟨(j 2).val, (j 2).isLt⟩ : Fin 2048) (⟨(j 1).val, (j 1).isLt⟩ : Fin 16) (⟨(j 3).val, (j 3).isLt⟩ : Fin 64)) :=
  transpose_apply [0, 2, 1, 3] y transposes_S4x2048x16x64_S4x16x2048x64_0_2_1_3 j _ (fun b => match b with
    | ⟨0, _⟩ => rfl
    | ⟨1, _⟩ => rfl
    | ⟨2, _⟩ => rfl
    | ⟨3, _⟩ => rfl)

/-- The output weight transposed. -/
theorem swapOut_apply (y : S1024x1024.Idx → α) (j : S1024x1024.Idx) :
    transpose S1024x1024 [1, 0] y transposes_S1024x1024_S1024x1024_1_0 j
      = y (ix2 (⟨(j 1).val, (j 1).isLt⟩ : Fin 1024) (⟨(j 0).val, (j 0).isLt⟩ : Fin 1024)) :=
  transpose_apply [1, 0] y transposes_S1024x1024_S1024x1024_1_0 j _ (fun b => match b with
    | ⟨0, _⟩ => rfl
    | ⟨1, _⟩ => rfl)

/-- 1024 rows grouped by head: (h, d) is row h * 64 + d. -/
theorem groupRows_apply (y : S1024x1024.Idx → α) (j : S16x64x1024.Idx) :
    shapeCast S16x64x1024 y shapeCasts_S1024x1024_S16x64x1024 j
      = y (ix2 (⟨(j 0).val * 64 + (j 1).val, by have h0 : (j 0).val < 16 := (j 0).isLt; have h1 : (j 1).val < 64 := (j 1).isLt; omega⟩ : Fin 1024)
            (⟨(j 2).val, (j 2).isLt⟩ : Fin 1024)) := by
  refine shapeCast_apply y _ j _ ?_
  rewrite [Shape.rowMajor_val_two, Shape.rowMajor_val_three]
  show ((j 0).val * 64 + (j 1).val) * 1024 + (j 2).val = ((j 0).val * 64 + (j 1).val) * 1024 + (j 2).val
  rfl

/-- A vector of 1024 as one row. -/
theorem rowOut_apply (y : S1024.Idx → α) (j : S1x1024.Idx) :
    shapeCast S1x1024 y shapeCasts_S1024_S1x1024 j = y (ix1 (⟨(j 1).val, (j 1).isLt⟩ : Fin 1024)) := by
  refine shapeCast_apply y _ j _ ?_
  rewrite [Shape.rowMajor_val_one, Shape.rowMajor_val_two]
  have h0 : (j 0).val < 1 := (j 0).isLt
  show (j 1).val = (j 0).val * 1024 + (j 1).val
  omega

end Layout

/-! ## Before the first kernel: the arrays its windows stage -/

theorem term0_x : StableHlo.after (hostOps0 (F := Ideal)) H (Proc.devRef .tc main_v1)
    = (truncf (F := Ideal) .bf16 (shapeCast S8192x1024 (H (Proc.devRef .tc main_arg0)) shapeCasts_S4x2048x1024_S8192x1024) bitsLt_bf16_f32
        : (⟨S8192x1024, .bf16⟩ : BufTy).Contents (Elt Ideal)) := by
  after_results <;> rfl

/-- The merged input rows: row r is position r % 2048 of batch r / 2048. -/
theorem glue0_x : StableHlo.after (hostOps0 (F := Ideal)) H (Proc.devRef .tc main_v1)
    = fun j : S8192x1024.Idx => H (Proc.devRef .tc main_arg0)
        (ix3 (⟨(j 0).val / 2048, by have h0 : (j 0).val < 8192 := (j 0).isLt; omega⟩ : Fin 4)
             (⟨(j 0).val % 2048, Nat.mod_lt _ (by decide)⟩ : Fin 2048) (⟨(j 1).val, (j 1).isLt⟩ : Fin 1024)) := by
  rw [term0_x]
  funext j
  exact mergeRows_apply _ j

/-- The same at row b * 2048 + s. -/
theorem glue0_x_at (b : Fin 4) (s : Fin 2048) (e : Fin 1024) :
    StableHlo.after (hostOps0 (F := Ideal)) H (Proc.devRef .tc main_v1) (ix2 (row b s) e) = H (Proc.devRef .tc main_arg0) (ix3 b s e) := by
  rw [glue0_x]
  have hb := b.isLt; have hs := s.isLt
  refine congrArg (H (Proc.devRef .tc main_arg0)) (funext fun a => Fin.ext ?_)
  match a with
  | ⟨0, _⟩ => show (b.val * 2048 + s.val) / 2048 = b.val; omega
  | ⟨1, _⟩ => show (b.val * 2048 + s.val) % 2048 = s.val; omega
  | ⟨2, _⟩ => rfl

theorem term0_w : StableHlo.after (hostOps0 (F := Ideal)) H (Proc.devRef .tc main_v3)
    = (truncf (F := Ideal) .bf16 (transpose S1024x3072 [1, 0] (H (Proc.devRef .tc main_arg1)) transposes_S3072x1024_S1024x3072_1_0) bitsLt_bf16_f32
        : (⟨S1024x3072, .bf16⟩ : BufTy).Contents (Elt Ideal)) := by
  after_results <;> rfl

/-- The transposed input weight. -/
theorem glue0_w : StableHlo.after (hostOps0 (F := Ideal)) H (Proc.devRef .tc main_v3)
    = fun j : S1024x3072.Idx => H (Proc.devRef .tc main_arg1)
        (ix2 (⟨(j 1).val, (j 1).isLt⟩ : Fin 3072) (⟨(j 0).val, (j 0).isLt⟩ : Fin 1024)) := by
  rw [term0_w]
  funext j
  exact swapIn_apply _ j

theorem glue0_w_at (e : Fin 1024) (n : Fin 3072) :
    StableHlo.after (hostOps0 (F := Ideal)) H (Proc.devRef .tc main_v3) (ix2 e n) = H (Proc.devRef .tc main_arg1) (ix2 n e) := by
  rw [glue0_w]

theorem term0_b : StableHlo.after (hostOps0 (F := Ideal)) H (Proc.devRef .tc main_v4)
    = (shapeCast S1x3072 (H (Proc.devRef .tc main_arg2)) shapeCasts_S3072_S1x3072 : (⟨S1x3072, .f32⟩ : BufTy).Contents (Elt Ideal)) := by
  after_results <;> rfl

/-- The input bias as one row. -/
theorem glue0_b : StableHlo.after (hostOps0 (F := Ideal)) H (Proc.devRef .tc main_v4)
    = fun j : S1x3072.Idx => H (Proc.devRef .tc main_arg2) (ix1 (⟨(j 1).val, (j 1).isLt⟩ : Fin 3072)) := by
  rw [term0_b]
  funext j
  exact rowIn_apply _ j

theorem glue0_b_at (z : Fin 1) (n : Fin 3072) :
    StableHlo.after (hostOps0 (F := Ideal)) H (Proc.devRef .tc main_v4) (ix2 z n) = H (Proc.devRef .tc main_arg2) (ix1 n) := by
  rw [glue0_b]

/-! ## Between the kernels: the arrays the second kernel's windows stage -/

theorem term1_q : StableHlo.after (hostOps1 (F := Ideal)) H (Proc.devRef .tc main_v11)
    = (transpose S4x16x2048x64 [0, 2, 1, 3]
        (shapeCast S4x2048x16x64
          (extractStridedSlice S4x2048x1024 ![0, 0, 0]
            (shapeCast S4x2048x3072 (H (Proc.devRef .tc main_v5)) shapeCasts_S8192x3072_S4x2048x3072)
            slices_S4x2048x3072_S4x2048x1024_0_0_0)
          shapeCasts_S4x2048x1024_S4x2048x16x64)
        transposes_S4x2048x16x64_S4x16x2048x64_0_2_1_3 : (⟨S4x16x2048x64, .bf16⟩ : BufTy).Contents (Elt Ideal)) := by
  after_results <;> rfl
theorem term1_k : StableHlo.after (hostOps1 (F := Ideal)) H (Proc.devRef .tc main_v13)
    = (transpose S4x16x2048x64 [0, 2, 1, 3]
        (shapeCast S4x2048x16x64
          (extractStridedSlice S4x2048x1024 ![0, 0, 1024]
            (shapeCast S4x2048x3072 (H (Proc.devRef .tc main_v5)) shapeCasts_S8192x3072_S4x2048x3072)
            slices_S4x2048x3072_S4x2048x1024_0_0_1024)
          shapeCasts_S4x2048x1024_S4x2048x16x64)
        transposes_S4x2048x16x64_S4x16x2048x64_0_2_1_3 : (⟨S4x16x2048x64, .bf16⟩ : BufTy).Contents (Elt Ideal)) := by
  after_results <;> rfl
theorem term1_v : StableHlo.after (hostOps1 (F := Ideal)) H (Proc.devRef .tc main_v15)
    = (transpose S4x16x2048x64 [0, 2, 1, 3]
        (shapeCast S4x2048x16x64
          (extractStridedSlice S4x2048x1024 ![0, 0, 2048]
            (shapeCast S4x2048x3072 (H (Proc.devRef .tc main_v5)) shapeCasts_S8192x3072_S4x2048x3072)
            slices_S4x2048x3072_S4x2048x1024_0_0_2048)
          shapeCasts_S4x2048x1024_S4x2048x16x64)
        transposes_S4x2048x16x64_S4x16x2048x64_0_2_1_3 : (⟨S4x16x2048x64, .bf16⟩ : BufTy).Contents (Elt Ideal)) := by
  after_results <;> rfl

/-- The queries by head: coordinate d of head h at (b, s) is column h * 64 + d of row b * 2048 + s of the projection. -/
theorem glue1_q : StableHlo.after (hostOps1 (F := Ideal)) H (Proc.devRef .tc main_v11)
    = fun j : S4x16x2048x64.Idx => H (Proc.devRef .tc main_v5)
        (ix2 (row ⟨(j 0).val, (j 0).isLt⟩ ⟨(j 2).val, (j 2).isLt⟩) (colQ ⟨(j 1).val, (j 1).isLt⟩ ⟨(j 3).val, (j 3).isLt⟩)) := by
  rw [term1_q]
  funext j
  refine (swapHeads_apply _ j).trans ?_
  refine (heads_apply _ _).trans ?_
  refine (third0_apply _ _).trans ?_
  refine (splitRows_apply _ _).trans ?_
  rfl
/-- The keys: the second third of the columns. -/
theorem glue1_k : StableHlo.after (hostOps1 (F := Ideal)) H (Proc.devRef .tc main_v13)
    = fun j : S4x16x2048x64.Idx => H (Proc.devRef .tc main_v5)
        (ix2 (row ⟨(j 0).val, (j 0).isLt⟩ ⟨(j 2).val, (j 2).isLt⟩) (colK ⟨(j 1).val, (j 1).isLt⟩ ⟨(j 3).val, (j 3).isLt⟩)) := by
  rw [term1_k]
  funext j
  refine (swapHeads_apply _ j).trans ?_
  refine (heads_apply _ _).trans ?_
  refine (third1_apply _ _).trans ?_
  refine (splitRows_apply _ _).trans ?_
  rfl
/-- The values: the last third. -/
theorem glue1_v : StableHlo.after (hostOps1 (F := Ideal)) H (Proc.devRef .tc main_v15)
    = fun j : S4x16x2048x64.Idx => H (Proc.devRef .tc main_v5)
        (ix2 (row ⟨(j 0).val, (j 0).isLt⟩ ⟨(j 2).val, (j 2).isLt⟩) (colV ⟨(j 1).val, (j 1).isLt⟩ ⟨(j 3).val, (j 3).isLt⟩)) := by
  rw [term1_v]
  funext j
  refine (swapHeads_apply _ j).trans ?_
  refine (heads_apply _ _).trans ?_
  refine (third2_apply _ _).trans ?_
  refine (splitRows_apply _ _).trans ?_
  rfl

theorem glue1_q_at (b : Fin 4) (h : Fin 16) (s : Fin 2048) (d : Fin 64) :
    StableHlo.after (hostOps1 (F := Ideal)) H (Proc.devRef .tc main_v11) (ix4 b h s d) = H (Proc.devRef .tc main_v5) (ix2 (row b s) (colQ h d)) := by
  rw [glue1_q]
theorem glue1_k_at (b : Fin 4) (h : Fin 16) (s : Fin 2048) (d : Fin 64) :
    StableHlo.after (hostOps1 (F := Ideal)) H (Proc.devRef .tc main_v13) (ix4 b h s d) = H (Proc.devRef .tc main_v5) (ix2 (row b s) (colK h d)) := by
  rw [glue1_k]
theorem glue1_v_at (b : Fin 4) (h : Fin 16) (s : Fin 2048) (d : Fin 64) :
    StableHlo.after (hostOps1 (F := Ideal)) H (Proc.devRef .tc main_v15) (ix4 b h s d) = H (Proc.devRef .tc main_v5) (ix2 (row b s) (colV h d)) := by
  rw [glue1_v]

theorem term1_ow : StableHlo.after (hostOps1 (F := Ideal)) H (Proc.devRef .tc main_v18)
    = (truncf (F := Ideal) .bf16
        (shapeCast S16x64x1024 (transpose S1024x1024 [1, 0] (H (Proc.devRef .tc main_arg3)) transposes_S1024x1024_S1024x1024_1_0)
          shapeCasts_S1024x1024_S16x64x1024) bitsLt_bf16_f32 : (⟨S16x64x1024, .bf16⟩ : BufTy).Contents (Elt Ideal)) := by
  after_results <;> rfl

/-- The transposed output weight with its rows grouped by head: (h, d, f) is entry (f, h * 64 + d) of the output weight. -/
theorem glue1_ow : StableHlo.after (hostOps1 (F := Ideal)) H (Proc.devRef .tc main_v18)
    = fun j : S16x64x1024.Idx => H (Proc.devRef .tc main_arg3)
        (ix2 (⟨(j 2).val, (j 2).isLt⟩ : Fin 1024)
          (⟨(j 0).val * 64 + (j 1).val, by have h0 : (j 0).val < 16 := (j 0).isLt; have h1 : (j 1).val < 64 := (j 1).isLt; omega⟩ : Fin 1024)) := by
  rw [term1_ow]
  funext j
  show shapeCast S16x64x1024 (transpose S1024x1024 [1, 0] (H (Proc.devRef .tc main_arg3)) transposes_S1024x1024_S1024x1024_1_0)
    shapeCasts_S1024x1024_S16x64x1024 j = _
  refine (groupRows_apply _ j).trans ?_
  refine (swapOut_apply _ _).trans ?_
  rfl

theorem glue1_ow_at (h : Fin 16) (d : Fin 64) (f : Fin 1024) :
    StableHlo.after (hostOps1 (F := Ideal)) H (Proc.devRef .tc main_v18) (ix3 h d f)
      = H (Proc.devRef .tc main_arg3) (ix2 f (⟨h.val * 64 + d.val, by have := h.isLt; have := d.isLt; omega⟩ : Fin 1024)) := by
  rw [glue1_ow]

theorem term1_ob : StableHlo.after (hostOps1 (F := Ideal)) H (Proc.devRef .tc main_v19)
    = (shapeCast S1x1024 (H (Proc.devRef .tc main_arg4)) shapeCasts_S1024_S1x1024 : (⟨S1x1024, .f32⟩ : BufTy).Contents (Elt Ideal)) := by
  after_results <;> rfl

/-- The output bias as one row. -/
theorem glue1_ob : StableHlo.after (hostOps1 (F := Ideal)) H (Proc.devRef .tc main_v19)
    = fun j : S1x1024.Idx => H (Proc.devRef .tc main_arg4) (ix1 (⟨(j 1).val, (j 1).isLt⟩ : Fin 1024)) := by
  rw [term1_ob]
  funext j
  exact rowOut_apply _ j

theorem glue1_ob_at (z : Fin 1) (f : Fin 1024) :
    StableHlo.after (hostOps1 (F := Ideal)) H (Proc.devRef .tc main_v19) (ix2 z f) = H (Proc.devRef .tc main_arg4) (ix1 f) := by
  rw [glue1_ob]

end Cert.KernelIdeal.Glue

end
-- ==== Proof.V.Entry.lean ====
/-
  What the attention kernel finds in its operand arrays when it is entered, in terms of the launch contents X, Win, bin,
  Wout, bout of the five argument arrays: the first kernel has written the input projection of the merged rows, row
  b * 2048 + s and column n holding lin X Win bin b s n; the host operations between the kernels cut that array into the
  heads' queries, keys and values, which are therefore the specification's qh, kh and vh; the transposed output weight with
  its rows grouped by head holds Wout (f, h * 64 + d) at (h, d, f); the output bias row holds bout. The argument arrays
  themselves are written by nothing before the attention kernel.
-/
import proofs.«120176_j20856361190136_2_alg».proof.Proof.I.Run
import proofs.«120176_j20856361190136_2_alg».proof.Proof.I.Region0Value
import proofs.«120176_j20856361190136_2_alg».proof.Proof.V.HostGlue
import proofs.«120176_j20856361190136_2_alg».proof.Proof.M.Spec
import proofs.«120176_j20856361190136_2_alg».proof.Proof.M.SpecLaws

noncomputable section

namespace Cert.KernelIdeal.Entry

open Cert.KernelIdeal Cert.KernelIdeal.Gen Idealize.ShloMosaic Idealize.ShloMosaic.TcCoe Idealize.SL.Sem
  Idealize.ShloMosaic.StableHlo Idealize.ShloMosaic.ValueIdx Cert.Attn Cert.KernelIdeal.Glue
open scoped BigOperators

variable (m : (ℓ : Loc nD τ sig) → Buf (Elt Ideal) ℓ) (c : Dev nD)

/-- An argument array is still as launched after the first kernel: no host operation before it writes one and it is none
    of that kernel's arrays. -/
theorem arg_kept (r : Ref sig .tc) (h0 : ∀ w, Pipeline.arrRef spec0 w ≠ r) (hw0 : r ∉ hostOps0_W) :
    Whole.held2 m c (Proc.devRef .tc r) = m ((c : Thread nD τ).loc r) :=
  (Whole.held2_other m c r h0).trans ((StableHlo.after_of_writes_sub hostOps0 _ hostOps0_writes hw0).trans rfl)

/-- After the first kernel the projected array holds, at row b * 2048 + s and column n, the input projection. -/
theorem proj_at (b : Fin 4) (s : Fin 2048) (n : Fin 3072) :
    Whole.held2 m c (Proc.devRef .tc main_v5) (ix2 (row b s) n)
      = lin (m ((c : Thread nD τ).loc main_arg0)) (m ((c : Thread nD τ).loc main_arg1)) (m ((c : Thread nD τ).loc main_arg2)) b s n := by
  have e : Whole.held2 m c (Proc.devRef .tc main_v5)
      = Reg0.projG (Whole.entry0 m c main_v1) (Whole.entry0 m c main_v3) (Whole.entry0 m c main_v4) :=
    (Whole.held2_array m c 3).trans (Reg0.proj_value (Whole.entry0 m) c)
  rw [e, Reg0.projG_ix2]
  exact congrArg₂ (· + ·)
    (Finset.sum_congr rfl fun k _ => congrArg₂ (· * ·) (glue0_x_at (Whole.held0 m c) b s k) (glue0_w_at (Whole.held0 m c) k n))
    (glue0_b_at (Whole.held0 m c) 0 n)

/-- The queries the attention kernel stages are the specification's. -/
theorem entry_q (b : Fin 4) (h : Fin 16) (s : Fin 2048) (d : Fin 64) :
    Whole.entry1 m c main_v11 (ix4 b h s d)
      = qh (m ((c : Thread nD τ).loc main_arg0)) (m ((c : Thread nD τ).loc main_arg1)) (m ((c : Thread nD τ).loc main_arg2)) b h s d :=
  (glue1_q_at (Whole.held2 m c) b h s d).trans (proj_at m c b s (colQ h d))
/-- The keys. -/
theorem entry_k (b : Fin 4) (h : Fin 16) (s : Fin 2048) (d : Fin 64) :
    Whole.entry1 m c main_v13 (ix4 b h s d)
      = kh (m ((c : Thread nD τ).loc main_arg0)) (m ((c : Thread nD τ).loc main_arg1)) (m ((c : Thread nD τ).loc main_arg2)) b h s d :=
  (glue1_k_at (Whole.held2 m c) b h s d).trans (proj_at m c b s (colK h d))
/-- The values. -/
theorem entry_v (b : Fin 4) (h : Fin 16) (s : Fin 2048) (d : Fin 64) :
    Whole.entry1 m c main_v15 (ix4 b h s d)
      = vh (m ((c : Thread nD τ).loc main_arg0)) (m ((c : Thread nD τ).loc main_arg1)) (m ((c : Thread nD τ).loc main_arg2)) b h s d :=
  (glue1_v_at (Whole.held2 m c) b h s d).trans (proj_at m c b s (colV h d))

/-- The output weight as the attention kernel stages it: entry (h, d, f) is entry (f, h * 64 + d) of the argument. -/
theorem entry_ow (h : Fin 16) (d : Fin 64) (f : Fin 1024) :
    Whole.entry1 m c main_v18 (ix3 h d f) = m ((c : Thread nD τ).loc main_arg3) (ix2 f (feat h d)) := by
  refine (glue1_ow_at (Whole.held2 m c) h d f).trans ?_
  rw [arg_kept m c main_arg3 (by decide) (by decide)]
  rfl

/-- The output bias row. -/
theorem entry_ob (f : Fin 1024) :
    Whole.entry1 m c main_v19 (ix2 (0 : Fin 1) f) = m ((c : Thread nD τ).loc main_arg4) (ix1 f) := by
  refine (glue1_ob_at (Whole.held2 m c) 0 f).trans ?_
  rw [arg_kept m c main_arg4 (by decide) (by decide)]

end Cert.KernelIdeal.Entry

end
-- ==== Proof.V.KernelValue.lean ====
/-
  The attention kernel's result array, after all of its grid points, as the specification applied to
  the launch contents of the five argument arrays: for each batch the sixteen heads add their contexts' output projections
  into the carried accumulator, and the last head's point writes the accumulator plus the output bias back. The heads'
  arrays the region is entered from are the input projection cut into heads, the out-projection's slices the transposed
  weight's, the bias row the bias; under those equations the kernel's head-by-head arrangement is the specification.
-/
import proofs.«120176_j20856361190136_2_alg».proof.Proof.I.Run
import proofs.«120176_j20856361190136_2_alg».proof.Proof.M.Spec
import proofs.«120176_j20856361190136_2_alg».proof.Proof.V.AttnValue
import proofs.«120176_j20856361190136_2_alg».proof.Proof.V.Entry
import proofs.«120176_j20856361190136_2_alg».proof.Proof.V.KernelForm

noncomputable section

namespace Cert.KernelIdeal.Value

open Cert.KernelIdeal Cert.KernelIdeal.Gen Idealize.ShloMosaic Idealize.ShloMosaic.TcCoe Idealize.SL.Sem

theorem attn_value (m : (ℓ : Loc nD τ sig) → Buf (Elt Ideal) ℓ) (c : Dev nD) :
    (Cert.KernelIdeal.Reg1.dat1 (Cert.KernelIdeal.Whole.entry1 m) c).arrAt 5 cfg1.N
      = Cert.Attn.G (m ((c : Thread nD τ).loc main_arg0)) (m ((c : Thread nD τ).loc main_arg1)) (m ((c : Thread nD τ).loc main_arg2))
          (m ((c : Thread nD τ).loc main_arg3)) (m ((c : Thread nD τ).loc main_arg4)) :=
  (Cert.KernelIdeal.AttnValue.attn_array (Cert.KernelIdeal.Whole.entry1 m) c).trans (funext fun j =>
    Cert.Attn.kOut_eq_out _ _ _ _ _ (m ((c : Thread nD τ).loc main_arg0)) (m ((c : Thread nD τ).loc main_arg1)) (m ((c : Thread nD τ).loc main_arg2))
      (m ((c : Thread nD τ).loc main_arg3)) (m ((c : Thread nD τ).loc main_arg4))
      (Cert.KernelIdeal.Entry.entry_q m c) (Cert.KernelIdeal.Entry.entry_k m c) (Cert.KernelIdeal.Entry.entry_v m c)
      (Cert.KernelIdeal.Entry.entry_ow m c) (Cert.KernelIdeal.Entry.entry_ob m c) (j 0) (j 1) (j 2))

end Cert.KernelIdeal.Value

end
-- ==== Proof.lean ====
/-
  Multi-head self-attention over [4, 2048, 1024] with input and output projections, computed by two kernels, against its
  plain reference.

  The first kernel is the input projection of the 8192 merged rows in sixteen blocks of 512 rows. Host operations cut the
  projected array into the queries, keys and values of sixteen heads of width 64. The second kernel visits the 64 pairs
  (batch, head) in order; it carries one accumulator [2048, 1024] between its grid points, cleared at each batch's first
  head; at every point it adds, 256 query rows at a time, softmax(q k^T / 8) v times the head's 64 rows of the transposed
  output weight; at each batch's last head it writes the accumulator plus the output bias back.

  Frames: every execution of each program terminates without a fault with its five argument arrays as launched — the two
  kernel programs because the argument through their four items (host operations, first kernel, host operations, second
  kernel) holds at every float instance, the words' and the extended reals' alike; the reference by its run. No operation
  is read differently on the extended reals than as printed, so the idealization claim is trivial. Values on the extended
  reals: both programs end with the result array at the one function `Cert.Attn.G` of the five argument arrays. The
  reference is `G` operation by operation. The kernels are `G` because a product with one eighth is the quotient by the
  square root of sixty-four, the maximum with minus infinity is the identity, sixteen terms added one at a time from zero
  are their sum, and a sum over 1024 features is the sum over the heads of the sums over each head's 64 coordinates — laws
  that hold at every extended real, so the precondition is not used.
-/
import proofs.«120176_j20856361190136_2_alg».proof.Defs
import proofs.«120176_j20856361190136_2_alg».proof.Proof.Gen.Kernel
import proofs.«120176_j20856361190136_2_alg».proof.Proof.Gen.KernelIdeal
import proofs.«120176_j20856361190136_2_alg».proof.Proof.Gen.ReferenceIdeal
import proofs.«120176_j20856361190136_2_alg».proof.Proof.Gen.Pre_finite_inputs
import proofs.«120176_j20856361190136_2_alg».proof.Proof.B.Run
import proofs.«120176_j20856361190136_2_alg».proof.Proof.I.Run
import proofs.«120176_j20856361190136_2_alg».proof.Proof.M.RefIsSpec
import proofs.«120176_j20856361190136_2_alg».proof.Proof.V.KernelValue

noncomputable section

namespace Cert.Proof

open Idealize.ShloMosaic Idealize.SL.Sem

/-- The word-level program runs to the end and keeps its arguments. -/
theorem frame_kernel : Cert.frame_Kernel := fun m ρ _ => Cert.Kernel.Whole.frame m ρ

/-- So does its reading on the extended reals. -/
theorem frame_kernelIdeal : Cert.frame_KernelIdeal := fun m ρ _ => Cert.KernelIdeal.Whole.frame m ρ

/-- The reference's run, its result dropped. -/
theorem frame_referenceIdeal : Cert.frame_ReferenceIdeal := fun m ρ _ =>
  (θ_run Cert.ReferenceIdeal.defs _ _).mono (fun _ h c => (h c).2) (Cert.RefSpec.ref_run m ρ)

/-- Nothing was rewritten. -/
theorem preserves : Cert.preserves_Kernel_KernelIdeal := trivial

/-- From memories agreeing on the arguments both programs end with the result array at `G` of the arguments. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Value.attn_value m c), (h c).2⟩)
      (Cert.KernelIdeal.Whole.result (F := Ideal) m ρ)
  · exact (θ_run Cert.ReferenceIdeal.defs _ _).mono
      (fun _ h c => ⟨by rw [(h c).1, (hagree c).1, (hagree c).2.1, (hagree c).2.2.1, (hagree c).2.2.2.1, (hagree c).2.2.2.2], (h c).2⟩)
      (Cert.RefSpec.ref_run m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
